-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v94)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v94) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S5 : Shape := ⟨1, ![5]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S5 : S_.BroadcastsInDim S5 (![] : Fin 0 → Fin S5.rank)
  reducesTo_S5_S_d0 : S5.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg9 : FVec F S128 .f32) (main_arg10 : FVec F S128 .f32) (main_arg11 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg6 : FVec F S128 .f32) (main_arg7 : FVec F S128 .f32) (main_arg8 : FVec F S128x128 .f32) (main_arg9 : FVec F S128 .f32) (main_arg10 : FVec F S128 .f32) (main_arg11 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_v33

def fn {F : FTy → Type} [FloatOps F] (main_arg0 : FVec F S100000x128 .f32) (main_arg1 : IVec S2x1600000 32) (main_arg2 : IVec S1600000 32) (main_arg3 : FVec F S5 .f32) (main_arg4 : FVec F S128x128 .f32) (main_arg5 : FVec F S128 .f32) (main_arg6 : FVec F S128 .f32) (main_arg7 : FVec F S128 .f32) (main_arg8 : FVec F S128x128 .f32) (main_arg9 : FVec F S128 .f32) (main_arg10 : FVec F S128 .f32) (main_arg11 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S5 .f32 := Host.absf main_arg3
  let main_cst_0 : FVec F S_ .f32 := constant S_ .f32 0x7F800000#32
  let main_v5 : FVec F S5 .f32 := broadcastInDim S5 ![] bcast_S_S5 main_cst_0
  let main_v6 : IVec S5 1 := cmpf .olt main_v4 main_v5
  let main_c_1 : IVec S_ 1 := constantI S_ 1 1#1
  let main_v7 : IVec S_ 1 := (fun x v => Host.reduce IntOp.andi x v reducesTo_S5_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S5 : Shape := ⟨1, ![5]⟩
abbrev S128x128 : Shape := ⟨2, ![128, 128]⟩
abbrev S128 : Shape := ⟨1, ![128]⟩
abbrev S_ : Shape := ⟨0, ![]⟩
abbrev S1 : Shape := ⟨1, ![1]⟩
abbrev S1x1600000 : Shape := ⟨2, ![1, 1600000]⟩
abbrev S1600000x1 : Shape := ⟨2, ![1600000, 1]⟩
abbrev S1600000x128 : Shape := ⟨2, ![1600000, 128]⟩
abbrev S1x128 : Shape := ⟨2, ![1, 128]⟩
abbrev S20x2x128 : Shape := ⟨3, ![20, 2, 128]⟩
abbrev S5000x128 : Shape := ⟨2, ![5000, 128]⟩
abbrev S1x2x128 : Shape := ⟨3, ![1, 2, 128]⟩
abbrev S2x128 : Shape := ⟨2, ![2, 128]⟩

abbrev nBuf : Space → Nat
  | .hbm => 142
  | .vmem => 26
  | .smem => 0
  | _ => 0

abbrev hbmTy0_0 (i : Nat) : BufTy := match i % 128 with
  | 0 => ⟨S100000x128, .f32⟩
  | 1 => ⟨S2x1600000, .i32⟩
  | 2 => ⟨S1600000, .i32⟩
  | 3 => ⟨S5, .f32⟩
  | 4 => ⟨S128x128, .f32⟩
  | 5 => ⟨S128, .f32⟩
  | 6 => ⟨S128, .f32⟩
  | 7 => ⟨S128, .f32⟩
  | 8 => ⟨S128x128, .f32⟩
  | 9 => ⟨S128, .f32⟩
  | 10 => ⟨S128, .f32⟩
  | 11 => ⟨S128, .f32⟩
  | 12 => ⟨S_, .f32⟩
  | 13 => ⟨S_, .f32⟩
  | 14 => ⟨S_, .f32⟩
  | 15 => ⟨S_, .f32⟩
  | 16 => ⟨S1, .f32⟩
  | 17 => ⟨S5, .f32⟩
  | 18 => ⟨S5, .f32⟩
  | 19 => ⟨S5, .f32⟩
  | 20 => ⟨S_, .f32⟩
  | 21 => ⟨S_, .f32⟩
  | 22 => ⟨S1, .f32⟩
  | 23 => ⟨S5, .f32⟩
  | 24 => ⟨S5, .f32⟩
  | 25 => ⟨S1x1600000, .i32⟩
  | 26 => ⟨S1600000, .i32⟩
  | 27 => ⟨S1x1600000, .i32⟩
  | 28 => ⟨S1600000, .i32⟩
  | 29 => ⟨S_, .i32⟩
  | 30 => ⟨S1600000, .i32⟩
  | 31 => ⟨S1600000, .i1⟩
  | 32 => ⟨S_, .i32⟩
  | 33 => ⟨S1600000, .i32⟩
  | 34 => ⟨S1600000, .i1⟩
  | 35 => ⟨S1600000, .i1⟩
  | 36 => ⟨S_, .i32⟩
  | 37 => ⟨S1600000, .i32⟩
  | 38 => ⟨S1600000, .i32⟩
  | 39 => ⟨S_, .i32⟩
  | 40 => ⟨S_, .i32⟩
  | 41 => ⟨S_, .i32⟩
  | 42 => ⟨S1600000, .i32⟩
  | 43 => ⟨S1600000, .i32⟩
  | 44 => ⟨S_, .i32⟩
  | 45 => ⟨S1600000, .i32⟩
  | 46 => ⟨S1600000, .i32⟩
  | 47 => ⟨S_, .i32⟩
  | 48 => ⟨S1600000, .i32⟩
  | 49 => ⟨S1600000, .i1⟩
  | 50 => ⟨S_, .i32⟩
  | 51 => ⟨S1600000, .i32⟩
  | 52 => ⟨S1600000, .i32⟩
  | 53 => ⟨S1600000, .i32⟩
  | 54 => ⟨S1600000x1, .i32⟩
  | 55 => ⟨S1600000, .f32⟩
  | 56 => ⟨S_, .f32⟩
  | 57 => ⟨S_, .f32⟩
  | 58 => ⟨S1600000, .f32⟩
  | 59 => ⟨S1600000, .f32⟩
  | 60 => ⟨S1600000x1, .f32⟩
  | 61 => ⟨S_, .i32⟩
  | 62 => ⟨S1600000, .i32⟩
  | 63 => ⟨S1600000, .i1⟩
  | 64 => ⟨S_, .i32⟩
  | 65 => ⟨S1600000, .i32⟩
  | 66 => ⟨S1600000, .i32⟩
  | 67 => ⟨S1600000, .i32⟩
  | 68 => ⟨S1600000x1, .i32⟩
  | 69 => ⟨S1600000x128, .f32⟩
  | 70 => ⟨S1600000x128, .f32⟩
  | 71 => ⟨S1600000x128, .f32⟩
  | 72 => ⟨S_, .f32⟩
  | 73 => ⟨S100000x128, .f32⟩
  | 74 => ⟨S_, .i32⟩
  | 75 => ⟨S1600000, .i32⟩
  | 76 => ⟨S1600000, .i1⟩
  | 77 => ⟨S_, .i32⟩
  | 78 => ⟨S1600000, .i32⟩
  | 79 => ⟨S1600000, .i32⟩
  | 80 => ⟨S1600000, .i32⟩
  | 81 => ⟨S1600000x1, .i32⟩
  | 82 => ⟨S100000x128, .f32⟩
  | 83 => ⟨S1x128, .f32⟩
  | 84 => ⟨S100000x128, .f32⟩
  | 85 => ⟨S20x2x128, .f32⟩
  | 86 => ⟨S_, .f32⟩
  | 87 => ⟨S2x128, .f32⟩
  | 88 => ⟨S1x128, .f32⟩
  | 89 => ⟨S128, .f32⟩
  | 90 => ⟨S_, .f32⟩
  | 91 => ⟨S128, .f32⟩
  | 92 => ⟨S128, .f32⟩
  | 93 => ⟨S1x128, .f32⟩
  | 94 => ⟨S128, .f32⟩
  | 95 => ⟨S_, .f32⟩
  | 96 => ⟨S128, .f32⟩
  | 97 => ⟨S128, .f32⟩
  | 98 => ⟨S128, .f32⟩
  | 99 => ⟨S128, .f32⟩
  | 100 => ⟨S_, .f32⟩
  | 101 => ⟨S128, .f32⟩
  | 102 => ⟨S128, .f32⟩
  | 103 => ⟨S_, .f32⟩
  | 104 => ⟨S128, .f32⟩
  | 105 => ⟨S128, .f32⟩
  | 106 => ⟨S128, .f32⟩
  | 107 => ⟨S128, .f32⟩
  | 108 => ⟨S128, .f32⟩
  | 109 => ⟨S128, .f32⟩
  | 110 => ⟨S1x128, .f32⟩
  | 111 => ⟨S1x128, .f32⟩
  | 112 => ⟨S1x128, .f32⟩
  | 113 => ⟨S100000x128, .f32⟩
  | 114 => ⟨S20x2x128, .f32⟩
  | 115 => ⟨S_, .f32⟩
  | 116 => ⟨S2x128, .f32⟩
  | 117 => ⟨S1x128, .f32⟩
  | 118 => ⟨S128, .f32⟩
  | 119 => ⟨S_, .f32⟩
  | 120 => ⟨S128, .f32⟩
  | 121 => ⟨S128, .f32⟩
  | 122 => ⟨S1x128, .f32⟩
  | 123 => ⟨S128, .f32⟩
  | 124 => ⟨S_, .f32⟩
  | 125 => ⟨S128, .f32⟩
  | 126 => ⟨S128, .f32⟩
  | 127 => ⟨S128, .f32⟩
  | _ => ⟨S100000x128, .f32⟩

abbrev hbmTy0_1 (i : Nat) : BufTy := match i % 128 with
  | 0 => ⟨S128, .f32⟩
  | 1 => ⟨S_, .f32⟩
  | 2 => ⟨S128, .f32⟩
  | 3 => ⟨S128, .f32⟩
  | 4 => ⟨S_, .f32⟩
  | 5 => ⟨S128, .f32⟩
  | 6 => ⟨S128, .f32⟩
  | 7 => ⟨S128, .f32⟩
  | 8 => ⟨S128, .f32⟩
  | 9 => ⟨S128, .f32⟩
  | 10 => ⟨S128, .f32⟩
  | 11 => ⟨S1x128, .f32⟩
  | 12 => ⟨S1x128, .f32⟩
  | 13 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | .local _ .vmem, ⟨8, _⟩ => ⟨S1x2x128, .f32⟩
  | .local _ .vmem, ⟨9, _⟩ => ⟨S1x2x128, .f32⟩
  | .local _ .vmem, ⟨10, _⟩ => ⟨S5000x128, .f32⟩
  | .local _ .vmem, ⟨11, _⟩ => ⟨S5000x128, .f32⟩
  | .local _ .vmem, ⟨12, _⟩ => ⟨S1x128, .f32⟩
  | .local _ .vmem, ⟨13, _⟩ => ⟨S1x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S1x2x128, .f32⟩
  | .local _ .vmem, ⟨19, _⟩ => ⟨S1x2x128, .f32⟩
  | .local _ .vmem, ⟨20, _⟩ => ⟨S5000x128, .f32⟩
  | .local _ .vmem, ⟨21, _⟩ => ⟨S5000x128, .f32⟩
  | .local _ .vmem, ⟨22, _⟩ => ⟨S1x128, .f32⟩
  | .local _ .vmem, ⟨23, _⟩ => ⟨S1x128, .f32⟩
  | .local _ .vmem, ⟨24, _⟩ => ⟨S5000x128, .f32⟩
  | .local _ .vmem, ⟨25, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst_1 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c : Ref sig .tc := ⟨.hbm, 29, rfl⟩
abbrev main_v14 : Ref sig .tc := ⟨.hbm, 30, rfl⟩
abbrev main_v15 : Ref sig .tc := ⟨.hbm, 31, rfl⟩
abbrev main_c_2 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_3 : Ref sig .tc := ⟨.hbm, 36, rfl⟩
abbrev main_v19 : Ref sig .tc := ⟨.hbm, 37, rfl⟩
abbrev main_v20 : Ref sig .tc := ⟨.hbm, 38, rfl⟩
abbrev main_c_4 : Ref sig .tc := ⟨.hbm, 39, rfl⟩
abbrev main_c_5 : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_v21 : Ref sig .tc := ⟨.hbm, 46, rfl⟩
abbrev main_c_6 : Ref sig .tc := ⟨.hbm, 47, rfl⟩
abbrev main_v22 : Ref sig .tc := ⟨.hbm, 48, rfl⟩
abbrev main_v23 : Ref sig .tc := ⟨.hbm, 49, rfl⟩
abbrev main_c_7 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_8 : Ref sig .tc := ⟨.hbm, 56, rfl⟩
abbrev main_call1_v0 : Ref sig .tc := ⟨.hbm, 57, rfl⟩
abbrev main_call1_v1 : Ref sig .tc := ⟨.hbm, 58, rfl⟩
abbrev main_v29 : Ref sig .tc := ⟨.hbm, 59, rfl⟩
abbrev main_v30 : Ref sig .tc := ⟨.hbm, 60, rfl⟩
abbrev main_c_9 : Ref sig .tc := ⟨.hbm, 61, rfl⟩
abbrev main_v31 : Ref sig .tc := ⟨.hbm, 62, rfl⟩
abbrev main_v32 : Ref sig .tc := ⟨.hbm, 63, rfl⟩
abbrev main_c_10 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_cst_11 : Ref sig .tc := ⟨.hbm, 72, rfl⟩
abbrev main_v40 : Ref sig .tc := ⟨.hbm, 73, rfl⟩
abbrev main_c_12 : Ref sig .tc := ⟨.hbm, 74, rfl⟩
abbrev main_v41 : Ref sig .tc := ⟨.hbm, 75, rfl⟩
abbrev main_v42 : Ref sig .tc := ⟨.hbm, 76, rfl⟩
abbrev main_c_13 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49_0 : Ref sig .tc := ⟨.hbm, 84, rfl⟩
abbrev main_v49_1 : Ref sig .tc := ⟨.hbm, 85, rfl⟩
abbrev main_cst_14 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_cst_15 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_cst_16 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_cst_17 : Ref sig .tc := ⟨.hbm, 100, rfl⟩
abbrev main_v61 : Ref sig .tc := ⟨.hbm, 101, rfl⟩
abbrev main_v62 : Ref sig .tc := ⟨.hbm, 102, rfl⟩
abbrev main_cst_18 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72_0 : Ref sig .tc := ⟨.hbm, 113, rfl⟩
abbrev main_v72_1 : Ref sig .tc := ⟨.hbm, 114, rfl⟩
abbrev main_cst_19 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_cst_20 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_cst_21 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_cst_22 : Ref sig .tc := ⟨.hbm, 129, rfl⟩
abbrev main_v84 : Ref sig .tc := ⟨.hbm, 130, rfl⟩
abbrev main_v85 : Ref sig .tc := ⟨.hbm, 131, rfl⟩
abbrev main_cst_23 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg3_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem3_0 : DmaSem sig := 24
abbrev cc2_sem3_1 : DmaSem sig := 25

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x2x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  reducesTo_S5_S_d0 : S5.ReducesTo [0] S_
  h_S_ : 0 < S_.numel
  bcast_S_S1 : S_.BroadcastsInDim S1 (![] : Fin 0 → Fin S1.rank)
  bcast_S1_S5_0 : S1.BroadcastsInDim S5 (![0] : Fin 1 → Fin S5.rank)
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S128 : S5000x128.Reduces [0] S128
  concatenates_S1x128_S1x128_S2x128_d0 : Shape.Concatenates [S1x128, S1x128] S2x128 0
  shapeCasts_S2x128_S1x2x128 : S2x128.ShapeCasts S1x2x128
  inb_S1x2x128_S1x2x128_0_0_0 : ∀ a, (![0, 0, 0] : Fin 3 → Nat) a + S1x2x128.size a ≤ S1x2x128.size a
  h_S1x2x128 : 0 < S1x2x128.numel
  reducesTo_S20x2x128_S2x128_d0 : S20x2x128.ReducesTo [0] S2x128
  slices_S2x128_S1x128_0_0 : S2x128.Slices ![0, 0] S1x128
  shapeCasts_S1x128_S128 : S1x128.ShapeCasts S128
  bcast_S_S128 : S_.BroadcastsInDim S128 (![] : Fin 0 → Fin S128.rank)
  slices_S2x128_S1x128_1_0 : S2x128.Slices ![1, 0] S1x128
  gather_S5_S1600000x1_S1600000_n_0_n_n_0_1_1_wf : GatherDims.WF S5 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .f32 = 32 ∨ (Rect.block (s := S100000x128) S5000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x2x128.size a ≤ S20x2x128.size a
  hwx0_5 : ∀ i : grid0.Coords, EltTy.bits .f32 = 32 ∨ (Rect.block (s := S20x2x128) S1x2x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x2x128.size a ≤ S20x2x128.size a
  hwx1_6 : ∀ i : grid1.Coords, EltTy.bits .f32 = 32 ∨ (Rect.block (s := S20x2x128) S1x2x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)

variable [Facts₀]

def gather_S5_S1600000x1_S1600000_n_0_n_n_0_1_1 : GatherDims S5 S1600000x1 S1600000 where
  offsetDims := []
  collapsedSliceDims := [0]
  operandBatchingDims := []
  startIndicesBatchingDims := []
  startIndexMap := [0]
  indexVectorDim := 1
  sliceSizes := ![1]
  wf := gather_S5_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v47) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v48) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v49_0) S5000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v49_1) S1x2x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v49_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v70) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v71) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v69) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v72_0) S5000x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v72_1) S1x2x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v72_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v92) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v93) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v94) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S5 : Shape := ⟨1, ![5]⟩
abbrev S128x128 : Shape := ⟨2, ![128, 128]⟩
abbrev S128 : Shape := ⟨1, ![128]⟩
abbrev S_ : Shape := ⟨0, ![]⟩
abbrev S1 : Shape := ⟨1, ![1]⟩
abbrev S1600000x1 : Shape := ⟨2, ![1600000, 1]⟩
abbrev S1x1600000 : Shape := ⟨2, ![1, 1600000]⟩
abbrev S1600000x128 : Shape := ⟨2, ![1600000, 128]⟩
abbrev S1x128 : Shape := ⟨2, ![1, 128]⟩

abbrev nBuf : Space → Nat
  | .hbm => 189
  | .vmem => 0
  | .smem => 0
  | _ => 0

abbrev hbmTy0_0 (i : Nat) : BufTy := match i % 128 with
  | 0 => ⟨S100000x128, .f32⟩
  | 1 => ⟨S2x1600000, .i32⟩
  | 2 => ⟨S1600000, .i32⟩
  | 3 => ⟨S5, .f32⟩
  | 4 => ⟨S128x128, .f32⟩
  | 5 => ⟨S128, .f32⟩
  | 6 => ⟨S128, .f32⟩
  | 7 => ⟨S128, .f32⟩
  | 8 => ⟨S128x128, .f32⟩
  | 9 => ⟨S128, .f32⟩
  | 10 => ⟨S128, .f32⟩
  | 11 => ⟨S128, .f32⟩
  | 12 => ⟨S_, .f32⟩
  | 13 => ⟨S_, .f32⟩
  | 14 => ⟨S_, .f32⟩
  | 15 => ⟨S_, .f32⟩
  | 16 => ⟨S1, .f32⟩
  | 17 => ⟨S5, .f32⟩
  | 18 => ⟨S5, .f32⟩
  | 19 => ⟨S5, .f32⟩
  | 20 => ⟨S_, .f32⟩
  | 21 => ⟨S_, .f32⟩
  | 22 => ⟨S1, .f32⟩
  | 23 => ⟨S5, .f32⟩
  | 24 => ⟨S5, .f32⟩
  | 25 => ⟨S_, .i32⟩
  | 26 => ⟨S1600000, .i32⟩
  | 27 => ⟨S1600000, .i1⟩
  | 28 => ⟨S_, .i32⟩
  | 29 => ⟨S1600000, .i32⟩
  | 30 => ⟨S1600000, .i1⟩
  | 31 => ⟨S1600000, .i1⟩
  | 32 => ⟨S_, .i32⟩
  | 33 => ⟨S1600000, .i32⟩
  | 34 => ⟨S1600000, .i32⟩
  | 35 => ⟨S_, .i32⟩
  | 36 => ⟨S_, .i32⟩
  | 37 => ⟨S_, .i32⟩
  | 38 => ⟨S1600000, .i32⟩
  | 39 => ⟨S1600000, .i32⟩
  | 40 => ⟨S_, .i32⟩
  | 41 => ⟨S1600000, .i32⟩
  | 42 => ⟨S1600000, .i32⟩
  | 43 => ⟨S_, .i32⟩
  | 44 => ⟨S1600000, .i32⟩
  | 45 => ⟨S1600000, .i1⟩
  | 46 => ⟨S_, .i32⟩
  | 47 => ⟨S1600000, .i32⟩
  | 48 => ⟨S1600000, .i32⟩
  | 49 => ⟨S1600000, .i32⟩
  | 50 => ⟨S1600000x1, .i32⟩
  | 51 => ⟨S1600000, .f32⟩
  | 52 => ⟨S_, .f32⟩
  | 53 => ⟨S_, .f32⟩
  | 54 => ⟨S1600000, .f32⟩
  | 55 => ⟨S1600000, .f32⟩
  | 56 => ⟨S1x1600000, .i32⟩
  | 57 => ⟨S1600000, .i32⟩
  | 58 => ⟨S1x1600000, .i32⟩
  | 59 => ⟨S1600000, .i32⟩
  | 60 => ⟨S1600000x1, .f32⟩
  | 61 => ⟨S_, .i32⟩
  | 62 => ⟨S1600000, .i32⟩
  | 63 => ⟨S1600000, .i1⟩
  | 64 => ⟨S_, .i32⟩
  | 65 => ⟨S1600000, .i32⟩
  | 66 => ⟨S1600000, .i32⟩
  | 67 => ⟨S1600000, .i32⟩
  | 68 => ⟨S1600000x1, .i32⟩
  | 69 => ⟨S1600000x128, .f32⟩
  | 70 => ⟨S1600000x128, .f32⟩
  | 71 => ⟨S1600000x128, .f32⟩
  | 72 => ⟨S_, .f32⟩
  | 73 => ⟨S100000x128, .f32⟩
  | 74 => ⟨S_, .i32⟩
  | 75 => ⟨S1600000, .i32⟩
  | 76 => ⟨S1600000, .i1⟩
  | 77 => ⟨S_, .i32⟩
  | 78 => ⟨S1600000, .i32⟩
  | 79 => ⟨S1600000, .i32⟩
  | 80 => ⟨S1600000, .i32⟩
  | 81 => ⟨S1600000x1, .i32⟩
  | 82 => ⟨S100000x128, .f32⟩
  | 83 => ⟨S_, .f32⟩
  | 84 => ⟨S100000x128, .f32⟩
  | 85 => ⟨S100000x128, .f32⟩
  | 86 => ⟨S100000x128, .f32⟩
  | 87 => ⟨S100000x128, .f32⟩
  | 88 => ⟨S1x128, .f32⟩
  | 89 => ⟨S100000x128, .f32⟩
  | 90 => ⟨S100000x128, .f32⟩
  | 91 => ⟨S_, .f32⟩
  | 92 => ⟨S128, .f32⟩
  | 93 => ⟨S_, .f32⟩
  | 94 => ⟨S128, .f32⟩
  | 95 => ⟨S128, .f32⟩
  | 96 => ⟨S_, .i32⟩
  | 97 => ⟨S_, .f32⟩
  | 98 => ⟨S128, .f32⟩
  | 99 => ⟨S1x128, .f32⟩
  | 100 => ⟨S_, .f32⟩
  | 101 => ⟨S1x128, .f32⟩
  | 102 => ⟨S1x128, .f32⟩
  | 103 => ⟨S100000x128, .f32⟩
  | 104 => ⟨S100000x128, .f32⟩
  | 105 => ⟨S100000x128, .f32⟩
  | 106 => ⟨S_, .f32⟩
  | 107 => ⟨S_, .f32⟩
  | 108 => ⟨S_, .f32⟩
  | 109 => ⟨S_, .f32⟩
  | 110 => ⟨S128, .f32⟩
  | 111 => ⟨S128, .f32⟩
  | 112 => ⟨S128, .f32⟩
  | 113 => ⟨S_, .f32⟩
  | 114 => ⟨S_, .i1⟩
  | 115 => ⟨S_, .f32⟩
  | 116 => ⟨S_, .f32⟩
  | 117 => ⟨S128, .f32⟩
  | 118 => ⟨S128, .f32⟩
  | 119 => ⟨S1x128, .f32⟩
  | 120 => ⟨S100000x128, .f32⟩
  | 121 => ⟨S100000x128, .f32⟩
  | 122 => ⟨S1x128, .f32⟩
  | 123 => ⟨S100000x128, .f32⟩
  | 124 => ⟨S100000x128, .f32⟩
  | 125 => ⟨S_, .f32⟩
  | 126 => ⟨S128, .f32⟩
  | 127 => ⟨S128, .f32⟩
  | _ => ⟨S100000x128, .f32⟩

abbrev hbmTy0_1 (i : Nat) : BufTy := match i % 128 with
  | 0 => ⟨S128, .f32⟩
  | 1 => ⟨S1x128, .f32⟩
  | 2 => ⟨S100000x128, .f32⟩
  | 3 => ⟨S100000x128, .f32⟩
  | 4 => ⟨S1x128, .f32⟩
  | 5 => ⟨S100000x128, .f32⟩
  | 6 => ⟨S100000x128, .f32⟩
  | 7 => ⟨S_, .f32⟩
  | 8 => ⟨S100000x128, .f32⟩
  | 9 => ⟨S100000x128, .f32⟩
  | 10 => ⟨S100000x128, .f32⟩
  | 11 => ⟨S1x128, .f32⟩
  | 12 => ⟨S100000x128, .f32⟩
  | 13 => ⟨S100000x128, .f32⟩
  | 14 => ⟨S_, .f32⟩
  | 15 => ⟨S128, .f32⟩
  | 16 => ⟨S_, .f32⟩
  | 17 => ⟨S128, .f32⟩
  | 18 => ⟨S128, .f32⟩
  | 19 => ⟨S_, .i32⟩
  | 20 => ⟨S_, .f32⟩
  | 21 => ⟨S128, .f32⟩
  | 22 => ⟨S1x128, .f32⟩
  | 23 => ⟨S_, .f32⟩
  | 24 => ⟨S1x128, .f32⟩
  | 25 => ⟨S1x128, .f32⟩
  | 26 => ⟨S100000x128, .f32⟩
  | 27 => ⟨S100000x128, .f32⟩
  | 28 => ⟨S100000x128, .f32⟩
  | 29 => ⟨S_, .f32⟩
  | 30 => ⟨S_, .f32⟩
  | 31 => ⟨S_, .f32⟩
  | 32 => ⟨S_, .f32⟩
  | 33 => ⟨S128, .f32⟩
  | 34 => ⟨S128, .f32⟩
  | 35 => ⟨S128, .f32⟩
  | 36 => ⟨S_, .f32⟩
  | 37 => ⟨S_, .i1⟩
  | 38 => ⟨S_, .f32⟩
  | 39 => ⟨S_, .f32⟩
  | 40 => ⟨S128, .f32⟩
  | 41 => ⟨S128, .f32⟩
  | 42 => ⟨S1x128, .f32⟩
  | 43 => ⟨S100000x128, .f32⟩
  | 44 => ⟨S100000x128, .f32⟩
  | 45 => ⟨S1x128, .f32⟩
  | 46 => ⟨S100000x128, .f32⟩
  | 47 => ⟨S100000x128, .f32⟩
  | 48 => ⟨S_, .f32⟩
  | 49 => ⟨S128, .f32⟩
  | 50 => ⟨S128, .f32⟩
  | 51 => ⟨S128, .f32⟩
  | 52 => ⟨S1x128, .f32⟩
  | 53 => ⟨S100000x128, .f32⟩
  | 54 => ⟨S100000x128, .f32⟩
  | 55 => ⟨S1x128, .f32⟩
  | 56 => ⟨S100000x128, .f32⟩
  | 57 => ⟨S100000x128, .f32⟩
  | 58 => ⟨S_, .f32⟩
  | 59 => ⟨S100000x128, .f32⟩
  | 60 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst_1 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_c : Ref sig .tc := ⟨.hbm, 25, rfl⟩
abbrev main_v10 : Ref sig .tc := ⟨.hbm, 26, rfl⟩
abbrev main_v11 : Ref sig .tc := ⟨.hbm, 27, rfl⟩
abbrev main_c_2 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_c_3 : Ref sig .tc := ⟨.hbm, 32, rfl⟩
abbrev main_v15 : Ref sig .tc := ⟨.hbm, 33, rfl⟩
abbrev main_v16 : Ref sig .tc := ⟨.hbm, 34, rfl⟩
abbrev main_c_4 : Ref sig .tc := ⟨.hbm, 35, rfl⟩
abbrev main_c_5 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_v17 : Ref sig .tc := ⟨.hbm, 42, rfl⟩
abbrev main_c_6 : Ref sig .tc := ⟨.hbm, 43, rfl⟩
abbrev main_v18 : Ref sig .tc := ⟨.hbm, 44, rfl⟩
abbrev main_v19 : Ref sig .tc := ⟨.hbm, 45, rfl⟩
abbrev main_c_7 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_cst_8 : Ref sig .tc := ⟨.hbm, 52, rfl⟩
abbrev main_call1_v0 : Ref sig .tc := ⟨.hbm, 53, rfl⟩
abbrev main_call1_v1 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_c_9 : Ref sig .tc := ⟨.hbm, 61, rfl⟩
abbrev main_v31 : Ref sig .tc := ⟨.hbm, 62, rfl⟩
abbrev main_v32 : Ref sig .tc := ⟨.hbm, 63, rfl⟩
abbrev main_c_10 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_cst_11 : Ref sig .tc := ⟨.hbm, 72, rfl⟩
abbrev main_v40 : Ref sig .tc := ⟨.hbm, 73, rfl⟩
abbrev main_c_12 : Ref sig .tc := ⟨.hbm, 74, rfl⟩
abbrev main_v41 : Ref sig .tc := ⟨.hbm, 75, rfl⟩
abbrev main_v42 : Ref sig .tc := ⟨.hbm, 76, rfl⟩
abbrev main_c_13 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_cst_14 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_cst_15 : Ref sig .tc := ⟨.hbm, 91, rfl⟩
abbrev main_v55 : Ref sig .tc := ⟨.hbm, 92, rfl⟩
abbrev main_cst_16 : Ref sig .tc := ⟨.hbm, 93, rfl⟩
abbrev main_v56 : Ref sig .tc := ⟨.hbm, 94, rfl⟩
abbrev main_v57 : Ref sig .tc := ⟨.hbm, 95, rfl⟩
abbrev main_c_17 : Ref sig .tc := ⟨.hbm, 96, rfl⟩
abbrev main_call2_cst : Ref sig .tc := ⟨.hbm, 97, rfl⟩
abbrev main_call2_v0 : Ref sig .tc := ⟨.hbm, 98, rfl⟩
abbrev main_call2_v1 : Ref sig .tc := ⟨.hbm, 99, rfl⟩
abbrev main_call2_cst_0 : Ref sig .tc := ⟨.hbm, 100, rfl⟩
abbrev main_call2_v2 : Ref sig .tc := ⟨.hbm, 101, rfl⟩
abbrev main_call2_v3 : Ref sig .tc := ⟨.hbm, 102, rfl⟩
abbrev main_call2_v4 : Ref sig .tc := ⟨.hbm, 103, rfl⟩
abbrev main_call2_v5 : Ref sig .tc := ⟨.hbm, 104, rfl⟩
abbrev main_call2_v6 : Ref sig .tc := ⟨.hbm, 105, rfl⟩
abbrev main_call2_v7 : Ref sig .tc := ⟨.hbm, 106, rfl⟩
abbrev main_call2_cst_1 : Ref sig .tc := ⟨.hbm, 107, rfl⟩
abbrev main_call2_v8 : Ref sig .tc := ⟨.hbm, 108, rfl⟩
abbrev main_call2_cst_2 : Ref sig .tc := ⟨.hbm, 109, rfl⟩
abbrev main_call2_v9 : Ref sig .tc := ⟨.hbm, 110, rfl⟩
abbrev main_call2_v10 : Ref sig .tc := ⟨.hbm, 111, rfl⟩
abbrev main_call2_v11 : Ref sig .tc := ⟨.hbm, 112, rfl⟩
abbrev main_call2_cst_3 : Ref sig .tc := ⟨.hbm, 113, rfl⟩
abbrev main_call2_v12 : Ref sig .tc := ⟨.hbm, 114, rfl⟩
abbrev main_call2_cst_4 : Ref sig .tc := ⟨.hbm, 115, rfl⟩
abbrev main_call2_call0_v0 : Ref sig .tc := ⟨.hbm, 116, rfl⟩
abbrev main_call2_call0_v1 : Ref sig .tc := ⟨.hbm, 117, rfl⟩
abbrev main_v58 : Ref sig .tc := ⟨.hbm, 118, rfl⟩
abbrev main_v59 : Ref sig .tc := ⟨.hbm, 119, rfl⟩
abbrev main_v60 : Ref sig .tc := ⟨.hbm, 120, rfl⟩
abbrev main_v61 : Ref sig .tc := ⟨.hbm, 121, rfl⟩
abbrev main_v62 : Ref sig .tc := ⟨.hbm, 122, rfl⟩
abbrev main_v63 : Ref sig .tc := ⟨.hbm, 123, rfl⟩
abbrev main_v64 : Ref sig .tc := ⟨.hbm, 124, rfl⟩
abbrev main_cst_18 : Ref sig .tc := ⟨.hbm, 125, rfl⟩
abbrev main_v65 : Ref sig .tc := ⟨.hbm, 126, rfl⟩
abbrev main_v66 : Ref sig .tc := ⟨.hbm, 127, rfl⟩
abbrev main_v67 : Ref sig .tc := ⟨.hbm, 128, rfl⟩
abbrev main_v68 : Ref sig .tc := ⟨.hbm, 129, rfl⟩
abbrev main_v69 : Ref sig .tc := ⟨.hbm, 130, rfl⟩
abbrev main_v70 : Ref sig .tc := ⟨.hbm, 131, rfl⟩
abbrev main_v71 : Ref sig .tc := ⟨.hbm, 132, rfl⟩
abbrev main_v72 : Ref sig .tc := ⟨.hbm, 133, rfl⟩
abbrev main_v73 : Ref sig .tc := ⟨.hbm, 134, rfl⟩
abbrev main_call3_cst : Ref sig .tc := ⟨.hbm, 135, rfl⟩
abbrev main_call3_v0 : Ref sig .tc := ⟨.hbm, 136, rfl⟩
abbrev main_v74 : Ref sig .tc := ⟨.hbm, 137, rfl⟩
abbrev main_v75 : Ref sig .tc := ⟨.hbm, 138, rfl⟩
abbrev main_v76 : Ref sig .tc := ⟨.hbm, 139, rfl⟩
abbrev main_v77 : Ref sig .tc := ⟨.hbm, 140, rfl⟩
abbrev main_v78 : Ref sig .tc := ⟨.hbm, 141, rfl⟩
abbrev main_cst_19 : Ref sig .tc := ⟨.hbm, 142, rfl⟩
abbrev main_v79 : Ref sig .tc := ⟨.hbm, 143, rfl⟩
abbrev main_cst_20 : Ref sig .tc := ⟨.hbm, 144, rfl⟩
abbrev main_v80 : Ref sig .tc := ⟨.hbm, 145, rfl⟩
abbrev main_v81 : Ref sig .tc := ⟨.hbm, 146, rfl⟩
abbrev main_c_21 : Ref sig .tc := ⟨.hbm, 147, rfl⟩
abbrev main_call4_cst : Ref sig .tc := ⟨.hbm, 148, rfl⟩
abbrev main_call4_v0 : Ref sig .tc := ⟨.hbm, 149, rfl⟩
abbrev main_call4_v1 : Ref sig .tc := ⟨.hbm, 150, rfl⟩
abbrev main_call4_cst_0 : Ref sig .tc := ⟨.hbm, 151, rfl⟩
abbrev main_call4_v2 : Ref sig .tc := ⟨.hbm, 152, rfl⟩
abbrev main_call4_v3 : Ref sig .tc := ⟨.hbm, 153, rfl⟩
abbrev main_call4_v4 : Ref sig .tc := ⟨.hbm, 154, rfl⟩
abbrev main_call4_v5 : Ref sig .tc := ⟨.hbm, 155, rfl⟩
abbrev main_call4_v6 : Ref sig .tc := ⟨.hbm, 156, rfl⟩
abbrev main_call4_v7 : Ref sig .tc := ⟨.hbm, 157, rfl⟩
abbrev main_call4_cst_1 : Ref sig .tc := ⟨.hbm, 158, rfl⟩
abbrev main_call4_v8 : Ref sig .tc := ⟨.hbm, 159, rfl⟩
abbrev main_call4_cst_2 : Ref sig .tc := ⟨.hbm, 160, rfl⟩
abbrev main_call4_v9 : Ref sig .tc := ⟨.hbm, 161, rfl⟩
abbrev main_call4_v10 : Ref sig .tc := ⟨.hbm, 162, rfl⟩
abbrev main_call4_v11 : Ref sig .tc := ⟨.hbm, 163, rfl⟩
abbrev main_call4_cst_3 : Ref sig .tc := ⟨.hbm, 164, rfl⟩
abbrev main_call4_v12 : Ref sig .tc := ⟨.hbm, 165, rfl⟩
abbrev main_call4_cst_4 : Ref sig .tc := ⟨.hbm, 166, rfl⟩
abbrev main_call4_call0_v0 : Ref sig .tc := ⟨.hbm, 167, rfl⟩
abbrev main_call4_call0_v1 : Ref sig .tc := ⟨.hbm, 168, rfl⟩
abbrev main_v82 : Ref sig .tc := ⟨.hbm, 169, rfl⟩
abbrev main_v83 : Ref sig .tc := ⟨.hbm, 170, rfl⟩
abbrev main_v84 : Ref sig .tc := ⟨.hbm, 171, rfl⟩
abbrev main_v85 : Ref sig .tc := ⟨.hbm, 172, rfl⟩
abbrev main_v86 : Ref sig .tc := ⟨.hbm, 173, rfl⟩
abbrev main_v87 : Ref sig .tc := ⟨.hbm, 174, rfl⟩
abbrev main_v88 : Ref sig .tc := ⟨.hbm, 175, rfl⟩
abbrev main_cst_22 : Ref sig .tc := ⟨.hbm, 176, rfl⟩
abbrev main_v89 : Ref sig .tc := ⟨.hbm, 177, rfl⟩
abbrev main_v90 : Ref sig .tc := ⟨.hbm, 178, rfl⟩
abbrev main_v91 : Ref sig .tc := ⟨.hbm, 179, rfl⟩
abbrev main_v92 : Ref sig .tc := ⟨.hbm, 180, rfl⟩
abbrev main_v93 : Ref sig .tc := ⟨.hbm, 181, rfl⟩
abbrev main_v94 : Ref sig .tc := ⟨.hbm, 182, rfl⟩
abbrev main_v95 : Ref sig .tc := ⟨.hbm, 183, rfl⟩
abbrev main_v96 : Ref sig .tc := ⟨.hbm, 184, rfl⟩
abbrev main_v97 : Ref sig .tc := ⟨.hbm, 185, rfl⟩
abbrev main_call5_cst : Ref sig .tc := ⟨.hbm, 186, rfl⟩
abbrev main_call5_v0 : Ref sig .tc := ⟨.hbm, 187, rfl⟩
abbrev main_v98 : Ref sig .tc := ⟨.hbm, 188, rfl⟩

abbrev nD : Nat := 1
abbrev τ : Topo := Topo.v7x

variable {F : FTy → Type} [FloatOps F]

class Facts₀ : Prop where
  reducesTo_S5_S_d0 : S5.ReducesTo [0] S_
  h_S_ : 0 < S_.numel
  bcast_S_S1 : S_.BroadcastsInDim S1 (![] : Fin 0 → Fin S1.rank)
  bcast_S1_S5_0 : S1.BroadcastsInDim S5 (![0] : Fin 1 → Fin S5.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  bcast_S_S128 : S_.BroadcastsInDim S128 (![] : Fin 0 → Fin S128.rank)
  bcast_S_S1x128 : S_.BroadcastsInDim S1x128 (![] : Fin 0 → Fin S1x128.rank)
  gather_S5_S1600000x1_S1600000_n_0_n_n_0_1_1_wf : GatherDims.WF S5 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def gather_S5_S1600000x1_S1600000_n_0_n_n_0_1_1 : GatherDims S5 S1600000x1 S1600000 where
  offsetDims := []
  collapsedSliceDims := [0]
  operandBatchingDims := []
  startIndicesBatchingDims := []
  startIndexMap := [0]
  indexVectorDim := 1
  sliceSizes := ![1]
  wf := gather_S5_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KRun.lean ====
/-
  The idealized kernel's run, with its result named.

  Every weakly fair execution of the kernel's @main terminates without a fault; at the end each argument array is as
  launched, and the result array holds what the fold of buffer contents through @main's ten segments (five stretches
  of host operations, then three launches, each followed by the next stretch) leaves in it: the third launch's
  output array after all its blocks are written back.
-/
import proofs.«165747_j60928406061384_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result array ends at the last segment boundary's contents, the arguments as launched. -/
theorem run_named : θ_run defs (onTc (τ := τ) (main (F := F))) ⟨m, fun _ => 0, ρ⟩ (fun r => ∀ c : Dev nD,
      r.2.mem ((c.tc : Thread nD τ).loc main_v94) = W10 m ρ c (Proc.devRef .tc main_v94)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v94 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c)⟩)

end Cert.KernelIdeal.KRun

end
-- ==== Proof.RefStages.lean ====
/-
  The reference program's host operations, composed stretch by stretch into pure functions of arrays.

  Each definition below is the composition of a consecutive run of the program's StableHLO operations, spelled with
  the program's own shapes and dimension records and in the operations' own order and argument order:
  the aggregation of neighbour messages (`aggT`), the input of a layer (`combT`), a dense map with bias (`denseT`)
  and the batch normalisation followed by the maximum with zero (`bnT`). They hold at every float instance.
-/
import proofs.«165747_j60928406061384_2_alg».proof.Proof.Gen.ReferenceIdeal

noncomputable section

namespace Cert.ReferenceIdeal.RefStages

open Idealize.ShloMosaic Idealize.SL.Sem
open Cert.ReferenceIdeal Cert.ReferenceIdeal.Facts₀

variable {F : FTy → Type} [FloatOps F]

/-! ## The layer input and the dense map -/

/-- The layer's input: the splat of the word one times the node features, plus the aggregated messages
    (operations `%cst_14`, `%48`, `%49`, `%50`). -/
def combT (x a : FVec F S100000x128 .f32) : FVec F S100000x128 .f32 :=
  addf (mulf (broadcastInDim S100000x128 ![] bcast_S_S100000x128 (constant S_ .f32 0x3F800000#32)) x) a

/-- A dense map: the host matrix product of `h` and `w` plus the bias row `b`, which is first made a
    one-row matrix and then repeated on every row (operations `%51` … `%54`). -/
def denseT (h : FVec F S100000x128 .f32) (w : FVec F S128x128 .f32) (b : FVec F S128 .f32) : FVec F S100000x128 .f32 :=
  addf (Host.dotGeneral dot_S100000x128_S128x128_S100000x128_1_0_0_1_n_n none h w)
    (broadcastInDim S100000x128 ![0, 1] bcast_S1x128_S100000x128_0_1 (broadcastInDim S1x128 ![1] bcast_S128_S1x128_1 b))

/-! ## The batch normalisation -/

/-- A vector of 128 entries repeated on every one of the 100000 rows: first a one-row matrix, then all rows. -/
def rowsT (v : FVec F S128 .f32) : FVec F S100000x128 .f32 :=
  broadcastInDim S100000x128 ![0, 1] bcast_S1x128_S100000x128_0_1 (broadcastInDim S1x128 ![1] bcast_S128_S1x128_1 v)

/-- The column means as the normalisation computes them: the host sum over the rows from the word zero, divided
    by the splat of the word 100000 (operations `%cst_15`, `%55`, `%cst_16`, `%56`, `%57`). -/
def meanT (z : FVec F S100000x128 .f32) : FVec F S128 .f32 :=
  Host.divf (Host.reduceAdd z (constant S_ .f32 0x00000000#32) reducesTo_S100000x128_S128_d0 h_S_)
    (broadcastInDim S128 ![] bcast_S_S128 (constant S_ .f32 0x47C35000#32))

/-- The deviations from the column means inside the variance function: its own mean is the host sum over the rows
    made a one-row matrix and divided by the one-row splat of the word 100000, then repeated on every row and
    subtracted (the variance function's `%cst`, `%0` … `%5`). -/
def devT (z : FVec F S100000x128 .f32) : FVec F S100000x128 .f32 :=
  subf z (broadcastInDim S100000x128 ![0, 1] bcast_S1x128_S100000x128_0_1
    (Host.divf
      (broadcastInDim S1x128 ![1] bcast_S128_S1x128_1
        (Host.reduceAdd z (constant S_ .f32 0x00000000#32) reducesTo_S100000x128_S128_d0 h_S_))
      (broadcastInDim S1x128 ![] bcast_S_S1x128 (constant S_ .f32 0x47C35000#32))))

/-- The variance's normaliser: the word 100000 minus the float of the integer degrees-of-freedom correction
    (the variance function's `%7`, `%cst_1`, `%8`). -/
def normT (ddof : IVec S_ 32) : FVec F S_ .f32 :=
  subf (constant S_ .f32 0x47C35000#32) (sitofp .f32 ddof)

/-- The variance function: the host sum over the rows of the squared deviations divided by the splat of the
    normaliser, kept where the normaliser is greater than the word zero and replaced by the word `0x7FC00000`
    elsewhere (the variance function's `%6`, `%cst_2`, `%9` … `%12`, `%cst_4`, and the inner selection function). -/
def varOfT (z : FVec F S100000x128 .f32) (ddof : IVec S_ 32) : FVec F S128 .f32 :=
  select (broadcastInDim S128 ![] bcast_S_S128 (cmpf .ogt (normT (F := F) ddof) (constant S_ .f32 0x00000000#32)))
    (Host.divf
      (Host.reduceAdd (mulf (devT z) (devT z)) (constant S_ .f32 0x00000000#32) reducesTo_S100000x128_S128_d0 h_S_)
      (broadcastInDim S128 ![] bcast_S_S128 (normT (F := F) ddof)))
    (broadcastInDim S128 ![] bcast_S_S128 (id (constant S_ .f32 0x7FC00000#32)))

/-- The variance as the normalisation calls it: the correction is the integer constant zero (`%c_17`, `%58`). -/
def varT (z : FVec F S100000x128 .f32) : FVec F S128 .f32 :=
  varOfT z (constantI S_ 32 0#32)

/-- The batch normalisation of the columns of `z` with scale `g` and shift `bt`, followed by the maximum with the
    splat of the word zero: `g` times the deviation from the mean, times the reciprocal square root of the variance
    plus the word `0x3727C5AC`, plus `bt` (operations `%55` … `%73` and the rectifier's `%cst`, `%0`, `%1`). -/
def bnT (z : FVec F S100000x128 .f32) (g bt : FVec F S128 .f32) : FVec F S100000x128 .f32 :=
  maximumf
    (addf
      (mulf (mulf (rowsT g) (subf z (rowsT (meanT z))))
        (rowsT (Host.rsqrt (addf (varT z) (broadcastInDim S128 ![] bcast_S_S128 (constant S_ .f32 0x3727C5AC#32))))))
      (rowsT bt))
    (broadcastInDim S100000x128 ![] bcast_S_S100000x128 (constant S_ .f32 0x00000000#32))

/-! ## The aggregation -/

/-- The exponentials of the five edge-type scores after their maximum is subtracted: the maximum is the host
    maximum over the five from the word `0xFF800000`, taken once more against that word, and repeated on the five
    entries (operations `%cst`, `%0` … `%5`). -/
def expT (hc : FVec F S5 .f32) : FVec F S5 .f32 :=
  Host.exp (subf hc (broadcastInDim S5 ![0] bcast_S1_S5_0 (broadcastInDim S1 ![] bcast_S_S1
    (maximumf (constant S_ .f32 0xFF800000#32)
      (Host.reduce FloatOps.maximumf hc (constant S_ .f32 0xFF800000#32) reducesTo_S5_S_d0 h_S_)))))

/-- The five normalised weights: each exponential divided by the host sum of the five from the word zero
    (operations `%cst_1`, `%6` … `%9`). -/
def softT (hc : FVec F S5 .f32) : FVec F S5 .f32 :=
  Host.divf (expT hc) (broadcastInDim S5 ![0] bcast_S1_S5_0 (broadcastInDim S1 ![] bcast_S_S1
    (Host.reduceAdd (expT hc) (constant S_ .f32 0x00000000#32) reducesTo_S5_S_d0 h_S_)))

/-- Which edges carry a type between one and five (operations `%c`, `%10` … `%14`). -/
def maskT (ew : IVec S1600000 32) : IVec S1600000 1 :=
  andi (cmpi .sge ew (broadcastInDim S1600000 ![] bcast_S_S1600000 (constantI S_ 32 1#32)))
    (cmpi .sle ew (broadcastInDim S1600000 ![] bcast_S_S1600000 (constantI S_ 32 5#32)))

/-- The edge types minus one, clamped between zero and four (operations `%c_3`, `%15`, `%16`, `%c_4`, `%c_5` and the
    clamp function: the maximum with the splat of the lower bound, then the minimum with the splat of the upper). -/
def clipT (ew : IVec S1600000 32) : IVec S1600000 32 :=
  minsi (broadcastInDim S1600000 ![] bcast_S_S1600000 (id (constantI S_ 32 4#32)))
    (maxsi (broadcastInDim S1600000 ![] bcast_S_S1600000 (id (constantI S_ 32 0#32)))
      (subi ew (broadcastInDim S1600000 ![] bcast_S_S1600000 (constantI S_ 32 1#32))))

/-- An index array with `n` added where it is negative (the wrap of a negative index before a gather or scatter). -/
def wrapT (n : BitVec 32) (v : IVec S1600000 32) : IVec S1600000 32 :=
  select (cmpi .slt v (broadcastInDim S1600000 ![] bcast_S_S1600000 (constantI S_ 32 0#32)))
    (addi v (broadcastInDim S1600000 ![] bcast_S_S1600000 (constantI S_ 32 n))) v

/-- The weight of every edge: the normalised weight of its clamped type, gathered, kept where the type is between
    one and five and the word zero elsewhere (operations `%c_6`, `%18` … `%24`, `%cst_8` and the selection function). -/
def edgeWT (ew : IVec S1600000 32) (hc : FVec F S5 .f32) : FVec F S1600000 .f32 :=
  select (maskT ew)
    (Host.gather gather_S5_S1600000x1_S1600000_n_0_n_n_0_1_1 (softT hc)
      (broadcastInDim S1600000x1 ![0] bcast_S1600000_S1600000x1_0 (wrapT 5#32 (clipT ew))))
    (broadcastInDim S1600000 ![] bcast_S_S1600000 (id (constant S_ .f32 0x00000000#32)))

/-- Row `k` of the edge index array as a vector: the one-row slice at row `k`, reshaped (operations `%26` … `%29`). -/
def edgeRowT (k : Nat) (hk : S2x1600000.Slices ![k, 0] S1x1600000) (ei : IVec S2x1600000 32) : IVec S1600000 32 :=
  shapeCast S1600000 (extractStridedSlice S1x1600000 ![k, 0] ei hk) shapeCasts_S1x1600000_S1600000

/-- The messages: the weight of every edge repeated along the 128 features, times the features of the edge's
    source row (row one of the edge index array, wrapped by 100000), gathered (operations `%30` … `%39`). -/
def msgT (x : FVec F S100000x128 .f32) (ei : IVec S2x1600000 32) (ew : IVec S1600000 32) (hc : FVec F S5 .f32) :
    FVec F S1600000x128 .f32 :=
  mulf
    (broadcastInDim S1600000x128 ![0, 1] bcast_S1600000x1_S1600000x128_0_1
      (broadcastInDim S1600000x1 ![0] bcast_S1600000_S1600000x1_0 (edgeWT ew hc)))
    (Host.gather gather_S100000x128_S1600000x1_S1600000x128_1_0_n_n_0_1_1128 x
      (broadcastInDim S1600000x1 ![0] bcast_S1600000_S1600000x1_0
        (wrapT 100000#32 (edgeRowT 1 slices_S2x1600000_S1x1600000_1_0 ei))))

/-- The aggregation: the host scatter-add of the messages into the splat of the word zero at the edges' target
    rows (row zero of the edge index array, wrapped by 100000) (operations `%cst_11`, `%40` … `%47`). -/
def aggT (x : FVec F S100000x128 .f32) (ei : (⟨S2x1600000, .i32⟩ : BufTy).Contents (Elt F))
    (ew : (⟨S1600000, .i32⟩ : BufTy).Contents (Elt F)) (hc : FVec F S5 .f32) : FVec F S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0
      (wrapT 100000#32 (edgeRowT 0 slices_S2x1600000_S1x1600000_0_0 ei)))
    (msgT x ei ew hc)

end Cert.ReferenceIdeal.RefStages

end
-- ==== Proof.KPre.lean ====
/-
  The host lines before the first launch, read for any starting contents.

  Five stretches of host operations run before the first launch. Together they leave, in the buffer the launch reads
  its second row window from, the aggregated messages — the same composed operations of the four sparse arguments
  that the reference applies (softmax of the hop coefficients, the validity mask, the clipped weight lookup, the row
  gather, the product and the scatter-add) —, in the bias buffer the first bias as a one-row matrix, and they write no
  argument array.
-/
import proofs.«165747_j60928406061384_2_alg».proof.Proof.Gen.KernelIdeal.Frame
import proofs.«165747_j60928406061384_2_alg».proof.Proof.RefStages
import Idealize.ShloMosaic.Lib.StableHlo.Run

noncomputable section

namespace Cert.KernelIdeal.KPre

open Cert.KernelIdeal Cert.KernelIdeal.Gen Idealize.ShloMosaic

variable {F : FTy → Type} [FloatOps F]
variable (V : Valuation τ sig (Elt F))

/-- The aggregated messages are the reference's composed term of the four sparse arguments. -/
theorem agg_eq :
    StableHlo.after hostOps0_4 (StableHlo.after hostOps0_3 (StableHlo.after hostOps0_2 (StableHlo.after hostOps0_1 (StableHlo.after hostOps0 V)))) (Proc.devRef .tc main_v47)
      = Cert.ReferenceIdeal.RefStages.aggT (F := F) (V (Proc.devRef .tc main_arg0)) (V (Proc.devRef .tc main_arg1))
          (V (Proc.devRef .tc main_arg2)) (V (Proc.devRef .tc main_arg3)) := by
  after_results_simp
  simp only [StableHlo.TRef.toBuf, StableHlo.TRef.ofBuf, cast_eq]
  rfl

/-- The first bias, as a one-row matrix. -/
theorem bias_eq :
    StableHlo.after hostOps0_4 (StableHlo.after hostOps0_3 (StableHlo.after hostOps0_2 (StableHlo.after hostOps0_1 (StableHlo.after hostOps0 V)))) (Proc.devRef .tc main_v48)
      = shapeCast S1x128 (V (Proc.devRef .tc main_arg5)) shapeCasts_S128_S1x128 := by
  after_results_simp
  rfl

/-- Argument 0 is not written. -/
theorem keep_arg0 :
    StableHlo.after hostOps0_4 (StableHlo.after hostOps0_3 (StableHlo.after hostOps0_2 (StableHlo.after hostOps0_1 (StableHlo.after hostOps0 V)))) (Proc.devRef .tc main_arg0)
      = V (Proc.devRef .tc main_arg0) := by
  after_results_simp

/-- Argument 4 is not written. -/
theorem keep_arg4 :
    StableHlo.after hostOps0_4 (StableHlo.after hostOps0_3 (StableHlo.after hostOps0_2 (StableHlo.after hostOps0_1 (StableHlo.after hostOps0 V)))) (Proc.devRef .tc main_arg4)
      = V (Proc.devRef .tc main_arg4) := by
  after_results_simp

/-- Argument 6 is not written. -/
theorem keep_arg6 :
    StableHlo.after hostOps0_4 (StableHlo.after hostOps0_3 (StableHlo.after hostOps0_2 (StableHlo.after hostOps0_1 (StableHlo.after hostOps0 V)))) (Proc.devRef .tc main_arg6)
      = V (Proc.devRef .tc main_arg6) := by
  after_results_simp

/-- Argument 7 is not written. -/
theorem keep_arg7 :
    StableHlo.after hostOps0_4 (StableHlo.after hostOps0_3 (StableHlo.after hostOps0_2 (StableHlo.after hostOps0_1 (StableHlo.after hostOps0 V)))) (Proc.devRef .tc main_arg7)
      = V (Proc.devRef .tc main_arg7) := by
  after_results_simp

/-- Argument 8 is not written. -/
theorem keep_arg8 :
    StableHlo.after hostOps0_4 (StableHlo.after hostOps0_3 (StableHlo.after hostOps0_2 (StableHlo.after hostOps0_1 (StableHlo.after hostOps0 V)))) (Proc.devRef .tc main_arg8)
      = V (Proc.devRef .tc main_arg8) := by
  after_results_simp

/-- Argument 9 is not written. -/
theorem keep_arg9 :
    StableHlo.after hostOps0_4 (StableHlo.after hostOps0_3 (StableHlo.after hostOps0_2 (StableHlo.after hostOps0_1 (StableHlo.after hostOps0 V)))) (Proc.devRef .tc main_arg9)
      = V (Proc.devRef .tc main_arg9) := by
  after_results_simp

/-- Argument 10 is not written. -/
theorem keep_arg10 :
    StableHlo.after hostOps0_4 (StableHlo.after hostOps0_3 (StableHlo.after hostOps0_2 (StableHlo.after hostOps0_1 (StableHlo.after hostOps0 V)))) (Proc.devRef .tc main_arg10)
      = V (Proc.devRef .tc main_arg10) := by
  after_results_simp

/-- Argument 11 is not written. -/
theorem keep_arg11 :
    StableHlo.after hostOps0_4 (StableHlo.after hostOps0_3 (StableHlo.after hostOps0_2 (StableHlo.after hostOps0_1 (StableHlo.after hostOps0 V)))) (Proc.devRef .tc main_arg11)
      = V (Proc.devRef .tc main_arg11) := by
  after_results_simp

end Cert.KernelIdeal.KPre

end
-- ==== Proof.LibMatProd.lean ====
/-
  GENERAL LEMMAS: a plain matrix product, written two ways, read at the ideal values.

  The product of an `R × K` matrix `X` with a `K × N` matrix `W` has entry `(r, q)` equal to
  `∑ k, X (r, k) · W (k, q)`, a sum of `K` products of extended reals (`matProd`).
  Both ways a program can write that product read, at `Ideal`, as this same sum:

  * a matrix unit's `matmul` accumulated into a zero splat (`matmul_zero_eq`), and
  * the host's `dot_general` (`dotGeneral_eq`),

  for ANY dimension record that contracts the left operand's axis 1 with the right operand's axis 0 and keeps
  the other two axes in order, whatever the operands' float formats, precision and schedule. That the record does
  so is stated as four equations of coordinate values (`Contracts`), which a literal record proves by unfolding
  (two by `DotDims.lhsIdx_val_of_single` / `rhsIdx_val_of_single`, two by `dif_neg` / `dif_pos` on its literal
  axis lists). Nothing here needs a finiteness hypothesis: the two sides are the same sum of the same products,
  term by term. Imports the library only.
-/
import Idealize.ShloMosaic.PureOps.Ideal.Laws
import Idealize.ShloMosaic.Lib.ValueIdx

noncomputable section

open scoped BigOperators

namespace Cert.Linear

open Idealize.ShloMosaic Idealize.ShloMosaic.ValueIdx

/-- The shape of a matrix of `a` rows and `b` columns. -/
abbrev Mat (a b : Nat) : Shape := ⟨2, ![a, b]⟩

/-- `X · W`, entry by entry: row `r` of `X` against column `q` of `W`. -/
def matProd {R K N : Nat} (X : (Mat R K).Idx → EReal) (W : (Mat K N).Idx → EReal) : (Mat R N).Idx → EReal :=
  fun i => ∑ k : Fin K, X (ix2 (n0 := R) (n1 := K) (i 0) k) * W (ix2 (n0 := K) (n1 := N) k (i 1))

/-- A dimension record for `[R,K] × [K,N] → [R,N]` that contracts the left operand's columns with the right
    operand's rows: one contracted axis of extent `K`, and at result index `i` and contraction index `q` the left
    operand is read at `(i 0, q)` and the right one at `(q, i 1)`. -/
structure Contracts {R K N : Nat} (d : DotDims (Mat R K) (Mat K N) (Mat R N)) : Prop where
  rank : d.contr.rank = 1
  size : d.contr.size ⟨0, by omega⟩ = K
  lhs0 : ∀ (i : (Mat R N).Idx) (q : d.contr.Idx), (d.lhsIdx i q 0).val = (i 0).val
  lhs1 : ∀ (i : (Mat R N).Idx) (q : d.contr.Idx), (d.lhsIdx i q 1).val = (q ⟨0, by omega⟩).val
  rhs0 : ∀ (i : (Mat R N).Idx) (q : d.contr.Idx), (d.rhsIdx i q 0).val = (q ⟨0, by omega⟩).val
  rhs1 : ∀ (i : (Mat R N).Idx) (q : d.contr.Idx), (d.rhsIdx i q 1).val = (i 1).val

/-- The sum over such a record's contraction index of the operands' products is the sum over `k < K` of
    `X (i 0, k) · W (k, i 1)`: the contraction index is its one coordinate. -/
theorem contraction_sum {R K N : Nat} {d : DotDims (Mat R K) (Mat K N) (Mat R N)} (h : Contracts d)
    (X : (Mat R K).Idx → EReal) (W : (Mat K N).Idx → EReal) (i : (Mat R N).Idx) :
    ∑ q : d.contr.Idx, X (d.lhsIdx i q) * W (d.rhsIdx i q) = matProd X W i := by
  unfold matProd
  rw [← Equiv.sum_comp (contrEquiv1 d K h.rank h.size).symm]
  refine Finset.sum_congr rfl fun k _ => ?_
  have hk := contrEquiv1_symm_val d K h.rank h.size k
  have el : d.lhsIdx i ((contrEquiv1 d K h.rank h.size).symm k) = ix2 (n0 := R) (n1 := K) (i 0) k :=
    funext fun a => Fin.ext (by
      match a with
      | ⟨0, _⟩ => exact h.lhs0 _ _
      | ⟨1, _⟩ => exact (h.lhs1 _ _).trans hk)
  have er : d.rhsIdx i ((contrEquiv1 d K h.rank h.size).symm k) = ix2 (n0 := K) (n1 := N) k (i 1) :=
    funext fun a => Fin.ext (by
      match a with
      | ⟨0, _⟩ => exact (h.rhs0 _ _).trans hk
      | ⟨1, _⟩ => exact h.rhs1 _ _)
  rw [el, er]

/-- A matrix unit's product accumulated into the zero splat is `X · W`, whatever the operands' float formats. -/
theorem matmul_zero_eq {R K N : Nat} {φ₁ φ₂ : FTy} {d : DotDims (Mat R K) (Mat K N) (Mat R N)} (h : Contracts d)
    (prec : Option ContractPrecision) (X : FVec Ideal (Mat R K) φ₁) (W : FVec Ideal (Mat K N) φ₂) :
    FloatOps.matmul d prec X W (constant (F := Ideal) (Mat R N) .f32 0x00000000#32) = matProd X W :=
  funext fun i => (Ideal.matmul_constant_zero_apply d prec X W i).trans (contraction_sum h X W i)

/-- The host's `dot_general` is `X · W`, whatever its precision and schedule. -/
theorem dotGeneral_eq {R K N : Nat} {φ₁ φ₂ : FTy} {d : DotDims (Mat R K) (Mat K N) (Mat R N)} (h : Contracts d)
    (prec : Option ContractPrecision) (sched : HostSchedule) (X : FVec Ideal (Mat R K) φ₁) (W : FVec Ideal (Mat K N) φ₂) :
    FloatOps.dotGeneral d prec sched X W = matProd X W :=
  funext fun i => (Ideal.dotGeneral_apply d prec sched X W i).trans (contraction_sum h X W i)

end Cert.Linear

end
-- ==== Proof.Spec.lean ====
/-
  The two programs' dense part, written once as functions of arrays of extended reals.

  A graph layer here is: a dense map `H ↦ H·W + b` (every row gets the same bias row), the batch statistics of the
  result's columns over all `100000` rows, and an affine normalisation of each column followed by `max · 0`.
  The kernel takes the variance of a column as the mean of the squares minus the square of the mean, clamped at
  zero, folds `γ · rsqrt (var + ε)` into one scale and `β − mean · scale` into one shift, and applies
  `z · scale + shift` (`normK`); the reference centres the column first, takes the mean of the squared
  deviations, and applies `γ · (z − mean) · rsqrt (var + ε) + β` (`normR`). On real entries the two agree; that is
  proved elsewhere. The float words are kept as words: `countW` is 100000, `epsW` the float nearest 1e-5.
-/
import proofs.«165747_j60928406061384_2_alg».proof.Proof.LibMatProd

noncomputable section

open scoped BigOperators

namespace Cert.Spec

open Idealize.ShloMosaic Idealize.ShloMosaic.ValueIdx Cert.Linear

/-- The number of rows (graph nodes) and of columns (features). -/
abbrev NN : Nat := 100000
abbrev CC : Nat := 128
/-- The shape of a vector of `a` entries. -/
abbrev Vec1 (a : Nat) : Shape := ⟨1, ![a]⟩

def zeroW : EReal := Ideal.ofBits .f32 0x00000000#32
def oneW : EReal := Ideal.ofBits .f32 0x3F800000#32
def countW : EReal := Ideal.ofBits .f32 0x47C35000#32
def epsW : EReal := Ideal.ofBits .f32 0x3727C5AC#32

/-- The layer's input: the node's own features (times the word one) plus the aggregated messages. -/
def combine (X A : (Mat NN CC).Idx → EReal) : (Mat NN CC).Idx → EReal := fun i => oneW * X i + A i

/-- `H·W + b`, the bias added to every row. -/
def dense (H : (Mat NN CC).Idx → EReal) (W : (Mat CC CC).Idx → EReal) (b : (Vec1 CC).Idx → EReal) :
    (Mat NN CC).Idx → EReal :=
  fun i => matProd H W i + b (ix1 (i 1))

/-- The sum of column `q` over all rows, and the sum of its squares. -/
def colSum (Z : (Mat NN CC).Idx → EReal) (q : Fin CC) : EReal := ∑ r : Fin NN, Z (ix2 r q)
def colSumSq (Z : (Mat NN CC).Idx → EReal) (q : Fin CC) : EReal := ∑ r : Fin NN, Z (ix2 r q) * Z (ix2 r q)

/-! ## The kernel's normalisation -/

def meanK (Z : (Mat NN CC).Idx → EReal) (q : Fin CC) : EReal := Ideal.div (zeroW + colSum Z q) countW
def sqMeanK (Z : (Mat NN CC).Idx → EReal) (q : Fin CC) : EReal := Ideal.div (zeroW + colSumSq Z q) countW
def varK (Z : (Mat NN CC).Idx → EReal) (q : Fin CC) : EReal := max (sqMeanK Z q - meanK Z q * meanK Z q) zeroW
def scaleK (Z : (Mat NN CC).Idx → EReal) (γ : (Vec1 CC).Idx → EReal) (q : Fin CC) : EReal :=
  γ (ix1 q) * Ideal.rsqrt (varK Z q + epsW)
def shiftK (Z : (Mat NN CC).Idx → EReal) (γ β : (Vec1 CC).Idx → EReal) (q : Fin CC) : EReal :=
  β (ix1 q) - meanK Z q * scaleK Z γ q
def normK (Z : (Mat NN CC).Idx → EReal) (γ β : (Vec1 CC).Idx → EReal) : (Mat NN CC).Idx → EReal :=
  fun i => max (Z i * scaleK Z γ (i 1) + shiftK Z γ β (i 1)) zeroW

/-! ## The reference's normalisation -/

def meanR (Z : (Mat NN CC).Idx → EReal) (q : Fin CC) : EReal := Ideal.div (zeroW + colSum Z q) countW
def varR (Z : (Mat NN CC).Idx → EReal) (q : Fin CC) : EReal :=
  Ideal.div (zeroW + ∑ r : Fin NN, (Z (ix2 r q) - meanR Z q) * (Z (ix2 r q) - meanR Z q)) countW
def normR (Z : (Mat NN CC).Idx → EReal) (γ β : (Vec1 CC).Idx → EReal) : (Mat NN CC).Idx → EReal :=
  fun i => max (γ (ix1 (i 1)) * (Z i - meanR Z (i 1)) * Ideal.rsqrt (varR Z (i 1) + epsW) + β (ix1 (i 1))) zeroW

/-! ## Two layers -/

def outK (X A : (Mat NN CC).Idx → EReal) (W1 : (Mat CC CC).Idx → EReal) (b1 γ1 β1 : (Vec1 CC).Idx → EReal)
    (W2 : (Mat CC CC).Idx → EReal) (b2 γ2 β2 : (Vec1 CC).Idx → EReal) : (Mat NN CC).Idx → EReal :=
  normK (dense (normK (dense (combine X A) W1 b1) γ1 β1) W2 b2) γ2 β2

def outR (X A : (Mat NN CC).Idx → EReal) (W1 : (Mat CC CC).Idx → EReal) (b1 γ1 β1 : (Vec1 CC).Idx → EReal)
    (W2 : (Mat CC CC).Idx → EReal) (b2 γ2 β2 : (Vec1 CC).Idx → EReal) : (Mat NN CC).Idx → EReal :=
  normR (dense (normR (dense (combine X A) W1 b1) γ1 β1) W2 b2) γ2 β2

/-- An array all of whose entries are real numbers. -/
def AllReal {S : Shape} (v : S.Idx → EReal) : Prop := ∀ i, ∃ r : ℝ, v i = (r : EReal)

end Cert.Spec

end
-- ==== Proof.LibPlainDot.lean ====
/-
  The plain matrix product's dimension numbers contract columns with rows.

  For the dimension numbers of an `R × K` by `K × N` product (`DotDims.plain`: the left operand's axis 1 against the
  right operand's axis 0, the other two axes kept in order) the contraction index is one coordinate `k < K`, and at
  result entry `(r, q)` the left operand is read at `(r, k)` and the right one at `(k, q)`.
-/
import proofs.«165747_j60928406061384_2_alg».proof.Proof.LibMatProd

noncomputable section

namespace Cert.Linear

open Idealize.ShloMosaic Idealize.ShloMosaic.ValueIdx

/-- `DotDims.plain R K N` contracts the left operand's columns with the right operand's rows. -/
theorem contracts_plain (R K N : Nat) : Contracts (DotDims.plain R K N) where
  rank := rfl
  size := rfl
  lhs0 := fun i q => by
    have hb : (0 : Fin 2) ∉ (DotDims.plain R K N).lhsBatch := show (0 : Fin 2) ∉ ([] : List (Fin 2)) from List.not_mem_nil
    have hn : (0 : Fin 2) ∈ (DotDims.plain R K N).lhsNonContracting :=
      show (0 : Fin 2) ∈ ([0] : List (Fin 2)) from List.mem_singleton.mpr rfl
    unfold DotDims.lhsIdx
    rw [dif_neg hb, dif_pos hn]
    rfl
  lhs1 := fun i q => (DotDims.plain R K N).lhsIdx_val_of_single (cl := 1) rfl i q
  rhs0 := fun i q => (DotDims.plain R K N).rhsIdx_val_of_single (cr := 0) rfl i q
  rhs1 := fun i q => by
    have hb : (1 : Fin 2) ∉ (DotDims.plain R K N).rhsBatch := show (1 : Fin 2) ∉ ([] : List (Fin 2)) from List.not_mem_nil
    have hn : (1 : Fin 2) ∈ (DotDims.plain R K N).rhsNonContracting :=
      show (1 : Fin 2) ∈ ([1] : List (Fin 2)) from List.mem_singleton.mpr rfl
    unfold DotDims.rhsIdx
    rw [dif_neg hb, dif_pos hn]
    rfl

end Cert.Linear

end
-- ==== Proof.LibKeepdims.lean ====
/-
  Layout operations of a `keepdims` reduction, read at an index given by coordinates, and a rank-2 float sum along one
  axis read at the extended reals.

  A vector of `a` entries viewed as an `a × 1` column holds entry `i` at `(i, 0)`; an `a × 1` column broadcast to
  `a × b` holds, at `(p, c)`, the column's entry `(p, 0)`; the sum of an `a × b` array along its second axis is, at
  row `r`, the sum over the `b` columns of the entries of that row, and along its first axis, at column `c`, the sum
  over the `a` rows of the entries of that column.  Indices are written with the literal-size constructors
  `ix1`, `ix2`, so that each lemma applies to a printed operation by unification.
-/
import Idealize.ShloMosaic.Lib.Pipeline.Value
import Idealize.ShloMosaic.Lib.ValueIdx
import Idealize.ShloMosaic.PureOps.Ideal.Laws

open scoped BigOperators

namespace Cert.LibKeepdims

open Idealize.ShloMosaic Idealize.ShloMosaic.ValueIdx

variable {α : Type}

/-- A vector cast to a column, `[a] → [a, 1]`, reads entry `i` at `(i, 0)`: both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column broadcast along its unit axis, `[a, 1] → [a, b]`, reads at `(p, c)` the column's entry `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

variable {φ : FTy}

/-- ROW SUMS. At the extended reals the float sum of an `a × b` array along its second axis is, at row `r`, the sum
    over the columns `c` of the entries `(r, c)`. -/
theorem multiReduction_add_rows {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ c : Fin b, src (ix2 r c) := by
  refine (Ideal.multiReduction_add_single src acc h hφ hacc (ix1 r)).trans ?_
  refine Finset.sum_congr rfl fun c _ => congrArg src (funext fun ax => Fin.ext ?_)
  rw [h.lift_val]
  unfold Shape.Reduces.liftVal
  match ax with
  | ⟨0, _⟩ => rfl
  | ⟨1, _⟩ => rfl

/-- COLUMN SUMS. Along its first axis the sum is, at column `c`, the sum over the rows `r` of the entries `(r, c)`. -/
theorem multiReduction_add_cols {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (c : Fin b) :
    multiReduction .add [0] ⟨1, ![b]⟩ src acc h hφ hacc (ix1 c) = ∑ r : Fin a, src (ix2 r c) := by
  refine (Ideal.multiReduction_add_single src acc h hφ hacc (ix1 c)).trans ?_
  refine Finset.sum_congr rfl fun r _ => congrArg src (funext fun ax => Fin.ext ?_)
  rw [h.lift_val]
  unfold Shape.Reduces.liftVal
  match ax with
  | ⟨0, _⟩ => rfl
  | ⟨1, _⟩ => rfl

end Cert.LibKeepdims
-- ==== Proof.KPay.lean ====
/-
  What each launch's body leaves in its output blocks, at the extended reals, as plain functions of the input blocks.

  A block here is 5000 rows of 128 columns. The first body forms `1·x + a` from its two row blocks, multiplies by the
  whole 128 × 128 weight and adds the bias row to every row (`blockDense`); the second first normalises its row block
  column by column (`z·s + t`, clamped below at zero) and then does the same (`blockNorm`, `blockDense`); the third only
  normalises. Beside the rows, the first two bodies write a 1 × 2 × 128 block of column statistics: plane 0 holds, for each
  column, the sum of the block's 5000 entries in that column, plane 1 the sum of their squares. A change of float format is
  the identity here and the matrix unit's product into a zero accumulator is the plain sum of products.
-/
import proofs.«165747_j60928406061384_2_alg».proof.Proof.Gen.KernelIdeal.Frame
import proofs.«165747_j60928406061384_2_alg».proof.Proof.Spec
import proofs.«165747_j60928406061384_2_alg».proof.Proof.LibPlainDot
import proofs.«165747_j60928406061384_2_alg».proof.Proof.LibKeepdims
import Idealize.ShloMosaic.Lib.ValueLayout
import Idealize.ShloMosaic.Lib.Pipeline.Value
import Idealize.ShloMosaic.Lib.ValueIdx

noncomputable section

open scoped BigOperators

namespace Cert.KernelIdeal.KPay

open Cert.KernelIdeal Cert.KernelIdeal.Gen Idealize.ShloMosaic Idealize.ShloMosaic.ValueIdx Cert.Linear Cert.Spec

theorem hz2 : (![0, 0] : Fin 2 → Nat) = fun _ => 0 := funext fun a => by fin_cases a <;> rfl
theorem hz3 : (![0, 0, 0] : Fin 3 → Nat) = fun _ => 0 := funext fun a => by fin_cases a <;> rfl

section AnyFloat
variable {F : FTy → Type} [FloatOps F]

/-- Each output buffer is written by one store through its whole rectangle, so after the body it holds that store's
    payload. -/
theorem out0_4_eq (x0 x1 : Vec F S5000x128 .f32) (x2 : Vec F S128x128 .f32) (x3 : Vec F S1x128 .f32) :
    out0_4 x0 x1 x2 x3 = k0_pay1 x0 x1 x2 x3 := by
  unfold out0_4
  rw [View.canon_unit_zero hz2]
  simp only [View.ld_unit_zero (S := S5000x128) hz2, View.ld_unit_zero (S := S128x128) hz2, View.ld_unit_zero (S := S1x128) hz2]

theorem out0_5_eq (x0 x1 : Vec F S5000x128 .f32) (x2 : Vec F S128x128 .f32) (x3 : Vec F S1x128 .f32) :
    out0_5 x0 x1 x2 x3 = k0_pay2 x0 x1 x2 x3 := by
  unfold out0_5
  rw [View.canon_unit_zero hz3]
  simp only [View.ld_unit_zero (S := S5000x128) hz2, View.ld_unit_zero (S := S128x128) hz2, View.ld_unit_zero (S := S1x128) hz2]

theorem out1_5_eq (x0 : Vec F S5000x128 .f32) (x1 x2 : Vec F S1x128 .f32) (x3 : Vec F S128x128 .f32) (x4 : Vec F S1x128 .f32) :
    out1_5 x0 x1 x2 x3 x4 = k1_pay1 x0 x1 x2 x3 x4 := by
  unfold out1_5
  rw [View.canon_unit_zero hz2]
  simp only [View.ld_unit_zero (S := S5000x128) hz2, View.ld_unit_zero (S := S128x128) hz2, View.ld_unit_zero (S := S1x128) hz2]

theorem out1_6_eq (x0 : Vec F S5000x128 .f32) (x1 x2 : Vec F S1x128 .f32) (x3 : Vec F S128x128 .f32) (x4 : Vec F S1x128 .f32) :
    out1_6 x0 x1 x2 x3 x4 = k1_pay2 x0 x1 x2 x3 x4 := by
  unfold out1_6
  rw [View.canon_unit_zero hz3]
  simp only [View.ld_unit_zero (S := S5000x128) hz2, View.ld_unit_zero (S := S128x128) hz2, View.ld_unit_zero (S := S1x128) hz2]

theorem out2_3_eq (x0 : Vec F S5000x128 .f32) (x1 x2 : Vec F S1x128 .f32) :
    out2_3 x0 x1 x2 = k2_pay1 x0 x1 x2 := by
  unfold out2_3
  rw [View.canon_unit_zero hz2]
  simp only [View.ld_unit_zero (S := S5000x128) hz2, View.ld_unit_zero (S := S1x128) hz2]

end AnyFloat

/-! ## The blocks' functions -/

/-- A block of rows times the whole weight, plus the bias row on every row. -/
def blockDense (h : (Mat 5000 128).Idx → EReal) (w : (Mat 128 128).Idx → EReal) (b : (Mat 1 128).Idx → EReal) :
    (Mat 5000 128).Idx → EReal :=
  fun j => matProd h w j + b (ix2 (0 : Fin 1) (j 1))

/-- A block of rows normalised column by column and clamped below at the zero word. -/
def blockNorm (z : (Mat 5000 128).Idx → EReal) (s t : (Mat 1 128).Idx → EReal) : (Mat 5000 128).Idx → EReal :=
  fun j => max (z j * s (ix2 (0 : Fin 1) (j 1)) + t (ix2 (0 : Fin 1) (j 1))) zeroW

/-- The block of column statistics of a block of rows: plane 0 the column sums, plane 1 the sums of squares. -/
def blockStats (z : (Mat 5000 128).Idx → EReal) : (⟨3, ![1, 2, 128]⟩ : Shape).Idx → EReal :=
  fun j => if (j 1).val = 0 then ∑ r : Fin 5000, z (ix2 r (j 2)) else ∑ r : Fin 5000, z (ix2 r (j 2)) * z (ix2 r (j 2))

/-- The printed dimension record of the bodies' product is the plain one: columns against rows. -/
theorem contractsBody : Contracts dot_S5000x128_S128x128_S5000x128_1_0_0_1_n_n :=
  contracts_plain 5000 128 128

theorem bias_row (v : Vec Ideal S1x128 .f32) (p : Fin 5000) (q : Fin 128) :
    broadcastTo S5000x128 (shapeCast S1x128 v shapeCasts_S1x128_S1x128) broadcasts_S1x128_S5000x128 (ix2 p q)
      = v (ix2 (0 : Fin 1) q) := by
  rw [shapeCast_self]
  exact broadcastTo_1b_ab_apply v broadcasts_S1x128_S5000x128 p q

/-- The first body's rows. -/
theorem pay1_dense (x0 x1 : Vec Ideal S5000x128 .f32) (x2 : Vec Ideal S128x128 .f32) (x3 : Vec Ideal S1x128 .f32) :
    k0_pay1 (F := Ideal) x0 x1 x2 x3 = blockDense (fun i => oneW * x0 i + x1 i) x2 x3 := by
  funext j
  obtain ⟨p, q, rfl⟩ : ∃ (p : Fin 5000) (q : Fin 128), j = ix2 p q := ⟨j 0, j 1, eq_ix2 j⟩
  unfold k0_pay1
  show FloatOps.matmul dot_S5000x128_S128x128_S5000x128_1_0_0_1_n_n none _ _ (constant (F := Ideal) S5000x128 .f32 0x00000000#32) (ix2 p q) + _ = _
  rw [bias_row x3 p q]
  refine congrArg (· + x3 (ix2 (0 : Fin 1) q)) ?_
  refine (congrFun (matmul_zero_eq contractsBody none _ _) (ix2 p q)).trans ?_
  rw [shapeCast_self]
  rfl

/-- The third body's rows, and the second body's rows before the product. -/
theorem norm_rows (x0 : Vec Ideal S5000x128 .f32) (x1 x2 : Vec Ideal S1x128 .f32) :
    k2_pay1 (F := Ideal) x0 x1 x2 = blockNorm x0 x1 x2 := by
  funext j
  obtain ⟨p, q, rfl⟩ : ∃ (p : Fin 5000) (q : Fin 128), j = ix2 p q := ⟨j 0, j 1, eq_ix2 j⟩
  unfold k2_pay1
  show max (shapeCast S5000x128 x0 shapeCasts_S5000x128_S5000x128 (ix2 p q) * _ + _) _ = _
  rw [bias_row x1 p q, bias_row x2 p q, shapeCast_self]
  rfl

/-- The second body's rows. -/
theorem pay1_normdense (x0 : Vec Ideal S5000x128 .f32) (x1 x2 : Vec Ideal S1x128 .f32) (x3 : Vec Ideal S128x128 .f32)
    (x4 : Vec Ideal S1x128 .f32) :
    k1_pay1 (F := Ideal) x0 x1 x2 x3 x4 = blockDense (blockNorm x0 x1 x2) x3 x4 := by
  funext j
  obtain ⟨p, q, rfl⟩ : ∃ (p : Fin 5000) (q : Fin 128), j = ix2 p q := ⟨j 0, j 1, eq_ix2 j⟩
  unfold k1_pay1
  show FloatOps.matmul dot_S5000x128_S128x128_S5000x128_1_0_0_1_n_n none _ _ (constant (F := Ideal) S5000x128 .f32 0x00000000#32) (ix2 p q) + _ = _
  rw [bias_row x4 p q]
  refine congrArg (· + x4 (ix2 (0 : Fin 1) q)) ?_
  refine (congrFun (matmul_zero_eq contractsBody none _ _) (ix2 p q)).trans ?_
  refine congrFun (congrArg (fun h => matProd h x3) ?_) (ix2 p q)
  exact norm_rows x0 x1 x2

/-- The statistics block of a block of rows `z`, from the vector operations that build it: two column sums, each made a
    row, stacked, and given a leading unit axis. -/
theorem stats_of (z : FVec Ideal S5000x128 .f32) :
    shapeCast S1x2x128
      (concatenate S2x128 0
        [⟨S1x128, shapeCast S1x128 (multiReduction .add [0] S128 z 0x00000000#32 reduces_S5000x128_S128 (.inl rfl) rfl) shapeCasts_S128_S1x128⟩,
         ⟨S1x128, shapeCast S1x128 (multiReduction .add [0] S128 (mulf z z) 0x00000000#32 reduces_S5000x128_S128 (.inl rfl) rfl) shapeCasts_S128_S1x128⟩]
        concatenates_S1x128_S1x128_S2x128_d0) shapeCasts_S2x128_S1x2x128
      = blockStats z := by
  funext j
  obtain ⟨u, s, q, rfl⟩ : ∃ (u : Fin 1) (s : Fin 2) (q : Fin 128), j = ix3 u s q := ⟨j 0, j 1, j 2, eq_ix3 j⟩
  rw [shapeCast_addUnit_apply ![2, 128]]
  have hj : (fun a : Fin 2 => (ix3 u s q : (⟨3, ![1, 2, 128]⟩ : Shape).Idx) a.succ) = ix2 s q :=
    funext fun a => by match a with | ⟨0, _⟩ => rfl | ⟨1, _⟩ => rfl
  rw [hj]
  unfold blockStats
  match s with
  | ⟨0, _⟩ =>
    rw [concatenate_pair_apply_left (t := S2x128) (s₁ := S1x128) (s₂ := S1x128) (a := (0 : Fin 2)) (h := concatenates_S1x128_S1x128_S2x128_d0)
      (j := ix2 (⟨0, by omega⟩ : Fin 2) q) (hr := rfl) (i := ix2 (n0 := 1) (n1 := 128) (0 : Fin 1) q)
      (hi := fun b => by match b with | ⟨0, _⟩ => rfl | ⟨1, _⟩ => rfl)]
    rw [shapeCast_a_1a_apply _ shapeCasts_S128_S1x128 0 q]
    refine (Cert.LibKeepdims.multiReduction_add_cols z _ reduces_S5000x128_S128 _ _ q).trans ?_
    exact (if_pos rfl).symm
  | ⟨1, _⟩ =>
    rw [concatenate_pair_apply_right (t := S2x128) (s₁ := S1x128) (s₂ := S1x128) (a := (0 : Fin 2)) (h := concatenates_S1x128_S1x128_S2x128_d0)
      (j := ix2 (⟨1, by omega⟩ : Fin 2) q) (hr := rfl) (hr₂ := rfl) (i := ix2 (n0 := 1) (n1 := 128) (0 : Fin 1) q)
      (hi := fun b hb => by match b with | ⟨0, _⟩ => exact absurd rfl hb | ⟨1, _⟩ => rfl) (ha := rfl)]
    rw [shapeCast_a_1a_apply _ shapeCasts_S128_S1x128 0 q]
    refine (Cert.LibKeepdims.multiReduction_add_cols (mulf z z) _ reduces_S5000x128_S128 _ _ q).trans ?_
    exact (if_neg (show ¬ (1 : Nat) = 0 from Nat.one_ne_zero)).symm

theorem pay2_first (x0 x1 : Vec Ideal S5000x128 .f32) (x2 : Vec Ideal S128x128 .f32) (x3 : Vec Ideal S1x128 .f32) :
    k0_pay2 (F := Ideal) x0 x1 x2 x3 = blockStats (blockDense (fun i => oneW * x0 i + x1 i) x2 x3) := by
  unfold k0_pay2
  rw [pay1_dense]
  exact stats_of _

theorem pay2_second (x0 : Vec Ideal S5000x128 .f32) (x1 x2 : Vec Ideal S1x128 .f32) (x3 : Vec Ideal S128x128 .f32)
    (x4 : Vec Ideal S1x128 .f32) :
    k1_pay2 (F := Ideal) x0 x1 x2 x3 x4 = blockStats (blockDense (blockNorm x0 x1 x2) x3 x4) := by
  unfold k1_pay2
  rw [pay1_normdense]
  exact stats_of _

end Cert.KernelIdeal.KPay

end
-- ==== Proof.LibSumSplit.lean ====
/-
  Two ways of regrouping a finite sum in a commutative monoid.

  A sum over the first `2·n` naturals that keeps only the even ones (or only the odd ones), each contributing a term
  that depends on its half, is the sum of those terms over the first `n` naturals.  A sum over the first `a·b`
  naturals is the sum over `a` consecutive runs of length `b`.  Both use only associativity and commutativity of the
  addition, so they hold on the extended reals with no finiteness assumption.
-/
import Mathlib.Algebra.BigOperators.Fin
import Mathlib.Algebra.BigOperators.Intervals

open scoped BigOperators

namespace Cert.LibSumSplit

variable {M : Type*} [AddCommMonoid M]

/-- Keeping the even naturals below `2·n`, the one `2·i` contributing `f i`: the sum of `f` over `i < n`. -/
theorem sum_range_even (f : ℕ → M) (n : ℕ) :
    ∑ s ∈ Finset.range (2 * n), (if s % 2 = 0 then f (s / 2) else 0) = ∑ i ∈ Finset.range n, f i := by
  induction n with
  | zero => simp
  | succ n ih =>
    have e : 2 * (n + 1) = 2 * n + 1 + 1 := by omega
    rw [e, Finset.sum_range_succ, Finset.sum_range_succ, ih, Finset.sum_range_succ]
    have h0 : (2 * n) % 2 = 0 := by omega
    have h1 : ¬(2 * n + 1) % 2 = 0 := by omega
    have h2 : (2 * n) / 2 = n := by omega
    rw [if_pos h0, if_neg h1, h2, add_zero]

/-- Keeping the odd naturals below `2·n`, the one `2·i + 1` contributing `f i`: the sum of `f` over `i < n`. -/
theorem sum_range_odd (f : ℕ → M) (n : ℕ) :
    ∑ s ∈ Finset.range (2 * n), (if s % 2 = 1 then f (s / 2) else 0) = ∑ i ∈ Finset.range n, f i := by
  induction n with
  | zero => simp
  | succ n ih =>
    have e : 2 * (n + 1) = 2 * n + 1 + 1 := by omega
    rw [e, Finset.sum_range_succ, Finset.sum_range_succ, ih, Finset.sum_range_succ]
    have h0 : ¬(2 * n) % 2 = 1 := by omega
    have h1 : (2 * n + 1) % 2 = 1 := by omega
    have h2 : (2 * n + 1) / 2 = n := by omega
    rw [if_neg h0, if_pos h1, h2, add_zero]

/-- The first `a·b` naturals are `a` consecutive runs of `b`. -/
theorem sum_range_mul (g : ℕ → M) (a b : ℕ) :
    ∑ k ∈ Finset.range (a * b), g k = ∑ i ∈ Finset.range a, ∑ j ∈ Finset.range b, g (i * b + j) := by
  induction a with
  | zero => simp
  | succ a ih =>
    rw [Finset.sum_range_succ, ← ih, Nat.succ_mul, Finset.sum_range_add]

end Cert.LibSumSplit
-- ==== Proof.NormMath.lean ====
/-
  The float words of the shared specification as real numbers, and the regrouping of a sum over all
  `100000` rows into `20` consecutive tiles of `5000` rows.

  The four words denote `0`, `1`, `100000` and a positive real (the float nearest `1e-5`).
  The regrouping uses only associativity and commutativity of the addition of extended reals, so it needs no
  finiteness assumption.
-/
import proofs.«165747_j60928406061384_2_alg».proof.Proof.Spec
import proofs.«165747_j60928406061384_2_alg».proof.Proof.LibSumSplit

noncomputable section

open scoped BigOperators

namespace Cert.Spec

open Idealize.ShloMosaic

/-! ## The words -/

/-- The all-zero pattern denotes the real number zero. -/
theorem zeroW_eq : zeroW = 0 := by
  unfold zeroW; simp [Ideal.ofBits, Ideal.ieee]

/-- The pattern of `1.0` denotes the real number one. -/
theorem oneW_eq : oneW = 1 := by
  unfold oneW; simp [Ideal.ofBits, Ideal.ieee, -EReal.coe_mul]; norm_num

/-- The pattern of `100000.0` denotes the real number `100000`. -/
theorem countW_eq : countW = ((100000 : ℝ) : EReal) := by
  unfold countW; simp [Ideal.ofBits, Ideal.ieee, -EReal.coe_mul]; norm_num

/-- The pattern of the float nearest `1e-5` denotes a positive real number. -/
theorem epsW_eq : ∃ e : ℝ, 0 < e ∧ epsW = (e : EReal) := by
  refine ⟨(10995116 : ℝ) * (2 : ℝ) ^ (-40 : ℤ), by positivity, ?_⟩
  unfold epsW; simp [Ideal.ofBits, Ideal.ieee, -EReal.coe_mul]

/-! ## Tiles -/

/-- A sum over all `100000` rows is the sum, over the `20` tiles, of the sums over the `5000` rows of a
    tile: row `r` is row `i` of tile `t` with `r = t · 5000 + i`. -/
theorem sum_tiles (f : Fin 100000 → EReal) :
    ∑ t : Fin 20, ∑ i : Fin 5000,
        f ⟨t.val * 5000 + i.val, by have := t.isLt; have := i.isLt; omega⟩
      = ∑ r : Fin 100000, f r := by
  let g : ℕ → EReal := fun k => if h : k < 100000 then f ⟨k, h⟩ else 0
  have hR : ∑ r : Fin 100000, f r = ∑ k ∈ Finset.range 100000, g k := by
    rw [← Fin.sum_univ_eq_sum_range]
    refine Finset.sum_congr rfl fun r _ => ?_
    simp only [g, dif_pos r.isLt]
  have hM : ∑ k ∈ Finset.range 100000, g k
      = ∑ a ∈ Finset.range 20, ∑ j ∈ Finset.range 5000, g (a * 5000 + j) :=
    Cert.LibSumSplit.sum_range_mul g 20 5000
  rw [hR, hM, ← Fin.sum_univ_eq_sum_range (fun a => ∑ j ∈ Finset.range 5000, g (a * 5000 + j))]
  refine Finset.sum_congr rfl fun t _ => ?_
  rw [← Fin.sum_univ_eq_sum_range (fun j => g (t.val * 5000 + j))]
  refine Finset.sum_congr rfl fun i _ => ?_
  have h : t.val * 5000 + i.val < 100000 := by have := t.isLt; have := i.isLt; omega
  simp only [g, dif_pos h]

end Cert.Spec

end
-- ==== Proof.KHost.lean ====
/-
  The host lines between two launches: from the per-block column statistics to one scale row and one shift row.

  The statistics array has, for each of the 20 blocks of 5000 rows, a plane of column sums and a plane of sums of
  squares. The host adds the planes over the blocks (from the zero word), divides both by the count word to get the
  mean and the mean of squares of each column, takes the mean of squares minus the squared mean clamped below at zero
  as the variance, `γ · rsqrt (var + ε)` as the scale and `β − mean · scale` as the shift, and hands both to the next
  launch as 1 × 128 rows. Adding twenty block sums of 5000 entries each is adding all 100000 entries, so these are the
  specification's `scaleK` and `shiftK` of the whole array the blocks were cut from.
-/
import proofs.«165747_j60928406061384_2_alg».proof.Proof.Gen.KernelIdeal.Frame
import proofs.«165747_j60928406061384_2_alg».proof.Proof.Spec
import proofs.«165747_j60928406061384_2_alg».proof.Proof.NormMath
import Idealize.ShloMosaic.Lib.IdealHost
import Idealize.ShloMosaic.Lib.ValueLayout
import Idealize.ShloMosaic.Lib.Pipeline.Value
import Idealize.ShloMosaic.Lib.ValueIdx
import Idealize.ShloMosaic.Lib.StableHlo.Run
import Idealize.ShloMosaic.PureOps.Ideal.Laws

noncomputable section

open scoped BigOperators

namespace Cert.KernelIdeal.KHost

open Cert.KernelIdeal Cert.KernelIdeal.Gen Idealize.ShloMosaic Idealize.ShloMosaic.ValueIdx Cert.Linear Cert.Spec

section AnyFloat
variable {F : FTy → Type} [FloatOps F]

/-- The planes added over the blocks. -/
def sumsT (st : FVec F S20x2x128 .f32) : FVec F S2x128 .f32 :=
  Host.reduceAdd st (constant S_ .f32 0x00000000#32) reducesTo_S20x2x128_S2x128_d0 h_S_
def countT : FVec F S128 .f32 := broadcastInDim S128 ![] bcast_S_S128 (constant S_ .f32 0x47C35000#32)
def meanT (st : FVec F S20x2x128 .f32) : FVec F S128 .f32 :=
  Host.divf (shapeCast S128 (extractStridedSlice S1x128 ![0, 0] (sumsT st) slices_S2x128_S1x128_0_0) shapeCasts_S1x128_S128) countT
def sqMeanT (st : FVec F S20x2x128 .f32) : FVec F S128 .f32 :=
  Host.divf (shapeCast S128 (extractStridedSlice S1x128 ![1, 0] (sumsT st) slices_S2x128_S1x128_1_0) shapeCasts_S1x128_S128) countT
def varT (st : FVec F S20x2x128 .f32) : FVec F S128 .f32 :=
  maximumf (subf (sqMeanT st) (mulf (meanT st) (meanT st))) (broadcastInDim S128 ![] bcast_S_S128 (constant S_ .f32 0x00000000#32))
def scaleT (st : FVec F S20x2x128 .f32) (g : FVec F S128 .f32) : FVec F S128 .f32 :=
  mulf g (Host.rsqrt (addf (varT st) (broadcastInDim S128 ![] bcast_S_S128 (constant S_ .f32 0x3727C5AC#32))))
def shiftT (st : FVec F S20x2x128 .f32) (g b : FVec F S128 .f32) : FVec F S128 .f32 :=
  subf b (mulf (meanT st) (scaleT st g))
/-- A vector handed to a launch as a one-row matrix. -/
def rowT (v : FVec F S128 .f32) : FVec F S1x128 .f32 := shapeCast S1x128 v shapeCasts_S128_S1x128

variable (V : Valuation τ sig (Elt F))

/-! The contents after each stretch, from any contents before it. -/

theorem host1_scale : StableHlo.after hostOps1 V (Proc.devRef .tc main_v70)
    = rowT (scaleT (V (Proc.devRef .tc main_v49_1)) (V (Proc.devRef .tc main_arg6))) := by
  after_results_simp; rfl
theorem host1_shift : StableHlo.after hostOps1 V (Proc.devRef .tc main_v71)
    = rowT (shiftT (V (Proc.devRef .tc main_v49_1)) (V (Proc.devRef .tc main_arg6)) (V (Proc.devRef .tc main_arg7))) := by
  after_results_simp; rfl
theorem host1_bias : StableHlo.after hostOps1 V (Proc.devRef .tc main_v69) = rowT (V (Proc.devRef .tc main_arg9)) := by
  after_results_simp; rfl
theorem host1_rows : StableHlo.after hostOps1 V (Proc.devRef .tc main_v49_0) = V (Proc.devRef .tc main_v49_0) := by
  after_results_simp
theorem host1_weight : StableHlo.after hostOps1 V (Proc.devRef .tc main_arg8) = V (Proc.devRef .tc main_arg8) := by
  after_results_simp

theorem host2_scale : StableHlo.after hostOps2 V (Proc.devRef .tc main_v92)
    = rowT (scaleT (V (Proc.devRef .tc main_v72_1)) (V (Proc.devRef .tc main_arg10))) := by
  after_results_simp; rfl
theorem host2_shift : StableHlo.after hostOps2 V (Proc.devRef .tc main_v93)
    = rowT (shiftT (V (Proc.devRef .tc main_v72_1)) (V (Proc.devRef .tc main_arg10)) (V (Proc.devRef .tc main_arg11))) := by
  after_results_simp; rfl
theorem host2_rows : StableHlo.after hostOps2 V (Proc.devRef .tc main_v72_0) = V (Proc.devRef .tc main_v72_0) := by
  after_results_simp

end AnyFloat

/-! ## Read at a column, at the extended reals -/

theorem word128 (w : BitVec 32) (q : Fin 128) :
    broadcastInDim S128 ![] bcast_S_S128 (constant (F := Ideal) S_ .f32 w) (ix1 q) = Ideal.ofBits .f32 w :=
  broadcastInDim_scalar_apply bcast_S_S128 _ (ix1 q)

theorem reduces20 : S20x2x128.Reduces [0] S2x128 := by decide

/-- The planes added over the 20 blocks: the zero word plus the sum. -/
theorem sums_apply (st : FVec Ideal S20x2x128 .f32) (s : Fin 2) (q : Fin 128) :
    sumsT (F := Ideal) st (ix2 s q) = zeroW + ∑ t : Fin 20, st (ix3 t s q) := by
  unfold sumsT
  refine (hostReduceAdd_apply st _ reducesTo_S20x2x128_S2x128_d0 h_S_ (ix2 s q)).trans ?_
  refine (Ideal.hostReduceAdd_single reducesTo_S20x2x128_S2x128_d0 reduces20 st _ (ix2 s q)).trans ?_
  refine congrArg (fun x => zeroW + x) (Finset.sum_congr rfl fun t _ => congrArg st (funext fun ax => Fin.ext ?_))
  rw [reduces20.lift_val]
  unfold Shape.Reduces.liftVal
  match ax with
  | ⟨0, _⟩ => rfl
  | ⟨1, _⟩ => rfl
  | ⟨2, _⟩ => rfl

theorem plane0_apply (y : FVec Ideal S2x128 .f32) (q : Fin 128) :
    shapeCast S128 (extractStridedSlice S1x128 ![0, 0] y slices_S2x128_S1x128_0_0) shapeCasts_S1x128_S128 (ix1 q)
      = y (ix2 (0 : Fin 2) q) := by
  rw [shapeCast_1a_a_apply]
  exact extractStridedSlice_apply ![0, 0] y slices_S2x128_S1x128_0_0 (ix2 (0 : Fin 1) q) (ix2 (0 : Fin 2) q) fun a => by
    match a with
    | ⟨0, _⟩ => rfl
    | ⟨1, _⟩ => show q.val = 0 + q.val; omega

theorem plane1_apply (y : FVec Ideal S2x128 .f32) (q : Fin 128) :
    shapeCast S128 (extractStridedSlice S1x128 ![1, 0] y slices_S2x128_S1x128_1_0) shapeCasts_S1x128_S128 (ix1 q)
      = y (ix2 (1 : Fin 2) q) := by
  rw [shapeCast_1a_a_apply]
  exact extractStridedSlice_apply ![1, 0] y slices_S2x128_S1x128_1_0 (ix2 (0 : Fin 1) q) (ix2 (1 : Fin 2) q) fun a => by
    match a with
    | ⟨0, _⟩ => rfl
    | ⟨1, _⟩ => show q.val = 0 + q.val; omega

/-- Row `i` of block `t` is row `5000·t + i` of the whole array. -/
def rowOf (t : Fin 20) (i : Fin 5000) : Fin 100000 := ⟨t.val * 5000 + i.val, by have := t.isLt; have := i.isLt; omega⟩

/-- What it means for `st` to be the per-block statistics of the whole array `Z`. -/
def StatsOf (st : FVec Ideal S20x2x128 .f32) (Z : (Mat NN CC).Idx → EReal) : Prop :=
  ∀ (t : Fin 20) (q : Fin 128),
    st (ix3 t (0 : Fin 2) q) = ∑ i : Fin 5000, Z (ix2 (rowOf t i) q)
    ∧ st (ix3 t (1 : Fin 2) q) = ∑ i : Fin 5000, Z (ix2 (rowOf t i) q) * Z (ix2 (rowOf t i) q)

variable {st : FVec Ideal S20x2x128 .f32} {Z : (Mat NN CC).Idx → EReal}

theorem mean_eq (h : StatsOf st Z) (q : Fin 128) : meanT (F := Ideal) st (ix1 q) = meanK Z q := by
  unfold meanT meanK colSum
  show Ideal.div _ _ = _
  rw [plane0_apply, sums_apply]
  unfold countT
  rw [word128]
  refine congrArg (fun x => Ideal.div (zeroW + x) countW) ?_
  rw [← sum_tiles (fun r => Z (ix2 r q))]
  exact Finset.sum_congr rfl fun t _ => (h t q).1

theorem sqMean_eq (h : StatsOf st Z) (q : Fin 128) : sqMeanT (F := Ideal) st (ix1 q) = sqMeanK Z q := by
  unfold sqMeanT sqMeanK colSumSq
  show Ideal.div _ _ = _
  rw [plane1_apply, sums_apply]
  unfold countT
  rw [word128]
  refine congrArg (fun x => Ideal.div (zeroW + x) countW) ?_
  rw [← sum_tiles (fun r => Z (ix2 r q) * Z (ix2 r q))]
  exact Finset.sum_congr rfl fun t _ => (h t q).2

theorem var_eq (h : StatsOf st Z) (q : Fin 128) : varT (F := Ideal) st (ix1 q) = varK Z q := by
  unfold varT varK
  show max (sqMeanT st (ix1 q) - meanT st (ix1 q) * meanT st (ix1 q)) _ = _
  rw [word128, mean_eq h, sqMean_eq h]
  rfl

theorem scale_eq (h : StatsOf st Z) (g : FVec Ideal S128 .f32) (q : Fin 128) :
    scaleT (F := Ideal) st g (ix1 q) = scaleK Z g q := by
  unfold scaleT scaleK
  show g (ix1 q) * Ideal.rsqrt (varT st (ix1 q) + _) = _
  rw [word128, var_eq h]
  rfl

theorem shift_eq (h : StatsOf st Z) (g b : FVec Ideal S128 .f32) (q : Fin 128) :
    shiftT (F := Ideal) st g b (ix1 q) = shiftK Z g b q := by
  unfold shiftT shiftK
  show b (ix1 q) - meanT st (ix1 q) * scaleT st g (ix1 q) = _
  rw [mean_eq h, scale_eq h]

theorem row_apply (v : FVec Ideal S128 .f32) (q : Fin 128) : rowT (F := Ideal) v (ix2 (0 : Fin 1) q) = v (ix1 q) :=
  shapeCast_a_1a_apply v shapeCasts_S128_S1x128 0 q

end Cert.KernelIdeal.KHost

end
-- ==== Proof.LibRowBlock.lean ====
/-
  GENERAL LEMMAS: a matrix product read one block of rows at a time, and a row vector added to every row.

  * `matProd_of_rows`: entry `j` of `x · w` is entry `i` of `X · W` as soon as row `j 0` of `x` is row `i 0` of `X` and
    column `j 1` of `w` is column `i 1` of `W` — what a kernel that multiplies a block of rows at each grid point
    needs against ONE whole product (a row of a product depends on that row of the left operand only).
  * `rowBiasMax`: a `1 × K` row added to every row of an `R × K` matrix, then the maximum with a constant, entry by
    entry; `rowBiasMax_of_vector_ops` reads the vector operations `max (x + broadcast b) (splat z)` as it, and
    `rowBiasMax_of_host_ops` reads the host's two `broadcast_in_dim`s of a length-`K` vector as it (at the vector
    reshaped to one row).

  Everything is over the extended reals with no finiteness hypothesis. Imports the library and `LibMatProd.lean`.
-/
import proofs.«165747_j60928406061384_2_alg».proof.Proof.LibMatProd
import Idealize.ShloMosaic.Lib.ValueLayout
import Idealize.ShloMosaic.Lib.Pipeline.Value

noncomputable section

open scoped BigOperators

namespace Cert.Linear

open Idealize.ShloMosaic Idealize.ShloMosaic.ValueIdx

/-- Entry `j` of `x · w` is entry `i` of `X · W` when row `j 0` of `x` is row `i 0` of `X` and column `j 1` of `w` is
    column `i 1` of `W`. -/
theorem matProd_of_rows {R r K N n : Nat} (X : (Mat R K).Idx → EReal) (W : (Mat K N).Idx → EReal)
    (x : (Mat r K).Idx → EReal) (w : (Mat K n).Idx → EReal) (j : (Mat r n).Idx) (i : (Mat R N).Idx)
    (hx : ∀ k : Fin K, x (ix2 (n0 := r) (n1 := K) (j 0) k) = X (ix2 (n0 := R) (n1 := K) (i 0) k))
    (hw : ∀ k : Fin K, w (ix2 (n0 := K) (n1 := n) k (j 1)) = W (ix2 (n0 := K) (n1 := N) k (i 1))) :
    matProd x w j = matProd X W i := by
  unfold matProd
  exact Finset.sum_congr rfl fun k _ => by rw [hx k, hw k]

/-- A `1 × K` row `B` added to every row of `A`, then the maximum with `z`. -/
def rowBiasMax {R K : Nat} (A : (Mat R K).Idx → EReal) (B : (Mat 1 K).Idx → EReal) (z : EReal) : (Mat R K).Idx → EReal :=
  fun i => max (A i + B (ix2 (n0 := 1) (n1 := K) 0 (i 1))) z

/-- The vector operations `max (x + broadcast b) (splat z)` over an `R × K` block `x` and a `1 × K` row `b` (each first
    cast to its own shape, as a kernel body spells a broadcasting add) are `rowBiasMax x b z`. -/
theorem rowBiasMax_of_vector_ops {R K : Nat} (x : FVec Ideal (Mat R K) .f32) (b : FVec Ideal (Mat 1 K) .f32) (z : Ideal .f32)
    (h1 : (Mat R K).ShapeCasts (Mat R K)) (h2 : (Mat 1 K).ShapeCasts (Mat 1 K)) (h3 : (Mat 1 K).Broadcasts (Mat R K)) :
    maximumf (addf (shapeCast (Mat R K) x h1) (broadcastTo (Mat R K) (shapeCast (Mat 1 K) b h2) h3)) (broadcast (Mat R K) z)
      = rowBiasMax x b z := by
  rw [shapeCast_self, shapeCast_self]
  funext i
  obtain ⟨p, q, rfl⟩ : ∃ (p : Fin R) (q : Fin K), i = ix2 p q := ⟨i 0, i 1, eq_ix2 i⟩
  show max (x (ix2 p q) + broadcastTo (Mat R K) b h3 (ix2 p q)) z = max (x (ix2 p q) + b (ix2 (0 : Fin 1) q)) z
  rw [broadcastTo_1b_ab_apply b h3 p q]

/-- The host's spelling — a length-`K` vector made a row and then `R` rows by two `broadcast_in_dim`s, added, and the
    maximum with a splat constant — is `rowBiasMax` at the vector reshaped to one row. -/
theorem rowBiasMax_of_host_ops {R K : Nat} (A : FVec Ideal (Mat R K) .f32) (b : FVec Ideal (⟨1, ![K]⟩ : Shape) .f32) (zb : BitVec 32)
    (h1 : (⟨1, ![K]⟩ : Shape).BroadcastsInDim (Mat 1 K) ![1]) (h2 : (Mat 1 K).BroadcastsInDim (Mat R K) ![0, 1])
    (h3 : (⟨0, ![]⟩ : Shape).BroadcastsInDim (Mat R K) ![]) (h4 : (⟨1, ![K]⟩ : Shape).ShapeCasts (Mat 1 K)) :
    maximumf (addf A (broadcastInDim (Mat R K) ![0, 1] h2 (broadcastInDim (Mat 1 K) ![1] h1 b)))
        (broadcastInDim (Mat R K) ![] h3 (constant (F := Ideal) (⟨0, ![]⟩ : Shape) .f32 zb))
      = rowBiasMax A (shapeCast (Mat 1 K) b h4) (Ideal.ofBits .f32 zb) := by
  funext i
  obtain ⟨p, q, rfl⟩ : ∃ (p : Fin R) (q : Fin K), i = ix2 p q := ⟨i 0, i 1, eq_ix2 i⟩
  have e2 : broadcastInDim (Mat R K) ![0, 1] h2 (broadcastInDim (Mat 1 K) ![1] h1 b) (ix2 p q)
      = broadcastInDim (Mat 1 K) ![1] h1 b (ix2 (0 : Fin 1) q) :=
    broadcastInDim_apply ![0, 1] h2 _ (ix2 p q) (ix2 (0 : Fin 1) q) fun a => by
      match a with
      | ⟨0, _⟩ => rfl
      | ⟨1, _⟩ =>
        show q.val = if K = 1 then 0 else q.val
        split
        · have := q.isLt; omega
        · rfl
  have e1 : broadcastInDim (Mat 1 K) ![1] h1 b (ix2 (0 : Fin 1) q) = b (ix1 q) :=
    broadcastInDim_apply ![1] h1 b (ix2 (0 : Fin 1) q) (ix1 q) fun a => by
      match a with
      | ⟨0, _⟩ =>
        show q.val = if K = 1 then 0 else q.val
        split
        · have := q.isLt; omega
        · rfl
  have e3 : broadcastInDim (Mat R K) ![] h3 (constant (F := Ideal) (⟨0, ![]⟩ : Shape) .f32 zb) (ix2 p q) = Ideal.ofBits .f32 zb :=
    broadcastInDim_apply ![] h3 _ (ix2 p q) ix0 fun a => a.elim0
  show max (A (ix2 p q) + broadcastInDim (Mat R K) ![0, 1] h2 (broadcastInDim (Mat 1 K) ![1] h1 b) (ix2 p q))
      (broadcastInDim (Mat R K) ![] h3 (constant (F := Ideal) (⟨0, ![]⟩ : Shape) .f32 zb) (ix2 p q))
    = max (A (ix2 p q) + shapeCast (Mat 1 K) b h4 (ix2 (0 : Fin 1) q)) (Ideal.ofBits .f32 zb)
  rw [e2, e1, e3, shapeCast_a_1a_apply b h4 0 q]

end Cert.Linear

end
-- ==== Proof.KReg0.lean ====
/-
  The first launch, block by block, as whole arrays.

  Its grid has 20 points; point `t` reads rows `5000·t … 5000·t + 4999` of the features and of the aggregated messages,
  the whole weight and the bias row, and writes the same rows of the dense layer's result and block `t` of the column
  statistics. A row of a matrix product depends on that row of the left operand only, so the row blocks are the
  restrictions of ONE product over all 100000 rows; the 20 row blocks cover the result, and the 20 statistics blocks
  cover the statistics array, whose entry `(t, ·, q)` is the sum (of squares) of column `q` over block `t`'s rows.
-/
import proofs.«165747_j60928406061384_2_alg».proof.Proof.KPay
import proofs.«165747_j60928406061384_2_alg».proof.Proof.KHost
import proofs.«165747_j60928406061384_2_alg».proof.Proof.LibRowBlock

set_option maxRecDepth 16384

noncomputable section

open scoped BigOperators

namespace Cert.KernelIdeal.KReg0

open Cert.KernelIdeal Cert.KernelIdeal.Gen Idealize.ShloMosaic Idealize.ShloMosaic.TcCoe Idealize.ShloMosaic.ValueIdx Cert.Linear Cert.Spec
open Cert.KernelIdeal.KPay Cert.KernelIdeal.KHost
open Idealize.ShloMosaic.Pipeline (Dat)

variable (V : (c : Dev nD) → (b : Ref sig .tc) → Buf (Elt Ideal) ((c : Thread nD τ).loc b))

/-- The printed index maps over the grid: the row windows move one block per point, the weight and the bias stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 3) = t.val ∧ win0_5.index t (1 : Fin 3) = 0 ∧ win0_5.index t (2 : Fin 3) = 0 :=
  (by decide +kernel : ∀ t : Fin grid0.N, _)

/-- The dense layer's result over all rows, from the arrays the launch finds. -/
def rowsG (c : Dev nD) (b1 : (Vec1 CC).Idx → EReal) : (Mat NN CC).Idx → EReal :=
  dense (combine (V c main_arg0) (V c main_v47)) (V c main_arg4) b1

/-- The statistics array of a whole array `Z`. -/
def statsG (Z : (Mat NN CC).Idx → EReal) : (⟨3, ![20, 2, 128]⟩ : Shape).Idx → EReal :=
  fun j => if (j 1).val = 0 then ∑ i : Fin 5000, Z (ix2 (rowOf (j 0) i) (j 2))
    else ∑ i : Fin 5000, Z (ix2 (rowOf (j 0) i) (j 2)) * Z (ix2 (rowOf (j 0) i) (j 2))

theorem statsOf_statsG (Z : (Mat NN CC).Idx → EReal) : StatsOf (statsG Z) Z := fun t q => ⟨rfl, rfl⟩

section Point
variable (c : Dev nD) (t : Fin cfg0.N) (b1 : (Vec1 CC).Idx → EReal)
  (hb : ∀ q : Fin 128, V c main_v48 (ix2 (0 : Fin 1) q) = b1 (ix1 q))
include hb

/-- Row `p` of point `t`'s block of the dense result is row `5000·t + p` of the whole result. -/
theorem block_rows (p : Fin 5000) (q : Fin 128) (i : (Mat NN CC).Idx)
    (hi0 : (i 0).val = t.val * 5000 + p.val) (hi1 : (i 1).val = q.val) :
    blockDense (fun y => oneW * iblk0 V c 0 t y + iblk0 V c 1 t y) (iblk0 V c 2 t) (iblk0 V c 3 t) (ix2 p q)
      = rowsG V c b1 i := by
  obtain ⟨e00, e01, e10, e11, e20, e21, e30, e31, -⟩ := idx_facts t
  unfold blockDense rowsG dense
  have hq : i 1 = q := Fin.ext hi1
  refine congrArg₂ (· + ·) ?_ ?_
  · refine matProd_of_rows _ _ _ _ (ix2 p q) i (fun k => ?_) (fun k => ?_)
    · unfold combine
      have h0 : ((cfg0.win 0).blk t).view.emb (ix2 p k) = ix2 (i 0) k := by
        funext a; apply Fin.ext
        match a with
        | ⟨0, _⟩ => show win0_0.index t (0 : Fin 2) * 5000 + 1 * p.val = (i 0).val; omega
        | ⟨1, _⟩ => show win0_0.index t (1 : Fin 2) * 128 + 1 * k.val = k.val; omega
      have h1 : ((cfg0.win 1).blk t).view.emb (ix2 p k) = ix2 (i 0) k := by
        funext a; apply Fin.ext
        match a with
        | ⟨0, _⟩ => show win0_1.index t (0 : Fin 2) * 5000 + 1 * p.val = (i 0).val; omega
        | ⟨1, _⟩ => show win0_1.index t (1 : Fin 2) * 128 + 1 * k.val = k.val; omega
      show oneW * V c main_arg0 (((cfg0.win 0).blk t).view.emb (ix2 p k)) + V c main_v47 (((cfg0.win 1).blk t).view.emb (ix2 p k)) = _
      rw [h0, h1]
      try rfl
    · have h2 : ((cfg0.win 2).blk t).view.emb (ix2 k q) = ix2 k (i 1) := by
        funext a; apply Fin.ext
        match a with
        | ⟨0, _⟩ => show win0_2.index t (0 : Fin 2) * 128 + 1 * k.val = k.val; omega
        | ⟨1, _⟩ => show win0_2.index t (1 : Fin 2) * 128 + 1 * q.val = (i 1).val; omega
      show V c main_arg4 (((cfg0.win 2).blk t).view.emb (ix2 k q)) = _
      rw [h2]
      try rfl
  · have h3 : ((cfg0.win 3).blk t).view.emb (ix2 (0 : Fin 1) q) = ix2 (0 : Fin 1) q := by
      funext a; apply Fin.ext
      match a with
      | ⟨0, _⟩ => show win0_3.index t (0 : Fin 2) * 1 + 1 * 0 = 0; omega
      | ⟨1, _⟩ => show win0_3.index t (1 : Fin 2) * 128 + 1 * q.val = q.val; omega
    show V c main_v48 (((cfg0.win 3).blk t).view.emb (ix2 (0 : Fin 1) q)) = b1 (ix1 (i 1))
    rw [h3, hb q, hq]

/-- What point `t` writes back to the dense result: block `t` of the whole result. -/
theorem flushed_rows :
    (dat0 V c).flushed 4 t = ((cfg0.win 4).blk t).view.read (Elt Ideal) (rowsG V c b1) := by
  show (cfg0.win 4).cut (grid0.coords t) ((dat0 V c).after 4 t) = _
  rw [after0_4, out0_4_eq, pay1_dense]
  obtain ⟨-, -, -, -, -, -, -, -, e40, e41, -⟩ := idx_facts t
  funext j
  obtain ⟨p, q, rfl⟩ : ∃ (p : Fin 5000) (q : Fin 128), j = ix2 p q := ⟨j 0, j 1, eq_ix2 j⟩
  refine block_rows V c t b1 hb p q _ ?_ ?_
  · show win0_4.index t (0 : Fin 2) * 5000 + 1 * p.val = _; omega
  · show win0_4.index t (1 : Fin 2) * 128 + 1 * q.val = _; omega

/-- What point `t` writes back to the statistics: block `t` of the whole result's statistics. -/
theorem flushed_stats :
    (dat0 V c).flushed 5 t = ((cfg0.win 5).blk t).view.read (Elt Ideal) (statsG (rowsG V c b1)) := by
  show (cfg0.win 5).cut (grid0.coords t) ((dat0 V c).after 5 t) = _
  rw [after0_5, out0_5_eq, pay2_first]
  obtain ⟨-, -, -, -, -, -, -, -, -, -, e50, e51, e52⟩ := idx_facts t
  funext j
  obtain ⟨u, s, q, rfl⟩ : ∃ (u : Fin 1) (s : Fin 2) (q : Fin 128), j = ix3 u s q := ⟨j 0, j 1, j 2, eq_ix3 j⟩
  have hu : u.val = 0 := by omega
  have hj0 : ((((cfg0.win 5).blk t).view.emb (ix3 u s q)) 0).val = t.val := by
    show win0_5.index t (0 : Fin 3) * 1 + 1 * u.val = _; omega
  have hj1 : ((((cfg0.win 5).blk t).view.emb (ix3 u s q)) 1).val = s.val := by
    show win0_5.index t (1 : Fin 3) * 2 + 1 * s.val = _; omega
  have hj2 : (((cfg0.win 5).blk t).view.emb (ix3 u s q)) 2 = q := Fin.ext (by
    show win0_5.index t (2 : Fin 3) * 128 + 1 * q.val = _; omega)
  show blockStats _ (ix3 u s q) = statsG (rowsG V c b1) (((cfg0.win 5).blk t).view.emb (ix3 u s q))
  unfold blockStats statsG
  show (if s.val = 0 then _ else _) = (if ((((cfg0.win 5).blk t).view.emb (ix3 u s q)) 1).val = 0 then _ else _)
  rw [hj1]
  have hrow : ∀ r : Fin 5000, blockDense (fun y => oneW * iblk0 V c 0 t y + iblk0 V c 1 t y) (iblk0 V c 2 t) (iblk0 V c 3 t) (ix2 r q)
      = rowsG V c b1 (ix2 (rowOf ((((cfg0.win 5).blk t).view.emb (ix3 u s q)) 0) r) ((((cfg0.win 5).blk t).view.emb (ix3 u s q)) 2)) := fun r =>
    block_rows V c t b1 hb r q _ (by show ((((cfg0.win 5).blk t).view.emb (ix3 u s q)) 0).val * 5000 + r.val = t.val * 5000 + r.val; rw [hj0]) (by rw [hj2])
  split
  · exact Finset.sum_congr rfl fun r _ => hrow r
  · exact Finset.sum_congr rfl fun r _ => by rw [hrow r]

end Point

/-- An index of the dense result is in point `t`'s block iff its coordinates are in the block's ranges. -/
theorem mem_rows (t : Fin cfg0.N) (i : S100000x128.Idx) :
    i ∈ ((cfg0.win 4).blk t).view.set ↔ ∀ a : Fin 2, win0_4.index t a * S5000x128.size a ≤ (i a).val
      ∧ (i a).val < win0_4.index t a * S5000x128.size a + S5000x128.size a := by
  show i ∈ ((View.whole main_v49_0).slice (win0_4.rect t)).set ↔ _
  rw [View.set_slice_whole, Rect.mem_set_unit]
  exact Iff.rfl

theorem mem_stats (t : Fin cfg0.N) (i : S20x2x128.Idx) :
    i ∈ ((cfg0.win 5).blk t).view.set ↔ ∀ a : Fin 3, win0_5.index t a * S1x2x128.size a ≤ (i a).val
      ∧ (i a).val < win0_5.index t a * S1x2x128.size a + S1x2x128.size a := by
  show i ∈ ((View.whole main_v49_1).slice (win0_5.rect t)).set ↔ _
  rw [View.set_slice_whole, Rect.mem_set_unit]
  exact Iff.rfl

theorem cover_rows (i : S100000x128.Idx) : ∃ t : Fin cfg0.N, (cfg0.win 4).flush t = true ∧ i ∈ ((cfg0.win 4).blk t).view.set := by
  have hi0 : (i 0).val < 100000 := (i 0).isLt
  have hi1 : (i 1).val < 128 := (i 1).isLt
  have hN : cfg0.N = 20 := N_0
  refine ⟨⟨(i 0).val / 5000, by rw [hN]; omega⟩, flush0_4 _, ?_⟩
  rw [mem_rows]
  obtain ⟨-, -, -, -, -, -, -, -, e40, e41, -⟩ := idx_facts ⟨(i 0).val / 5000, by rw [hN]; omega⟩
  intro a
  match a with
  | ⟨0, _⟩ => show win0_4.index _ (0 : Fin 2) * 5000 ≤ (i 0).val ∧ (i 0).val < win0_4.index _ (0 : Fin 2) * 5000 + 5000; rw [e40]; show (i 0).val / 5000 * 5000 ≤ _ ∧ _ < (i 0).val / 5000 * 5000 + 5000; omega
  | ⟨1, _⟩ => show win0_4.index _ (1 : Fin 2) * 128 ≤ (i 1).val ∧ (i 1).val < win0_4.index _ (1 : Fin 2) * 128 + 128; rw [e41]; omega

theorem cover_stats (i : S20x2x128.Idx) : ∃ t : Fin cfg0.N, (cfg0.win 5).flush t = true ∧ i ∈ ((cfg0.win 5).blk t).view.set := by
  have hi0 : (i 0).val < 20 := (i 0).isLt
  have hi1 : (i 1).val < 2 := (i 1).isLt
  have hi2 : (i 2).val < 128 := (i 2).isLt
  have hN : cfg0.N = 20 := N_0
  refine ⟨⟨(i 0).val, by rw [hN]; omega⟩, flush0_5 _, ?_⟩
  rw [mem_stats]
  obtain ⟨-, -, -, -, -, -, -, -, -, -, e50, e51, e52⟩ := idx_facts ⟨(i 0).val, by rw [hN]; omega⟩
  intro a
  match a with
  | ⟨0, _⟩ => show win0_5.index _ (0 : Fin 3) * 1 ≤ (i 0).val ∧ (i 0).val < win0_5.index _ (0 : Fin 3) * 1 + 1; rw [e50]; show (i 0).val * 1 ≤ _ ∧ _ < (i 0).val * 1 + 1; omega
  | ⟨1, _⟩ => show win0_5.index _ (1 : Fin 3) * 2 ≤ (i 1).val ∧ (i 1).val < win0_5.index _ (1 : Fin 3) * 2 + 2; rw [e51]; omega
  | ⟨2, _⟩ => show win0_5.index _ (2 : Fin 3) * 128 ≤ (i 2).val ∧ (i 2).val < win0_5.index _ (2 : Fin 3) * 128 + 128; rw [e52]; omega

/-- After the launch the dense result's array holds the dense layer of the arrays the launch found. -/
theorem final_rows (c : Dev nD) (b1 : (Vec1 CC).Idx → EReal)
    (hb : ∀ q : Fin 128, V c main_v48 (ix2 (0 : Fin 1) q) = b1 (ix1 q)) :
    (dat0 V c).arrAt 4 cfg0.N = rowsG V c b1 :=
  (dat0 V c).arrAt_eq_of_cover 4 (rowsG V c b1) (fun t _ => flushed_rows V c t b1 hb) cover_rows

/-- And the statistics array holds the per-block statistics of that result. -/
theorem final_stats (c : Dev nD) (b1 : (Vec1 CC).Idx → EReal)
    (hb : ∀ q : Fin 128, V c main_v48 (ix2 (0 : Fin 1) q) = b1 (ix1 q)) :
    (dat0 V c).arrAt 5 cfg0.N = statsG (rowsG V c b1) :=
  (dat0 V c).arrAt_eq_of_cover 5 (statsG (rowsG V c b1)) (fun t _ => flushed_stats V c t b1 hb) cover_stats

end Cert.KernelIdeal.KReg0

end
-- ==== Proof.KReg1.lean ====
/-
  The second launch, block by block, as whole arrays.

  Point `t` of its 20-point grid reads rows `5000·t … 5000·t + 4999` of the first layer's result, the scale row, the
  shift row, the whole second weight and the second bias row; it normalises its rows column by column (`z·s + t`,
  clamped below at zero), multiplies by the weight, adds the bias, and writes those rows of the second layer's result
  and block `t` of its column statistics. As for the first launch, the row blocks are restrictions of one product over
  all rows, and the blocks cover both output arrays.
-/
import proofs.«165747_j60928406061384_2_alg».proof.Proof.KReg0

set_option maxRecDepth 16384

noncomputable section

open scoped BigOperators

namespace Cert.KernelIdeal.KReg1

open Cert.KernelIdeal Cert.KernelIdeal.Gen Idealize.ShloMosaic Idealize.ShloMosaic.TcCoe Idealize.ShloMosaic.ValueIdx Cert.Linear Cert.Spec
open Cert.KernelIdeal.KPay Cert.KernelIdeal.KHost
open Idealize.ShloMosaic.Pipeline (Dat)

variable (V : (c : Dev nD) → (b : Ref sig .tc) → Buf (Elt Ideal) ((c : Thread nD τ).loc b))

/-- The printed index maps over the grid: the row windows move one block per point, the rest stay. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 3) = t.val ∧ win1_6.index t (1 : Fin 3) = 0 ∧ win1_6.index t (2 : Fin 3) = 0 :=
  (by decide +kernel : ∀ t : Fin grid1.N, _)

/-- All rows normalised with scale `s` and shift `u` per column. -/
def normG (Z : (Mat NN CC).Idx → EReal) (s u : Fin CC → EReal) : (Mat NN CC).Idx → EReal :=
  fun i => max (Z i * s (i 1) + u (i 1)) zeroW

/-- The second layer's result over all rows, from the arrays the launch finds. -/
def rowsG (c : Dev nD) (s u : Fin CC → EReal) (b2 : (Vec1 CC).Idx → EReal) : (Mat NN CC).Idx → EReal :=
  dense (normG (V c main_v49_0) s u) (V c main_arg8) b2

section Point
variable (c : Dev nD) (t : Fin cfg1.N) (s u : Fin CC → EReal) (b2 : (Vec1 CC).Idx → EReal)
  (hs : ∀ q : Fin 128, V c main_v70 (ix2 (0 : Fin 1) q) = s q)
  (hu : ∀ q : Fin 128, V c main_v71 (ix2 (0 : Fin 1) q) = u q)
  (hb : ∀ q : Fin 128, V c main_v69 (ix2 (0 : Fin 1) q) = b2 (ix1 q))
include hs hu hb

/-- Row `p` of point `t`'s block of the result is row `5000·t + p` of the whole result. -/
theorem block_rows (p : Fin 5000) (q : Fin 128) (i : (Mat NN CC).Idx)
    (hi0 : (i 0).val = t.val * 5000 + p.val) (hi1 : (i 1).val = q.val) :
    blockDense (blockNorm (iblk1 V c 0 t) (iblk1 V c 1 t) (iblk1 V c 2 t)) (iblk1 V c 3 t) (iblk1 V c 4 t) (ix2 p q)
      = rowsG V c s u b2 i := by
  obtain ⟨e00, e01, e10, e11, e20, e21, e30, e31, e40, e41, -⟩ := idx_facts t
  unfold blockDense rowsG dense
  have hq : i 1 = q := Fin.ext hi1
  refine congrArg₂ (· + ·) ?_ ?_
  · refine matProd_of_rows _ _ _ _ (ix2 p q) i (fun k => ?_) (fun k => ?_)
    · unfold blockNorm normG
      have h0 : ((cfg1.win 0).blk t).view.emb (ix2 p k) = ix2 (i 0) k := by
        funext a; apply Fin.ext
        match a with
        | ⟨0, _⟩ => show win1_0.index t (0 : Fin 2) * 5000 + 1 * p.val = (i 0).val; omega
        | ⟨1, _⟩ => show win1_0.index t (1 : Fin 2) * 128 + 1 * k.val = k.val; omega
      have h1 : ((cfg1.win 1).blk t).view.emb (ix2 (0 : Fin 1) k) = ix2 (0 : Fin 1) k := by
        funext a; apply Fin.ext
        match a with
        | ⟨0, _⟩ => show win1_1.index t (0 : Fin 2) * 1 + 1 * 0 = 0; omega
        | ⟨1, _⟩ => show win1_1.index t (1 : Fin 2) * 128 + 1 * k.val = k.val; omega
      have h2 : ((cfg1.win 2).blk t).view.emb (ix2 (0 : Fin 1) k) = ix2 (0 : Fin 1) k := by
        funext a; apply Fin.ext
        match a with
        | ⟨0, _⟩ => show win1_2.index t (0 : Fin 2) * 1 + 1 * 0 = 0; omega
        | ⟨1, _⟩ => show win1_2.index t (1 : Fin 2) * 128 + 1 * k.val = k.val; omega
      refine congrArg (fun x : EReal => max x zeroW) (congrArg₂ (fun a b : EReal => a + b)
        (congrArg₂ (fun a b : EReal => a * b) ?_ ?_) ?_)
      · show V c main_v49_0 (((cfg1.win 0).blk t).view.emb (ix2 p k)) = V c main_v49_0 (ix2 (i 0) k)
        rw [h0]
        try rfl
      · show V c main_v70 (((cfg1.win 1).blk t).view.emb (ix2 (0 : Fin 1) k)) = s k
        rw [h1]; exact hs k
      · show V c main_v71 (((cfg1.win 2).blk t).view.emb (ix2 (0 : Fin 1) k)) = u k
        rw [h2]; exact hu k
    · have h3 : ((cfg1.win 3).blk t).view.emb (ix2 k q) = ix2 k (i 1) := by
        funext a; apply Fin.ext
        match a with
        | ⟨0, _⟩ => show win1_3.index t (0 : Fin 2) * 128 + 1 * k.val = k.val; omega
        | ⟨1, _⟩ => show win1_3.index t (1 : Fin 2) * 128 + 1 * q.val = (i 1).val; omega
      show V c main_arg8 (((cfg1.win 3).blk t).view.emb (ix2 k q)) = _
      rw [h3]
      try rfl
  · have h4 : ((cfg1.win 4).blk t).view.emb (ix2 (0 : Fin 1) q) = ix2 (0 : Fin 1) q := by
      funext a; apply Fin.ext
      match a with
      | ⟨0, _⟩ => show win1_4.index t (0 : Fin 2) * 1 + 1 * 0 = 0; omega
      | ⟨1, _⟩ => show win1_4.index t (1 : Fin 2) * 128 + 1 * q.val = q.val; omega
    show V c main_v69 (((cfg1.win 4).blk t).view.emb (ix2 (0 : Fin 1) q)) = b2 (ix1 (i 1))
    rw [h4, hb q, hq]

/-- What point `t` writes back to the result: block `t` of the whole result. -/
theorem flushed_rows :
    (dat1 V c).flushed 5 t = ((cfg1.win 5).blk t).view.read (Elt Ideal) (rowsG V c s u b2) := by
  show (cfg1.win 5).cut (grid1.coords t) ((dat1 V c).after 5 t) = _
  rw [after1_5, out1_5_eq, pay1_normdense]
  obtain ⟨-, -, -, -, -, -, -, -, -, -, e50, e51, -⟩ := idx_facts t
  funext j
  obtain ⟨p, q, rfl⟩ : ∃ (p : Fin 5000) (q : Fin 128), j = ix2 p q := ⟨j 0, j 1, eq_ix2 j⟩
  refine block_rows V c t s u b2 hs hu hb p q _ ?_ ?_
  · show win1_5.index t (0 : Fin 2) * 5000 + 1 * p.val = _; omega
  · show win1_5.index t (1 : Fin 2) * 128 + 1 * q.val = _; omega

/-- What point `t` writes back to the statistics: block `t` of the whole result's statistics. -/
theorem flushed_stats :
    (dat1 V c).flushed 6 t = ((cfg1.win 6).blk t).view.read (Elt Ideal) (KReg0.statsG (rowsG V c s u b2)) := by
  show (cfg1.win 6).cut (grid1.coords t) ((dat1 V c).after 6 t) = _
  rw [after1_6, out1_6_eq, pay2_second]
  obtain ⟨-, -, -, -, -, -, -, -, -, -, -, -, e60, e61, e62⟩ := idx_facts t
  funext j
  obtain ⟨v, r, q, rfl⟩ : ∃ (v : Fin 1) (r : Fin 2) (q : Fin 128), j = ix3 v r q := ⟨j 0, j 1, j 2, eq_ix3 j⟩
  have hv : v.val = 0 := by omega
  have hj0 : ((((cfg1.win 6).blk t).view.emb (ix3 v r q)) 0).val = t.val := by
    show win1_6.index t (0 : Fin 3) * 1 + 1 * v.val = _; omega
  have hj1 : ((((cfg1.win 6).blk t).view.emb (ix3 v r q)) 1).val = r.val := by
    show win1_6.index t (1 : Fin 3) * 2 + 1 * r.val = _; omega
  have hj2 : (((cfg1.win 6).blk t).view.emb (ix3 v r q)) 2 = q := Fin.ext (by
    show win1_6.index t (2 : Fin 3) * 128 + 1 * q.val = _; omega)
  show blockStats _ (ix3 v r q) = KReg0.statsG (rowsG V c s u b2) (((cfg1.win 6).blk t).view.emb (ix3 v r q))
  unfold blockStats KReg0.statsG
  show (if r.val = 0 then _ else _) = (if ((((cfg1.win 6).blk t).view.emb (ix3 v r q)) 1).val = 0 then _ else _)
  rw [hj1]
  have hrow : ∀ w : Fin 5000, blockDense (blockNorm (iblk1 V c 0 t) (iblk1 V c 1 t) (iblk1 V c 2 t)) (iblk1 V c 3 t) (iblk1 V c 4 t) (ix2 w q)
      = rowsG V c s u b2 (ix2 (rowOf ((((cfg1.win 6).blk t).view.emb (ix3 v r q)) 0) w) ((((cfg1.win 6).blk t).view.emb (ix3 v r q)) 2)) := fun w =>
    block_rows V c t s u b2 hs hu hb w q _ (by show ((((cfg1.win 6).blk t).view.emb (ix3 v r q)) 0).val * 5000 + w.val = t.val * 5000 + w.val; rw [hj0]) (by rw [hj2])
  split
  · exact Finset.sum_congr rfl fun w _ => hrow w
  · exact Finset.sum_congr rfl fun w _ => by rw [hrow w]

end Point

theorem mem_rows (t : Fin cfg1.N) (i : S100000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v72_0).slice (win1_5.rect t)).set ↔ _
  rw [View.set_slice_whole, Rect.mem_set_unit]
  exact Iff.rfl

theorem mem_stats (t : Fin cfg1.N) (i : S20x2x128.Idx) :
    i ∈ ((cfg1.win 6).blk t).view.set ↔ ∀ a : Fin 3, win1_6.index t a * S1x2x128.size a ≤ (i a).val
      ∧ (i a).val < win1_6.index t a * S1x2x128.size a + S1x2x128.size a := by
  show i ∈ ((View.whole main_v72_1).slice (win1_6.rect t)).set ↔ _
  rw [View.set_slice_whole, Rect.mem_set_unit]
  exact Iff.rfl

theorem cover_rows (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 20 := N_1
  refine ⟨⟨(i 0).val / 5000, by rw [hN]; omega⟩, flush1_5 _, ?_⟩
  rw [mem_rows]
  obtain ⟨-, -, -, -, -, -, -, -, -, -, e50, e51, -⟩ := idx_facts ⟨(i 0).val / 5000, by rw [hN]; omega⟩
  intro a
  match a with
  | ⟨0, _⟩ => show win1_5.index _ (0 : Fin 2) * 5000 ≤ (i 0).val ∧ (i 0).val < win1_5.index _ (0 : Fin 2) * 5000 + 5000; rw [e50]; show (i 0).val / 5000 * 5000 ≤ _ ∧ _ < (i 0).val / 5000 * 5000 + 5000; omega
  | ⟨1, _⟩ => show win1_5.index _ (1 : Fin 2) * 128 ≤ (i 1).val ∧ (i 1).val < win1_5.index _ (1 : Fin 2) * 128 + 128; rw [e51]; omega

theorem cover_stats (i : S20x2x128.Idx) : ∃ t : Fin cfg1.N, (cfg1.win 6).flush t = true ∧ i ∈ ((cfg1.win 6).blk t).view.set := by
  have hi0 : (i 0).val < 20 := (i 0).isLt
  have hi1 : (i 1).val < 2 := (i 1).isLt
  have hi2 : (i 2).val < 128 := (i 2).isLt
  have hN : cfg1.N = 20 := N_1
  refine ⟨⟨(i 0).val, by rw [hN]; omega⟩, flush1_6 _, ?_⟩
  rw [mem_stats]
  obtain ⟨-, -, -, -, -, -, -, -, -, -, -, -, e60, e61, e62⟩ := idx_facts ⟨(i 0).val, by rw [hN]; omega⟩
  intro a
  match a with
  | ⟨0, _⟩ => show win1_6.index _ (0 : Fin 3) * 1 ≤ (i 0).val ∧ (i 0).val < win1_6.index _ (0 : Fin 3) * 1 + 1; rw [e60]; show (i 0).val * 1 ≤ _ ∧ _ < (i 0).val * 1 + 1; omega
  | ⟨1, _⟩ => show win1_6.index _ (1 : Fin 3) * 2 ≤ (i 1).val ∧ (i 1).val < win1_6.index _ (1 : Fin 3) * 2 + 2; rw [e61]; omega
  | ⟨2, _⟩ => show win1_6.index _ (2 : Fin 3) * 128 ≤ (i 2).val ∧ (i 2).val < win1_6.index _ (2 : Fin 3) * 128 + 128; rw [e62]; omega

/-- After the launch the result's array holds the second dense layer of the normalised first result. -/
theorem final_rows (c : Dev nD) (s u : Fin CC → EReal) (b2 : (Vec1 CC).Idx → EReal)
    (hs : ∀ q : Fin 128, V c main_v70 (ix2 (0 : Fin 1) q) = s q)
    (hu : ∀ q : Fin 128, V c main_v71 (ix2 (0 : Fin 1) q) = u q)
    (hb : ∀ q : Fin 128, V c main_v69 (ix2 (0 : Fin 1) q) = b2 (ix1 q)) :
    (dat1 V c).arrAt 5 cfg1.N = rowsG V c s u b2 :=
  (dat1 V c).arrAt_eq_of_cover 5 (rowsG V c s u b2) (fun t _ => flushed_rows V c t s u b2 hs hu hb) cover_rows

/-- And the statistics array holds the per-block statistics of that result. -/
theorem final_stats (c : Dev nD) (s u : Fin CC → EReal) (b2 : (Vec1 CC).Idx → EReal)
    (hs : ∀ q : Fin 128, V c main_v70 (ix2 (0 : Fin 1) q) = s q)
    (hu : ∀ q : Fin 128, V c main_v71 (ix2 (0 : Fin 1) q) = u q)
    (hb : ∀ q : Fin 128, V c main_v69 (ix2 (0 : Fin 1) q) = b2 (ix1 q)) :
    (dat1 V c).arrAt 6 cfg1.N = KReg0.statsG (rowsG V c s u b2) :=
  (dat1 V c).arrAt_eq_of_cover 6 (KReg0.statsG (rowsG V c s u b2)) (fun t _ => flushed_stats V c t s u b2 hs hu hb) cover_stats

end Cert.KernelIdeal.KReg1

end
-- ==== Proof.KReg2.lean ====
/-
  The third launch, block by block, as a whole array.

  Point `t` of its 20-point grid reads rows `5000·t … 5000·t + 4999` of the second layer's result, the scale row and
  the shift row, and writes the same rows normalised column by column and clamped below at zero. The operation is
  entry by entry, so each block is the restriction of the whole normalised array, and the 20 blocks cover it.
-/
import proofs.«165747_j60928406061384_2_alg».proof.Proof.KReg1

set_option maxRecDepth 16384

noncomputable section

open scoped BigOperators

namespace Cert.KernelIdeal.KReg2

open Cert.KernelIdeal Cert.KernelIdeal.Gen Idealize.ShloMosaic Idealize.ShloMosaic.TcCoe Idealize.ShloMosaic.ValueIdx Cert.Linear Cert.Spec
open Cert.KernelIdeal.KPay Cert.KernelIdeal.KHost
open Idealize.ShloMosaic.Pipeline (Dat)

variable (V : (c : Dev nD) → (b : Ref sig .tc) → Buf (Elt Ideal) ((c : Thread nD τ).loc b))

/-- The printed index maps over the grid: the row windows move one block per point, the two rows stay. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

section Point
variable (c : Dev nD) (t : Fin cfg2.N) (s u : Fin CC → EReal)
  (hs : ∀ q : Fin 128, V c main_v92 (ix2 (0 : Fin 1) q) = s q)
  (hu : ∀ q : Fin 128, V c main_v93 (ix2 (0 : Fin 1) q) = u q)
include hs hu

/-- What point `t` writes back: block `t` of the whole normalised array. -/
theorem flushed_rows :
    (dat2 V c).flushed 3 t = ((cfg2.win 3).blk t).view.read (Elt Ideal) (KReg1.normG (V c main_v72_0) s u) := by
  show (cfg2.win 3).cut (grid2.coords t) ((dat2 V c).after 3 t) = _
  rw [after2_3, out2_3_eq, norm_rows]
  obtain ⟨e00, e01, e10, e11, e20, e21, e30, e31⟩ := idx_facts t
  funext j
  obtain ⟨p, q, rfl⟩ : ∃ (p : Fin 5000) (q : Fin 128), j = ix2 p q := ⟨j 0, j 1, eq_ix2 j⟩
  have h0 : ((cfg2.win 0).blk t).view.emb (ix2 p q) = ((cfg2.win 3).blk t).view.emb (ix2 p q) := by
    funext a; apply Fin.ext
    match a with
    | ⟨0, _⟩ => show win2_0.index t (0 : Fin 2) * 5000 + 1 * p.val = win2_3.index t (0 : Fin 2) * 5000 + 1 * p.val; omega
    | ⟨1, _⟩ => show win2_0.index t (1 : Fin 2) * 128 + 1 * q.val = win2_3.index t (1 : Fin 2) * 128 + 1 * q.val; omega
  have h1 : ((cfg2.win 1).blk t).view.emb (ix2 (0 : Fin 1) q) = ix2 (0 : Fin 1) q := by
    funext a; apply Fin.ext
    match a with
    | ⟨0, _⟩ => show win2_1.index t (0 : Fin 2) * 1 + 1 * 0 = 0; omega
    | ⟨1, _⟩ => show win2_1.index t (1 : Fin 2) * 128 + 1 * q.val = q.val; omega
  have h2 : ((cfg2.win 2).blk t).view.emb (ix2 (0 : Fin 1) q) = ix2 (0 : Fin 1) q := by
    funext a; apply Fin.ext
    match a with
    | ⟨0, _⟩ => show win2_2.index t (0 : Fin 2) * 1 + 1 * 0 = 0; omega
    | ⟨1, _⟩ => show win2_2.index t (1 : Fin 2) * 128 + 1 * q.val = q.val; omega
  have h3 : (((cfg2.win 3).blk t).view.emb (ix2 p q)) 1 = q := Fin.ext (by
    show win2_3.index t (1 : Fin 2) * 128 + 1 * q.val = q.val; omega)
  show blockNorm (iblk2 V c 0 t) (iblk2 V c 1 t) (iblk2 V c 2 t) (ix2 p q)
      = KReg1.normG (V c main_v72_0) s u (((cfg2.win 3).blk t).view.emb (ix2 p q))
  unfold blockNorm KReg1.normG
  refine congrArg (fun x : EReal => max x zeroW) (congrArg₂ (fun a b : EReal => a + b)
    (congrArg₂ (fun a b : EReal => a * b) ?_ ?_) ?_)
  · show V c main_v72_0 (((cfg2.win 0).blk t).view.emb (ix2 p q)) = V c main_v72_0 (((cfg2.win 3).blk t).view.emb (ix2 p q))
    rw [h0]
    try rfl
  · show V c main_v92 (((cfg2.win 1).blk t).view.emb (ix2 (0 : Fin 1) q)) = s ((((cfg2.win 3).blk t).view.emb (ix2 p q)) 1)
    rw [h1, h3]; exact hs q
  · show V c main_v93 (((cfg2.win 2).blk t).view.emb (ix2 (0 : Fin 1) q)) = u ((((cfg2.win 3).blk t).view.emb (ix2 p q)) 1)
    rw [h2, h3]; exact hu q

end Point

theorem mem_rows (t : Fin cfg2.N) (i : S100000x128.Idx) :
    i ∈ ((cfg2.win 3).blk t).view.set ↔ ∀ a : Fin 2, win2_3.index t a * S5000x128.size a ≤ (i a).val
      ∧ (i a).val < win2_3.index t a * S5000x128.size a + S5000x128.size a := by
  show i ∈ ((View.whole main_v94).slice (win2_3.rect t)).set ↔ _
  rw [View.set_slice_whole, Rect.mem_set_unit]
  exact Iff.rfl

theorem cover_rows (i : S100000x128.Idx) : ∃ t : Fin cfg2.N, (cfg2.win 3).flush t = true ∧ i ∈ ((cfg2.win 3).blk t).view.set := by
  have hi0 : (i 0).val < 100000 := (i 0).isLt
  have hi1 : (i 1).val < 128 := (i 1).isLt
  have hN : cfg2.N = 20 := N_2
  refine ⟨⟨(i 0).val / 5000, by rw [hN]; omega⟩, flush2_3 _, ?_⟩
  rw [mem_rows]
  obtain ⟨-, -, -, -, -, -, e30, e31⟩ := idx_facts ⟨(i 0).val / 5000, by rw [hN]; omega⟩
  intro a
  match a with
  | ⟨0, _⟩ => show win2_3.index _ (0 : Fin 2) * 5000 ≤ (i 0).val ∧ (i 0).val < win2_3.index _ (0 : Fin 2) * 5000 + 5000; rw [e30]; show (i 0).val / 5000 * 5000 ≤ _ ∧ _ < (i 0).val / 5000 * 5000 + 5000; omega
  | ⟨1, _⟩ => show win2_3.index _ (1 : Fin 2) * 128 ≤ (i 1).val ∧ (i 1).val < win2_3.index _ (1 : Fin 2) * 128 + 128; rw [e31]; omega

/-- After the launch the result array holds the normalised second result. -/
theorem final_rows (c : Dev nD) (s u : Fin CC → EReal)
    (hs : ∀ q : Fin 128, V c main_v92 (ix2 (0 : Fin 1) q) = s q)
    (hu : ∀ q : Fin 128, V c main_v93 (ix2 (0 : Fin 1) q) = u q) :
    (dat2 V c).arrAt 3 cfg2.N = KReg1.normG (V c main_v72_0) s u :=
  (dat2 V c).arrAt_eq_of_cover 3 (KReg1.normG (V c main_v72_0) s u) (fun t _ => flushed_rows V c t s u hs hu) cover_rows

end Cert.KernelIdeal.KReg2

end
-- ==== Proof.KValue.lean ====
/-
  The idealized kernel's result array, as one function of the argument arrays.

  Following the buffer contents through @main: the host lines before the first launch leave the aggregated messages
  (the reference's own composed term of the sparse arguments) and the first bias row; the first launch leaves the first
  dense layer `Z₁` over all rows and its per-block column statistics; the host lines after it turn the statistics into
  the scale and shift rows of `Z₁`'s columns; the second launch leaves the second dense layer `Z₂` of the normalised
  `Z₁` and its statistics; the next host lines give `Z₂`'s scale and shift rows; the third launch leaves the normalised
  `Z₂` in the result array. That is the specification's `outK`.
-/
import proofs.«165747_j60928406061384_2_alg».proof.Proof.KPre
import proofs.«165747_j60928406061384_2_alg».proof.Proof.KReg2

set_option maxRecDepth 16384

noncomputable section

open scoped BigOperators

namespace Cert.KernelIdeal.KValue

open Cert.KernelIdeal Cert.KernelIdeal.Gen Idealize.ShloMosaic Idealize.ShloMosaic.TcCoe Idealize.ShloMosaic.ValueIdx Cert.Linear Cert.Spec
open Cert.KernelIdeal.KPay Cert.KernelIdeal.KHost
open Idealize.ShloMosaic.Pipeline (Dat)

section Kept
variable (V : Valuation τ sig (Elt Ideal))
theorem host1_keep10 : StableHlo.after hostOps1 V (Proc.devRef .tc main_arg10) = V (Proc.devRef .tc main_arg10) := by
  after_results_simp
theorem host1_keep11 : StableHlo.after hostOps1 V (Proc.devRef .tc main_arg11) = V (Proc.devRef .tc main_arg11) := by
  after_results_simp
end Kept

variable (m : (ℓ : Loc nD τ sig) → Buf (Elt Ideal) ℓ) (ρ : Dev nD → PrngReg) (c : Dev nD)

/-- The aggregated messages, from the launch contents of the four sparse arguments. -/
def aggA : (Mat NN CC).Idx → EReal :=
  Cert.ReferenceIdeal.RefStages.aggT (F := Ideal) (m ((c.tc : Thread nD τ).loc main_arg0)) (m ((c.tc : Thread nD τ).loc main_arg1)) (m ((c.tc : Thread nD τ).loc main_arg2)) (m ((c.tc : Thread nD τ).loc main_arg3))

/-- The first dense layer over all rows, and the second. -/
def Z1 : (Mat NN CC).Idx → EReal := dense (combine (m ((c.tc : Thread nD τ).loc main_arg0)) (aggA m c)) (m ((c.tc : Thread nD τ).loc main_arg4)) (m ((c.tc : Thread nD τ).loc main_arg5))
def Z2 : (Mat NN CC).Idx → EReal := dense (normK (Z1 m c) (m ((c.tc : Thread nD τ).loc main_arg6)) (m ((c.tc : Thread nD τ).loc main_arg7))) (m ((c.tc : Thread nD τ).loc main_arg8)) (m ((c.tc : Thread nD τ).loc main_arg9))

/-! ## At the first launch -/

theorem v5_arg0 : V5 m ρ c main_arg0 = (m ((c.tc : Thread nD τ).loc main_arg0)) := (KPre.keep_arg0 (W0 m ρ c)).trans rfl
theorem v5_arg4 : V5 m ρ c main_arg4 = (m ((c.tc : Thread nD τ).loc main_arg4)) := (KPre.keep_arg4 (W0 m ρ c)).trans rfl
theorem v5_agg : V5 m ρ c main_v47 = aggA m c := (KPre.agg_eq (W0 m ρ c)).trans rfl
theorem v5_bias (q : Fin 128) : V5 m ρ c main_v48 (ix2 (0 : Fin 1) q) = (m ((c.tc : Thread nD τ).loc main_arg5)) (ix1 q) := by
  rw [show V5 m ρ c main_v48 = shapeCast S1x128 (m ((c.tc : Thread nD τ).loc main_arg5)) shapeCasts_S128_S1x128 from (KPre.bias_eq (W0 m ρ c)).trans rfl]
  exact shapeCast_a_1a_apply _ shapeCasts_S128_S1x128 0 q

theorem r0_rows : (dat0 (V5 m ρ) c).arrAt 4 cfg0.N = Z1 m c := by
  rw [KReg0.final_rows (V5 m ρ) c (m ((c.tc : Thread nD τ).loc main_arg5)) (v5_bias m ρ c)]
  unfold KReg0.rowsG Z1
  rw [v5_arg0, v5_agg, v5_arg4]

theorem r0_stats : (dat0 (V5 m ρ) c).arrAt 5 cfg0.N = KReg0.statsG (Z1 m c) := by
  rw [KReg0.final_stats (V5 m ρ) c (m ((c.tc : Thread nD τ).loc main_arg5)) (v5_bias m ρ c)]
  unfold KReg0.rowsG Z1
  rw [v5_arg0, v5_agg, v5_arg4]

theorem w6_rows : W6 m ρ c (Proc.devRef .tc main_v49_0) = Z1 m c := (W6_arr m ρ c 4).trans (r0_rows m ρ c)
theorem w6_stats : W6 m ρ c (Proc.devRef .tc main_v49_1) = KReg0.statsG (Z1 m c) := (W6_arr m ρ c 5).trans (r0_stats m ρ c)
theorem w6_arg6 : W6 m ρ c (Proc.devRef .tc main_arg6) = (m ((c.tc : Thread nD τ).loc main_arg6)) :=
  (W6_of_ne m ρ c main_arg6 (by decide)).trans ((KPre.keep_arg6 (W0 m ρ c)).trans rfl)
theorem w6_arg7 : W6 m ρ c (Proc.devRef .tc main_arg7) = (m ((c.tc : Thread nD τ).loc main_arg7)) :=
  (W6_of_ne m ρ c main_arg7 (by decide)).trans ((KPre.keep_arg7 (W0 m ρ c)).trans rfl)
theorem w6_arg8 : W6 m ρ c (Proc.devRef .tc main_arg8) = (m ((c.tc : Thread nD τ).loc main_arg8)) :=
  (W6_of_ne m ρ c main_arg8 (by decide)).trans ((KPre.keep_arg8 (W0 m ρ c)).trans rfl)
theorem w6_arg9 : W6 m ρ c (Proc.devRef .tc main_arg9) = (m ((c.tc : Thread nD τ).loc main_arg9)) :=
  (W6_of_ne m ρ c main_arg9 (by decide)).trans ((KPre.keep_arg9 (W0 m ρ c)).trans rfl)
theorem w6_arg10 : W6 m ρ c (Proc.devRef .tc main_arg10) = (m ((c.tc : Thread nD τ).loc main_arg10)) :=
  (W6_of_ne m ρ c main_arg10 (by decide)).trans ((KPre.keep_arg10 (W0 m ρ c)).trans rfl)
theorem w6_arg11 : W6 m ρ c (Proc.devRef .tc main_arg11) = (m ((c.tc : Thread nD τ).loc main_arg11)) :=
  (W6_of_ne m ρ c main_arg11 (by decide)).trans ((KPre.keep_arg11 (W0 m ρ c)).trans rfl)

/-! ## At the second launch -/

theorem v7_rows : V7 m ρ c main_v49_0 = Z1 m c := (host1_rows (W6 m ρ c)).trans (w6_rows m ρ c)
theorem v7_weight : V7 m ρ c main_arg8 = (m ((c.tc : Thread nD τ).loc main_arg8)) := (host1_weight (W6 m ρ c)).trans (w6_arg8 m ρ c)
theorem v7_scale (q : Fin 128) : V7 m ρ c main_v70 (ix2 (0 : Fin 1) q) = scaleK (Z1 m c) (m ((c.tc : Thread nD τ).loc main_arg6)) q := by
  rw [show V7 m ρ c main_v70 = rowT (F := Ideal) (scaleT (F := Ideal) (W6 m ρ c (Proc.devRef .tc main_v49_1)) (W6 m ρ c (Proc.devRef .tc main_arg6))) from host1_scale (W6 m ρ c)]
  rw [w6_stats, w6_arg6, row_apply]
  exact scale_eq (KReg0.statsOf_statsG (Z1 m c)) _ q
theorem v7_shift (q : Fin 128) : V7 m ρ c main_v71 (ix2 (0 : Fin 1) q) = shiftK (Z1 m c) (m ((c.tc : Thread nD τ).loc main_arg6)) (m ((c.tc : Thread nD τ).loc main_arg7)) q := by
  rw [show V7 m ρ c main_v71 = rowT (F := Ideal) (shiftT (F := Ideal) (W6 m ρ c (Proc.devRef .tc main_v49_1)) (W6 m ρ c (Proc.devRef .tc main_arg6)) (W6 m ρ c (Proc.devRef .tc main_arg7))) from host1_shift (W6 m ρ c)]
  rw [w6_stats, w6_arg6, w6_arg7, row_apply]
  exact shift_eq (KReg0.statsOf_statsG (Z1 m c)) _ _ q
theorem v7_bias (q : Fin 128) : V7 m ρ c main_v69 (ix2 (0 : Fin 1) q) = (m ((c.tc : Thread nD τ).loc main_arg9)) (ix1 q) := by
  rw [show V7 m ρ c main_v69 = rowT (F := Ideal) (W6 m ρ c (Proc.devRef .tc main_arg9)) from host1_bias (W6 m ρ c)]
  rw [w6_arg9, row_apply]

theorem r1_rows : (dat1 (V7 m ρ) c).arrAt 5 cfg1.N = Z2 m c := by
  rw [KReg1.final_rows (V7 m ρ) c _ _ (m ((c.tc : Thread nD τ).loc main_arg9)) (v7_scale m ρ c) (v7_shift m ρ c) (v7_bias m ρ c)]
  unfold KReg1.rowsG Z2
  rw [v7_rows, v7_weight]
  rfl

theorem r1_stats : (dat1 (V7 m ρ) c).arrAt 6 cfg1.N = KReg0.statsG (Z2 m c) := by
  rw [KReg1.final_stats (V7 m ρ) c _ _ (m ((c.tc : Thread nD τ).loc main_arg9)) (v7_scale m ρ c) (v7_shift m ρ c) (v7_bias m ρ c)]
  unfold KReg1.rowsG Z2
  rw [v7_rows, v7_weight]
  rfl

theorem w8_rows : W8 m ρ c (Proc.devRef .tc main_v72_0) = Z2 m c := (W8_arr m ρ c 5).trans (r1_rows m ρ c)
theorem w8_stats : W8 m ρ c (Proc.devRef .tc main_v72_1) = KReg0.statsG (Z2 m c) := (W8_arr m ρ c 6).trans (r1_stats m ρ c)
theorem w8_arg10 : W8 m ρ c (Proc.devRef .tc main_arg10) = (m ((c.tc : Thread nD τ).loc main_arg10)) :=
  (W8_of_ne m ρ c main_arg10 (by decide)).trans ((host1_keep10 (W6 m ρ c)).trans (w6_arg10 m ρ c))
theorem w8_arg11 : W8 m ρ c (Proc.devRef .tc main_arg11) = (m ((c.tc : Thread nD τ).loc main_arg11)) :=
  (W8_of_ne m ρ c main_arg11 (by decide)).trans ((host1_keep11 (W6 m ρ c)).trans (w6_arg11 m ρ c))

/-! ## At the third launch -/

theorem v9_rows : V9 m ρ c main_v72_0 = Z2 m c := (host2_rows (W8 m ρ c)).trans (w8_rows m ρ c)
theorem v9_scale (q : Fin 128) : V9 m ρ c main_v92 (ix2 (0 : Fin 1) q) = scaleK (Z2 m c) (m ((c.tc : Thread nD τ).loc main_arg10)) q := by
  rw [show V9 m ρ c main_v92 = rowT (F := Ideal) (scaleT (F := Ideal) (W8 m ρ c (Proc.devRef .tc main_v72_1)) (W8 m ρ c (Proc.devRef .tc main_arg10))) from host2_scale (W8 m ρ c)]
  rw [w8_stats, w8_arg10, row_apply]
  exact scale_eq (KReg0.statsOf_statsG (Z2 m c)) _ q
theorem v9_shift (q : Fin 128) : V9 m ρ c main_v93 (ix2 (0 : Fin 1) q) = shiftK (Z2 m c) (m ((c.tc : Thread nD τ).loc main_arg10)) (m ((c.tc : Thread nD τ).loc main_arg11)) q := by
  rw [show V9 m ρ c main_v93 = rowT (F := Ideal) (shiftT (F := Ideal) (W8 m ρ c (Proc.devRef .tc main_v72_1)) (W8 m ρ c (Proc.devRef .tc main_arg10)) (W8 m ρ c (Proc.devRef .tc main_arg11))) from host2_shift (W8 m ρ c)]
  rw [w8_stats, w8_arg10, w8_arg11, row_apply]
  exact shift_eq (KReg0.statsOf_statsG (Z2 m c)) _ _ q

/-- THE RESULT: the last boundary's contents at the result buffer are the specification's two layers of the
    argument arrays and the aggregated messages. -/
theorem result_eq : W10 m ρ c (Proc.devRef .tc main_v94)
    = outK (m ((c.tc : Thread nD τ).loc main_arg0)) (aggA m c) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  refine (W10_arr m ρ c 3).trans ?_
  rw [KReg2.final_rows (V9 m ρ) c _ _ (v9_scale m ρ c) (v9_shift m ρ c), v9_rows]
  rfl

end Cert.KernelIdeal.KValue

end
-- ==== Proof.RefRun.lean ====
/-
  The reference program's run: @main as one straight line of operations, and what a run of that line leaves in memory.

  @main is a straight line of host operations, six of which are calls of module-local functions (@clip, @_where,
  @_var twice, @relu twice; @_var itself calls @_where_0). A call executes the callee's body on the operands, so the
  program is the flat list `ops` of its 177 operations: @main's own in program order, and at each call the callee's
  operations over that call's record of buffers, the operands typed as the callee's arguments are. The list is cut
  into thirteen consecutive segments at the boundaries of the computation's stages. `main_eq` says @main is that
  line; `run` is what a run of a straight line gives: every weakly fair execution terminates, and every final state
  has each buffer at the fold of the operations' results over the launch contents.
-/
import proofs.«165747_j60928406061384_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- %cst … %9: the softmax of the five hop coefficients (the maximum, the shifted exponentials, their sum, the quotient). -/
abbrev seg0 : List (HloOp τ sig (Elt F)) :=
  [ StableHlo.nullary main_cst (constant S_ .f32 0xFF800000#32),
    StableHlo.binary main_arg3 main_cst main_v0 ((fun x v => Host.reduce FloatOps.maximumf x v reducesTo_S5_S_d0 h_S_) : (⟨S5, .f32⟩ : BufTy).Contents (Elt F) → (⟨S_, .f32⟩ : BufTy).Contents (Elt F) → (⟨S_, .f32⟩ : BufTy).Contents (Elt F)),
    StableHlo.nullary main_cst_0 (constant S_ .f32 0xFF800000#32),
    StableHlo.binary main_cst_0 main_v0 main_v1 (maximumf : (⟨S_, .f32⟩ : BufTy).Contents (Elt F) → (⟨S_, .f32⟩ : BufTy).Contents (Elt F) → (⟨S_, .f32⟩ : BufTy).Contents (Elt F)),
    StableHlo.unary main_v1 main_v2 (broadcastInDim S1 ![] bcast_S_S1 : (⟨S_, .f32⟩ : BufTy).Contents (Elt F) → (⟨S1, .f32⟩ : BufTy).Contents (Elt F)),
    StableHlo.unary main_v2 main_v3 (broadcastInDim S5 ![0] bcast_S1_S5_0 : (⟨S1, .f32⟩ : BufTy).Contents (Elt F) → (⟨S5, .f32⟩ : BufTy).Contents (Elt F)),
    StableHlo.binary main_arg3 main_v3 main_v4 (subf : (⟨S5, .f32⟩ : BufTy).Contents (Elt F) → (⟨S5, .f32⟩ : BufTy).Contents (Elt F) → (⟨S5, .f32⟩ : BufTy).Contents (Elt F)),
    StableHlo.unary main_v4 main_v5 (Host.exp : (⟨S5, .f32⟩ : BufTy).Contents (Elt F) → (⟨S5, .f32⟩ : BufTy).Contents (Elt F)),
    StableHlo.nullary main_cst_1 (constant S_ .f32 0x00000000#32),
    StableHlo.binary main_v5 main_cst_1 main_v6 ((fun x v => Host.reduceAdd x v reducesTo_S5_S_d0 h_S_) : (⟨S5, .f32⟩ : BufTy).Contents (Elt F) → (⟨S_, .f32⟩ : BufTy).Contents (Elt F) → (⟨S_, .f32⟩ : BufTy).Contents (Elt F)),
    StableHlo.unary main_v6 main_v7 (broadcastInDim S1 ![] bcast_S_S1 : (⟨S_, .f32⟩ : BufTy).Contents (Elt F) → (⟨S1, .f32⟩ : BufTy).Contents (Elt F)),
    StableHlo.unary main_v7 main_v8 (broadcastInDim S5 ![0] bcast_S1_S5_0 : (⟨S1, .f32⟩ : BufTy).Contents (Elt F) → (⟨S5, .f32⟩ : BufTy).Contents (Elt F)),
    StableHlo.binary main_v5 main_v8 main_v9 (Host.divf : (⟨S5, .f32⟩ : BufTy).Contents (Elt F) → (⟨S5, .f32⟩ : BufTy).Contents (Elt F) → (⟨S5, .f32⟩ : BufTy).Contents (Elt F)) ]

/-- %c … %17: the validity mask `1 ≤ hop ≤ 5`, `hop − 1`, and the call of @clip (its six operations over the record `main_call0`), which clamps `hop − 1` to `[0, 4]`. -/
abbrev seg1 : List (HloOp τ sig (Elt F)) :=
  [ StableHlo.nullary main_c (constantI S_ 32 1#32),
    StableHlo.unary main_c main_v10 (broadcastInDim S1600000 ![] bcast_S_S1600000 : (⟨S_, .i32⟩ : BufTy).Contents (Elt F) → (⟨S1600000, .i32⟩ : BufTy).Contents (Elt F)),
    StableHlo.binary main_arg2 main_v10 main_v11 (cmpi .sge : (⟨S1600000, .i32⟩ : BufTy).Contents (Elt F) → (⟨S1600000, .i32⟩ : BufTy).Contents (Elt F) → (⟨S1600000, .i1⟩ : BufTy).Contents (Elt F)),
    StableHlo.nullary main_c_2 (constantI S_ 32 5#32),
    StableHlo.unary main_c_2 main_v12 (broadcastInDim S1600000 ![] bcast_S_S1600000 : (⟨S_, .i32⟩ : BufTy).Contents (Elt F) → (⟨S1600000, .i32⟩ : BufTy).Contents (Elt F)),
    StableHlo.binary main_arg2 main_v12 main_v13 (cmpi .sle : (⟨S1600000, .i32⟩ : BufTy).Contents (Elt F) → (⟨S1600000, .i32⟩ : BufTy).Contents (Elt F) → (⟨S1600000, .i1⟩ : BufTy).Contents (Elt F)),
    StableHlo.binary main_v11 main_v13 main_v14 (andi : (⟨S1600000, .i1⟩ : BufTy).Contents (Elt F) → (⟨S1600000, .i1⟩ : BufTy).Contents (Elt F) → (⟨S1600000, .i1⟩ : BufTy).Contents (Elt F)),
    StableHlo.nullary main_c_3 (constantI S_ 32 1#32),
    StableHlo.unary main_c_3 main_v15 (broadcastInDim S1600000 ![] bcast_S_S1600000 : (⟨S_, .i32⟩ : BufTy).Contents (Elt F) → (⟨S1600000, .i32⟩ : BufTy).Contents (Elt F)),
    StableHlo.binary main_arg2 main_v15 main_v16 (subi : (⟨S1600000, .i32⟩ : BufTy).Contents (Elt F) → (⟨S1600000, .i32⟩ : BufTy).Contents (Elt F) → (⟨S1600000, .i32⟩ : BufTy).Contents (Elt F)),
    StableHlo.nullary main_c_4 (constantI S_ 32 0#32),
    StableHlo.nullary main_c_5 (constantI S_ 32 4#32),
    StableHlo.TRef.unary (.of main_c_4 : StableHlo.TRef sig ⟨S_, .i32⟩) main_call0.v0 id,
    StableHlo.TRef.unary main_call0.v0 main_call0.v1 (broadcastInDim S1600000 ![] bcast_S_S1600000),
    StableHlo.TRef.binary main_call0.v1 (.of main_v16 : StableHlo.TRef sig ⟨S1600000, .i32⟩) main_call0.v2 maxsi,
    StableHlo.TRef.unary (.of main_c_5 : StableHlo.TRef sig ⟨S_, .i32⟩) main_call0.v3 id,
    StableHlo.TRef.unary main_call0.v3 main_call0.v4 (broadcastInDim S1600000 ![] bcast_S_S1600000),
    StableHlo.TRef.binary main_call0.v4 main_call0.v2 main_call0.v5 minsi ]

/-- %c_6 … %25: the clamped index made non-negative, the gather of the edge's coefficient, and the call of @_where (its three operations over `main_call1`), which zeroes the coefficient of an invalid edge. -/
abbrev seg2 : List (HloOp τ sig (Elt F)) :=
  [ StableHlo.nullary main_c_6 (constantI S_ 32 0#32),
    StableHlo.unary main_c_6 main_v18 (broadcastInDim S1600000 ![] bcast_S_S1600000 : (⟨S_, .i32⟩ : BufTy).Contents (Elt F) → (⟨S1600000, .i32⟩ : BufTy).Contents (Elt F)),
    StableHlo.binary main_v17 main_v18 main_v19 (cmpi .slt : (⟨S1600000, .i32⟩ : BufTy).Contents (Elt F) → (⟨S1600000, .i32⟩ : BufTy).Contents (Elt F) → (⟨S1600000, .i1⟩ : BufTy).Contents (Elt F)),
    StableHlo.nullary main_c_7 (constantI S_ 32 5#32),
    StableHlo.unary main_c_7 main_v20 (broadcastInDim S1600000 ![] bcast_S_S1600000 : (⟨S_, .i32⟩ : BufTy).Contents (Elt F) → (⟨S1600000, .i32⟩ : BufTy).Contents (Elt F)),
    StableHlo.binary main_v17 main_v20 main_v21 (addi : (⟨S1600000, .i32⟩ : BufTy).Contents (Elt F) → (⟨S1600000, .i32⟩ : BufTy).Contents (Elt F) → (⟨S1600000, .i32⟩ : BufTy).Contents (Elt F)),
    StableHlo.ternary main_v19 main_v21 main_v17 main_v22 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v22 main_v23 (broadcastInDim S1600000x1 ![0] bcast_S1600000_S1600000x1_0 : (⟨S1600000, .i32⟩ : BufTy).Contents (Elt F) → (⟨S1600000x1, .i32⟩ : BufTy).Contents (Elt F)),
    StableHlo.binary main_v9 main_v23 main_v24 ((fun x i => Host.gather gather_S5_S1600000x1_S1600000_n_0_n_n_0_1_1 x i) : (⟨S5, .f32⟩ : BufTy).Contents (Elt F) → (⟨S1600000x1, .i32⟩ : BufTy).Contents (Elt F) → (⟨S1600000, .f32⟩ : BufTy).Contents (Elt F)),
    StableHlo.nullary main_cst_8 (constant S_ .f32 0x00000000#32),
    StableHlo.TRef.unary (.of main_cst_8 : StableHlo.TRef sig ⟨S_, .f32⟩) main_call1.v0 id,
    StableHlo.TRef.unary main_call1.v0 main_call1.v1 (broadcastInDim S1600000 ![] bcast_S_S1600000),
    StableHlo.TRef.ternary (.of main_v14 : StableHlo.TRef sig ⟨S1600000, .i1⟩) (.of main_v24 : StableHlo.TRef sig ⟨S1600000, .f32⟩) main_call1.v1 main_call1.v2 select ]

/-- %26 … %39: the two rows of the edge table, the source index made non-negative, the gather of the source rows, and each gathered row times its edge's coefficient. -/
abbrev seg3 : List (HloOp τ sig (Elt F)) :=
  [ StableHlo.unary main_arg1 main_v26 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v26 main_v27 rfl shapeCasts_S1x1600000_S1600000,
    StableHlo.unary main_arg1 main_v28 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v28 main_v29 rfl shapeCasts_S1x1600000_S1600000,
    StableHlo.unary main_v25 main_v30 (broadcastInDim S1600000x1 ![0] bcast_S1600000_S1600000x1_0 : (⟨S1600000, .f32⟩ : BufTy).Contents (Elt F) → (⟨S1600000x1, .f32⟩ : BufTy).Contents (Elt F)),
    StableHlo.nullary main_c_9 (constantI S_ 32 0#32),
    StableHlo.unary main_c_9 main_v31 (broadcastInDim S1600000 ![] bcast_S_S1600000 : (⟨S_, .i32⟩ : BufTy).Contents (Elt F) → (⟨S1600000, .i32⟩ : BufTy).Contents (Elt F)),
    StableHlo.binary main_v29 main_v31 main_v32 (cmpi .slt : (⟨S1600000, .i32⟩ : BufTy).Contents (Elt F) → (⟨S1600000, .i32⟩ : BufTy).Contents (Elt F) → (⟨S1600000, .i1⟩ : BufTy).Contents (Elt F)),
    StableHlo.nullary main_c_10 (constantI S_ 32 100000#32),
    StableHlo.unary main_c_10 main_v33 (broadcastInDim S1600000 ![] bcast_S_S1600000 : (⟨S_, .i32⟩ : BufTy).Contents (Elt F) → (⟨S1600000, .i32⟩ : BufTy).Contents (Elt F)),
    StableHlo.binary main_v29 main_v33 main_v34 (addi : (⟨S1600000, .i32⟩ : BufTy).Contents (Elt F) → (⟨S1600000, .i32⟩ : BufTy).Contents (Elt F) → (⟨S1600000, .i32⟩ : BufTy).Contents (Elt F)),
    StableHlo.ternary main_v32 main_v34 main_v29 main_v35 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v35 main_v36 (broadcastInDim S1600000x1 ![0] bcast_S1600000_S1600000x1_0 : (⟨S1600000, .i32⟩ : BufTy).Contents (Elt F) → (⟨S1600000x1, .i32⟩ : BufTy).Contents (Elt F)),
    StableHlo.binary main_arg0 main_v36 main_v37 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.unary main_v30 main_v38 (broadcastInDim S1600000x128 ![0, 1] bcast_S1600000x1_S1600000x128_0_1 : (⟨S1600000x1, .f32⟩ : BufTy).Contents (Elt F) → (⟨S1600000x128, .f32⟩ : BufTy).Contents (Elt F)),
    StableHlo.binary main_v38 main_v37 main_v39 (mulf : (⟨S1600000x128, .f32⟩ : BufTy).Contents (Elt F) → (⟨S1600000x128, .f32⟩ : BufTy).Contents (Elt F) → (⟨S1600000x128, .f32⟩ : BufTy).Contents (Elt F)) ]

/-- %cst_11 … %47: the zero table, the destination index made non-negative, and the scatter-add of the weighted rows into it. -/
abbrev seg4 : List (HloOp τ sig (Elt F)) :=
  [ StableHlo.nullary main_cst_11 (constant S_ .f32 0x00000000#32),
    StableHlo.unary main_cst_11 main_v40 (broadcastInDim S100000x128 ![] bcast_S_S100000x128 : (⟨S_, .f32⟩ : BufTy).Contents (Elt F) → (⟨S100000x128, .f32⟩ : BufTy).Contents (Elt F)),
    StableHlo.nullary main_c_12 (constantI S_ 32 0#32),
    StableHlo.unary main_c_12 main_v41 (broadcastInDim S1600000 ![] bcast_S_S1600000 : (⟨S_, .i32⟩ : BufTy).Contents (Elt F) → (⟨S1600000, .i32⟩ : BufTy).Contents (Elt F)),
    StableHlo.binary main_v27 main_v41 main_v42 (cmpi .slt : (⟨S1600000, .i32⟩ : BufTy).Contents (Elt F) → (⟨S1600000, .i32⟩ : BufTy).Contents (Elt F) → (⟨S1600000, .i1⟩ : BufTy).Contents (Elt F)),
    StableHlo.nullary main_c_13 (constantI S_ 32 100000#32),
    StableHlo.unary main_c_13 main_v43 (broadcastInDim S1600000 ![] bcast_S_S1600000 : (⟨S_, .i32⟩ : BufTy).Contents (Elt F) → (⟨S1600000, .i32⟩ : BufTy).Contents (Elt F)),
    StableHlo.binary main_v27 main_v43 main_v44 (addi : (⟨S1600000, .i32⟩ : BufTy).Contents (Elt F) → (⟨S1600000, .i32⟩ : BufTy).Contents (Elt F) → (⟨S1600000, .i32⟩ : BufTy).Contents (Elt F)),
    StableHlo.ternary main_v42 main_v44 main_v27 main_v45 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v45 main_v46 (broadcastInDim S1600000x1 ![0] bcast_S1600000_S1600000x1_0 : (⟨S1600000, .i32⟩ : BufTy).Contents (Elt F) → (⟨S1600000x1, .i32⟩ : BufTy).Contents (Elt F)),
    StableHlo.ternary main_v40 main_v46 main_v39 main_v47 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ]

/-- %cst_14 … %54: one times the node features plus the aggregate, then the first dense map (matrix product plus the bias row). -/
abbrev seg5 : List (HloOp τ sig (Elt F)) :=
  [ StableHlo.nullary main_cst_14 (constant S_ .f32 0x3F800000#32),
    StableHlo.unary main_cst_14 main_v48 (broadcastInDim S100000x128 ![] bcast_S_S100000x128 : (⟨S_, .f32⟩ : BufTy).Contents (Elt F) → (⟨S100000x128, .f32⟩ : BufTy).Contents (Elt F)),
    StableHlo.binary main_v48 main_arg0 main_v49 (mulf : (⟨S100000x128, .f32⟩ : BufTy).Contents (Elt F) → (⟨S100000x128, .f32⟩ : BufTy).Contents (Elt F) → (⟨S100000x128, .f32⟩ : BufTy).Contents (Elt F)),
    StableHlo.binary main_v49 main_v47 main_v50 (addf : (⟨S100000x128, .f32⟩ : BufTy).Contents (Elt F) → (⟨S100000x128, .f32⟩ : BufTy).Contents (Elt F) → (⟨S100000x128, .f32⟩ : BufTy).Contents (Elt F)),
    StableHlo.binary main_v50 main_arg4 main_v51 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg5 main_v52 (broadcastInDim S1x128 ![1] bcast_S128_S1x128_1 : (⟨S128, .f32⟩ : BufTy).Contents (Elt F) → (⟨S1x128, .f32⟩ : BufTy).Contents (Elt F)),
    StableHlo.unary main_v52 main_v53 (broadcastInDim S100000x128 ![0, 1] bcast_S1x128_S100000x128_0_1 : (⟨S1x128, .f32⟩ : BufTy).Contents (Elt F) → (⟨S100000x128, .f32⟩ : BufTy).Contents (Elt F)),
    StableHlo.binary main_v51 main_v53 main_v54 (addf : (⟨S100000x128, .f32⟩ : BufTy).Contents (Elt F) → (⟨S100000x128, .f32⟩ : BufTy).Contents (Elt F) → (⟨S100000x128, .f32⟩ : BufTy).Contents (Elt F)) ]

/-- %cst_15 … %c_17: the first layer's column means. -/
abbrev seg6 : List (HloOp τ sig (Elt F)) :=
  [ StableHlo.nullary main_cst_15 (constant S_ .f32 0x00000000#32),
    StableHlo.binary main_v54 main_cst_15 main_v55 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_16 (constant S_ .f32 0x47C35000#32),
    StableHlo.unary main_cst_16 main_v56 (broadcastInDim S128 ![] bcast_S_S128 : (⟨S_, .f32⟩ : BufTy).Contents (Elt F) → (⟨S128, .f32⟩ : BufTy).Contents (Elt F)),
    StableHlo.binary main_v55 main_v56 main_v57 (Host.divf : (⟨S128, .f32⟩ : BufTy).Contents (Elt F) → (⟨S128, .f32⟩ : BufTy).Contents (Elt F) → (⟨S128, .f32⟩ : BufTy).Contents (Elt F)),
    StableHlo.nullary main_c_17 (constantI S_ 32 0#32) ]

/-- %58: the first call of @_var (its nineteen operations over `main_call2`, then @_where_0's three over `main_call2.call0`): the column variances. -/
abbrev seg7 : List (HloOp τ sig (Elt F)) :=
  [ StableHlo.TRef.nullary main_call2.cst (constant S_ .f32 0x00000000#32),
    StableHlo.TRef.binary (.of main_v54 : StableHlo.TRef sig ⟨S100000x128, .f32⟩) main_call2.cst main_call2.v0 (fun x v => Host.reduceAdd x v reducesTo_S100000x128_S128_d0 h_S_),
    StableHlo.TRef.unary main_call2.v0 main_call2.v1 (broadcastInDim S1x128 ![1] bcast_S128_S1x128_1),
    StableHlo.TRef.nullary main_call2.cst_0 (constant S_ .f32 0x47C35000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S100000x128 ![0, 1] bcast_S1x128_S100000x128_0_1),
    StableHlo.TRef.binary (.of main_v54 : StableHlo.TRef sig ⟨S100000x128, .f32⟩) main_call2.v4 main_call2.v5 subf,
    StableHlo.TRef.binary main_call2.v5 main_call2.v5 main_call2.v6 mulf,
    StableHlo.TRef.unary (.of main_c_17 : StableHlo.TRef sig ⟨S_, .i32⟩) main_call2.v7 (sitofp .f32),
    StableHlo.TRef.nullary main_call2.cst_1 (constant S_ .f32 0x47C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b) ]

/-- %59 … %74: the first layer's normalisation, and the call of @relu (its three operations over `main_call3`). -/
abbrev seg8 : List (HloOp τ sig (Elt F)) :=
  [ StableHlo.unary main_v57 main_v59 (broadcastInDim S1x128 ![1] bcast_S128_S1x128_1 : (⟨S128, .f32⟩ : BufTy).Contents (Elt F) → (⟨S1x128, .f32⟩ : BufTy).Contents (Elt F)),
    StableHlo.unary main_v59 main_v60 (broadcastInDim S100000x128 ![0, 1] bcast_S1x128_S100000x128_0_1 : (⟨S1x128, .f32⟩ : BufTy).Contents (Elt F) → (⟨S100000x128, .f32⟩ : BufTy).Contents (Elt F)),
    StableHlo.binary main_v54 main_v60 main_v61 (subf : (⟨S100000x128, .f32⟩ : BufTy).Contents (Elt F) → (⟨S100000x128, .f32⟩ : BufTy).Contents (Elt F) → (⟨S100000x128, .f32⟩ : BufTy).Contents (Elt F)),
    StableHlo.unary main_arg6 main_v62 (broadcastInDim S1x128 ![1] bcast_S128_S1x128_1 : (⟨S128, .f32⟩ : BufTy).Contents (Elt F) → (⟨S1x128, .f32⟩ : BufTy).Contents (Elt F)),
    StableHlo.unary main_v62 main_v63 (broadcastInDim S100000x128 ![0, 1] bcast_S1x128_S100000x128_0_1 : (⟨S1x128, .f32⟩ : BufTy).Contents (Elt F) → (⟨S100000x128, .f32⟩ : BufTy).Contents (Elt F)),
    StableHlo.binary main_v63 main_v61 main_v64 (mulf : (⟨S100000x128, .f32⟩ : BufTy).Contents (Elt F) → (⟨S100000x128, .f32⟩ : BufTy).Contents (Elt F) → (⟨S100000x128, .f32⟩ : BufTy).Contents (Elt F)),
    StableHlo.nullary main_cst_18 (constant S_ .f32 0x3727C5AC#32),
    StableHlo.unary main_cst_18 main_v65 (broadcastInDim S128 ![] bcast_S_S128 : (⟨S_, .f32⟩ : BufTy).Contents (Elt F) → (⟨S128, .f32⟩ : BufTy).Contents (Elt F)),
    StableHlo.binary main_v58 main_v65 main_v66 (addf : (⟨S128, .f32⟩ : BufTy).Contents (Elt F) → (⟨S128, .f32⟩ : BufTy).Contents (Elt F) → (⟨S128, .f32⟩ : BufTy).Contents (Elt F)),
    StableHlo.unary main_v66 main_v67 (Host.rsqrt : (⟨S128, .f32⟩ : BufTy).Contents (Elt F) → (⟨S128, .f32⟩ : BufTy).Contents (Elt F)),
    StableHlo.unary main_v67 main_v68 (broadcastInDim S1x128 ![1] bcast_S128_S1x128_1 : (⟨S128, .f32⟩ : BufTy).Contents (Elt F) → (⟨S1x128, .f32⟩ : BufTy).Contents (Elt F)),
    StableHlo.unary main_v68 main_v69 (broadcastInDim S100000x128 ![0, 1] bcast_S1x128_S100000x128_0_1 : (⟨S1x128, .f32⟩ : BufTy).Contents (Elt F) → (⟨S100000x128, .f32⟩ : BufTy).Contents (Elt F)),
    StableHlo.binary main_v64 main_v69 main_v70 (mulf : (⟨S100000x128, .f32⟩ : BufTy).Contents (Elt F) → (⟨S100000x128, .f32⟩ : BufTy).Contents (Elt F) → (⟨S100000x128, .f32⟩ : BufTy).Contents (Elt F)),
    StableHlo.unary main_arg7 main_v71 (broadcastInDim S1x128 ![1] bcast_S128_S1x128_1 : (⟨S128, .f32⟩ : BufTy).Contents (Elt F) → (⟨S1x128, .f32⟩ : BufTy).Contents (Elt F)),
    StableHlo.unary main_v71 main_v72 (broadcastInDim S100000x128 ![0, 1] bcast_S1x128_S100000x128_0_1 : (⟨S1x128, .f32⟩ : BufTy).Contents (Elt F) → (⟨S100000x128, .f32⟩ : BufTy).Contents (Elt F)),
    StableHlo.binary main_v70 main_v72 main_v73 (addf : (⟨S100000x128, .f32⟩ : BufTy).Contents (Elt F) → (⟨S100000x128, .f32⟩ : BufTy).Contents (Elt F) → (⟨S100000x128, .f32⟩ : BufTy).Contents (Elt F)),
    StableHlo.TRef.nullary main_call3.cst (constant S_ .f32 0x00000000#32),
    StableHlo.TRef.unary main_call3.cst main_call3.v0 (broadcastInDim S100000x128 ![] bcast_S_S100000x128),
    StableHlo.TRef.binary (.of main_v73 : StableHlo.TRef sig ⟨S100000x128, .f32⟩) main_call3.v0 main_call3.v1 maximumf ]

/-- %75 … %78: the second dense map. -/
abbrev seg9 : List (HloOp τ sig (Elt F)) :=
  [ StableHlo.binary main_v74 main_arg8 main_v75 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg9 main_v76 (broadcastInDim S1x128 ![1] bcast_S128_S1x128_1 : (⟨S128, .f32⟩ : BufTy).Contents (Elt F) → (⟨S1x128, .f32⟩ : BufTy).Contents (Elt F)),
    StableHlo.unary main_v76 main_v77 (broadcastInDim S100000x128 ![0, 1] bcast_S1x128_S100000x128_0_1 : (⟨S1x128, .f32⟩ : BufTy).Contents (Elt F) → (⟨S100000x128, .f32⟩ : BufTy).Contents (Elt F)),
    StableHlo.binary main_v75 main_v77 main_v78 (addf : (⟨S100000x128, .f32⟩ : BufTy).Contents (Elt F) → (⟨S100000x128, .f32⟩ : BufTy).Contents (Elt F) → (⟨S100000x128, .f32⟩ : BufTy).Contents (Elt F)) ]

/-- %cst_19 … %c_21: the second layer's column means. -/
abbrev seg10 : List (HloOp τ sig (Elt F)) :=
  [ StableHlo.nullary main_cst_19 (constant S_ .f32 0x00000000#32),
    StableHlo.binary main_v78 main_cst_19 main_v79 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_20 (constant S_ .f32 0x47C35000#32),
    StableHlo.unary main_cst_20 main_v80 (broadcastInDim S128 ![] bcast_S_S128 : (⟨S_, .f32⟩ : BufTy).Contents (Elt F) → (⟨S128, .f32⟩ : BufTy).Contents (Elt F)),
    StableHlo.binary main_v79 main_v80 main_v81 (Host.divf : (⟨S128, .f32⟩ : BufTy).Contents (Elt F) → (⟨S128, .f32⟩ : BufTy).Contents (Elt F) → (⟨S128, .f32⟩ : BufTy).Contents (Elt F)),
    StableHlo.nullary main_c_21 (constantI S_ 32 0#32) ]

/-- %82: the second call of @_var (over `main_call4` and `main_call4.call0`): the column variances. -/
abbrev seg11 : List (HloOp τ sig (Elt F)) :=
  [ StableHlo.TRef.nullary main_call4.cst (constant S_ .f32 0x00000000#32),
    StableHlo.TRef.binary (.of main_v78 : StableHlo.TRef sig ⟨S100000x128, .f32⟩) main_call4.cst main_call4.v0 (fun x v => Host.reduceAdd x v reducesTo_S100000x128_S128_d0 h_S_),
    StableHlo.TRef.unary main_call4.v0 main_call4.v1 (broadcastInDim S1x128 ![1] bcast_S128_S1x128_1),
    StableHlo.TRef.nullary main_call4.cst_0 (constant S_ .f32 0x47C35000#32),
    StableHlo.TRef.unary main_call4.cst_0 main_call4.v2 (broadcastInDim S1x128 ![] bcast_S_S1x128),
    StableHlo.TRef.binary main_call4.v1 main_call4.v2 main_call4.v3 Host.divf,
    StableHlo.TRef.unary main_call4.v3 main_call4.v4 (broadcastInDim S100000x128 ![0, 1] bcast_S1x128_S100000x128_0_1),
    StableHlo.TRef.binary (.of main_v78 : StableHlo.TRef sig ⟨S100000x128, .f32⟩) main_call4.v4 main_call4.v5 subf,
    StableHlo.TRef.binary main_call4.v5 main_call4.v5 main_call4.v6 mulf,
    StableHlo.TRef.unary (.of main_c_21 : StableHlo.TRef sig ⟨S_, .i32⟩) main_call4.v7 (sitofp .f32),
    StableHlo.TRef.nullary main_call4.cst_1 (constant S_ .f32 0x47C35000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S100000x128_S128_d0 h_S_),
    StableHlo.TRef.unary main_call4.v8 main_call4.v10 (broadcastInDim S128 ![] bcast_S_S128),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S128 ![] bcast_S_S128),
    StableHlo.TRef.ternary main_call4.v12 main_call4.v11 main_call4.call0.v1 main_call4.call0.v2 (fun p a b => select (broadcastInDim S128 ![] bcast_S_S128 p) a b) ]

/-- %83 … %98: the second layer's normalisation, and the call of @relu (over `main_call5`), whose result is the program's. -/
abbrev seg12 : List (HloOp τ sig (Elt F)) :=
  [ StableHlo.unary main_v81 main_v83 (broadcastInDim S1x128 ![1] bcast_S128_S1x128_1 : (⟨S128, .f32⟩ : BufTy).Contents (Elt F) → (⟨S1x128, .f32⟩ : BufTy).Contents (Elt F)),
    StableHlo.unary main_v83 main_v84 (broadcastInDim S100000x128 ![0, 1] bcast_S1x128_S100000x128_0_1 : (⟨S1x128, .f32⟩ : BufTy).Contents (Elt F) → (⟨S100000x128, .f32⟩ : BufTy).Contents (Elt F)),
    StableHlo.binary main_v78 main_v84 main_v85 (subf : (⟨S100000x128, .f32⟩ : BufTy).Contents (Elt F) → (⟨S100000x128, .f32⟩ : BufTy).Contents (Elt F) → (⟨S100000x128, .f32⟩ : BufTy).Contents (Elt F)),
    StableHlo.unary main_arg10 main_v86 (broadcastInDim S1x128 ![1] bcast_S128_S1x128_1 : (⟨S128, .f32⟩ : BufTy).Contents (Elt F) → (⟨S1x128, .f32⟩ : BufTy).Contents (Elt F)),
    StableHlo.unary main_v86 main_v87 (broadcastInDim S100000x128 ![0, 1] bcast_S1x128_S100000x128_0_1 : (⟨S1x128, .f32⟩ : BufTy).Contents (Elt F) → (⟨S100000x128, .f32⟩ : BufTy).Contents (Elt F)),
    StableHlo.binary main_v87 main_v85 main_v88 (mulf : (⟨S100000x128, .f32⟩ : BufTy).Contents (Elt F) → (⟨S100000x128, .f32⟩ : BufTy).Contents (Elt F) → (⟨S100000x128, .f32⟩ : BufTy).Contents (Elt F)),
    StableHlo.nullary main_cst_22 (constant S_ .f32 0x3727C5AC#32),
    StableHlo.unary main_cst_22 main_v89 (broadcastInDim S128 ![] bcast_S_S128 : (⟨S_, .f32⟩ : BufTy).Contents (Elt F) → (⟨S128, .f32⟩ : BufTy).Contents (Elt F)),
    StableHlo.binary main_v82 main_v89 main_v90 (addf : (⟨S128, .f32⟩ : BufTy).Contents (Elt F) → (⟨S128, .f32⟩ : BufTy).Contents (Elt F) → (⟨S128, .f32⟩ : BufTy).Contents (Elt F)),
    StableHlo.unary main_v90 main_v91 (Host.rsqrt : (⟨S128, .f32⟩ : BufTy).Contents (Elt F) → (⟨S128, .f32⟩ : BufTy).Contents (Elt F)),
    StableHlo.unary main_v91 main_v92 (broadcastInDim S1x128 ![1] bcast_S128_S1x128_1 : (⟨S128, .f32⟩ : BufTy).Contents (Elt F) → (⟨S1x128, .f32⟩ : BufTy).Contents (Elt F)),
    StableHlo.unary main_v92 main_v93 (broadcastInDim S100000x128 ![0, 1] bcast_S1x128_S100000x128_0_1 : (⟨S1x128, .f32⟩ : BufTy).Contents (Elt F) → (⟨S100000x128, .f32⟩ : BufTy).Contents (Elt F)),
    StableHlo.binary main_v88 main_v93 main_v94 (mulf : (⟨S100000x128, .f32⟩ : BufTy).Contents (Elt F) → (⟨S100000x128, .f32⟩ : BufTy).Contents (Elt F) → (⟨S100000x128, .f32⟩ : BufTy).Contents (Elt F)),
    StableHlo.unary main_arg11 main_v95 (broadcastInDim S1x128 ![1] bcast_S128_S1x128_1 : (⟨S128, .f32⟩ : BufTy).Contents (Elt F) → (⟨S1x128, .f32⟩ : BufTy).Contents (Elt F)),
    StableHlo.unary main_v95 main_v96 (broadcastInDim S100000x128 ![0, 1] bcast_S1x128_S100000x128_0_1 : (⟨S1x128, .f32⟩ : BufTy).Contents (Elt F) → (⟨S100000x128, .f32⟩ : BufTy).Contents (Elt F)),
    StableHlo.binary main_v94 main_v96 main_v97 (addf : (⟨S100000x128, .f32⟩ : BufTy).Contents (Elt F) → (⟨S100000x128, .f32⟩ : BufTy).Contents (Elt F) → (⟨S100000x128, .f32⟩ : BufTy).Contents (Elt F)),
    StableHlo.TRef.nullary main_call5.cst (constant S_ .f32 0x00000000#32),
    StableHlo.TRef.unary main_call5.cst main_call5.v0 (broadcastInDim S100000x128 ![] bcast_S_S100000x128),
    StableHlo.TRef.binary (.of main_v97 : StableHlo.TRef sig ⟨S100000x128, .f32⟩) main_call5.v0 main_call5.v1 maximumf ]

/-- @main's 177 operations, in program order, each call's operations in the call's place. -/
abbrev ops : List (HloOp τ sig (Elt F)) :=
  seg0 ++ (seg1 ++ (seg2 ++ (seg3 ++ (seg4 ++ (seg5 ++ (seg6 ++ (seg7 ++ (seg8 ++ (seg9 ++ (seg10 ++ (seg11 ++ (seg12))))))))))))

/-- @main is that straight line: unfolding the three windows, the functions at their calls and the records at
    their fields, both sides are the same chain of steps. -/
theorem main_eq (c : Dev nD) : main (F := F) c = seq ops := rfl

/-- No TensorCore buffer of the signature is scoped. -/
theorem scopedRefs_eq : (Finset.univ.filter fun b : Ref sig .tc => b.isScoped) = ∅ := by decide
/-- No semaphore of the signature is scoped. -/
theorem scopedSems_eq : (Finset.univ.filter fun sm : SemLoc sig => sm.isScoped .tc) = ∅ := by decide

/-- Every operation of segment 0 names only TensorCore buffers. -/
theorem seg0_sub : (seg0 : List (HloOp τ sig (Elt F))).Forall fun op => op.bufs ⊆ tcRefs τ sig := by
  simp only [List.Forall, nullary_bufs_sub, unary_bufs_sub, binary_bufs_sub, ternary_bufs_sub, reshape_bufs_sub, and_self]
/-- No operation of segment 0 allocates a buffer: each determines what it writes. -/
theorem seg0_fresh : (seg0 : List (HloOp τ sig (Elt F))).Forall fun op => op.fresh = ∅ := by
  simp only [List.Forall]
  exact ⟨rfl, rfl, rfl, rfl, rfl, rfl, rfl, rfl, rfl, rfl, rfl, rfl, rfl⟩

/-- Every operation of segment 1 names only TensorCore buffers. -/
theorem seg1_sub : (seg1 : List (HloOp τ sig (Elt F))).Forall fun op => op.bufs ⊆ tcRefs τ sig := by
  simp only [List.Forall, nullary_bufs_sub, unary_bufs_sub, binary_bufs_sub, ternary_bufs_sub, reshape_bufs_sub, and_self]
/-- No operation of segment 1 allocates a buffer: each determines what it writes. -/
theorem seg1_fresh : (seg1 : List (HloOp τ sig (Elt F))).Forall fun op => op.fresh = ∅ := by
  simp only [List.Forall]
  exact ⟨rfl, rfl, rfl, rfl, rfl, rfl, rfl, rfl, rfl, rfl, rfl, rfl, rfl, rfl, rfl, rfl, rfl, rfl⟩

/-- Every operation of segment 2 names only TensorCore buffers. -/
theorem seg2_sub : (seg2 : List (HloOp τ sig (Elt F))).Forall fun op => op.bufs ⊆ tcRefs τ sig := by
  simp only [List.Forall, nullary_bufs_sub, unary_bufs_sub, binary_bufs_sub, ternary_bufs_sub, reshape_bufs_sub, and_self]
/-- No operation of segment 2 allocates a buffer: each determines what it writes. -/
theorem seg2_fresh : (seg2 : List (HloOp τ sig (Elt F))).Forall fun op => op.fresh = ∅ := by
  simp only [List.Forall]
  exact ⟨rfl, rfl, rfl, rfl, rfl, rfl, rfl, rfl, rfl, rfl, rfl, rfl, rfl⟩

/-- Every operation of segment 3 names only TensorCore buffers. -/
theorem seg3_sub : (seg3 : List (HloOp τ sig (Elt F))).Forall fun op => op.bufs ⊆ tcRefs τ sig := by
  simp only [List.Forall, nullary_bufs_sub, unary_bufs_sub, binary_bufs_sub, ternary_bufs_sub, reshape_bufs_sub, and_self]
/-- No operation of segment 3 allocates a buffer: each determines what it writes. -/
theorem seg3_fresh : (seg3 : List (HloOp τ sig (Elt F))).Forall fun op => op.fresh = ∅ := by
  simp only [List.Forall]
  exact ⟨rfl, rfl, rfl, rfl, rfl, rfl, rfl, rfl, rfl, rfl, rfl, rfl, rfl, rfl, rfl, rfl⟩

/-- Every operation of segment 4 names only TensorCore buffers. -/
theorem seg4_sub : (seg4 : List (HloOp τ sig (Elt F))).Forall fun op => op.bufs ⊆ tcRefs τ sig := by
  simp only [List.Forall, nullary_bufs_sub, unary_bufs_sub, binary_bufs_sub, ternary_bufs_sub, reshape_bufs_sub, and_self]
/-- No operation of segment 4 allocates a buffer: each determines what it writes. -/
theorem seg4_fresh : (seg4 : List (HloOp τ sig (Elt F))).Forall fun op => op.fresh = ∅ := by
  simp only [List.Forall]
  exact ⟨rfl, rfl, rfl, rfl, rfl, rfl, rfl, rfl, rfl, rfl, rfl⟩

/-- Every operation of segment 5 names only TensorCore buffers. -/
theorem seg5_sub : (seg5 : List (HloOp τ sig (Elt F))).Forall fun op => op.bufs ⊆ tcRefs τ sig := by
  simp only [List.Forall, nullary_bufs_sub, unary_bufs_sub, binary_bufs_sub, ternary_bufs_sub, reshape_bufs_sub, and_self]
/-- No operation of segment 5 allocates a buffer: each determines what it writes. -/
theorem seg5_fresh : (seg5 : List (HloOp τ sig (Elt F))).Forall fun op => op.fresh = ∅ := by
  simp only [List.Forall]
  exact ⟨rfl, rfl, rfl, rfl, rfl, rfl, rfl, rfl⟩

/-- Every operation of segment 6 names only TensorCore buffers. -/
theorem seg6_sub : (seg6 : List (HloOp τ sig (Elt F))).Forall fun op => op.bufs ⊆ tcRefs τ sig := by
  simp only [List.Forall, nullary_bufs_sub, unary_bufs_sub, binary_bufs_sub, ternary_bufs_sub, reshape_bufs_sub, and_self]
/-- No operation of segment 6 allocates a buffer: each determines what it writes. -/
theorem seg6_fresh : (seg6 : List (HloOp τ sig (Elt F))).Forall fun op => op.fresh = ∅ := by
  simp only [List.Forall]
  exact ⟨rfl, rfl, rfl, rfl, rfl, rfl⟩

/-- Every operation of segment 7 names only TensorCore buffers. -/
theorem seg7_sub : (seg7 : List (HloOp τ sig (Elt F))).Forall fun op => op.bufs ⊆ tcRefs τ sig := by
  simp only [List.Forall, nullary_bufs_sub, unary_bufs_sub, binary_bufs_sub, ternary_bufs_sub, reshape_bufs_sub, and_self]
/-- No operation of segment 7 allocates a buffer: each determines what it writes. -/
theorem seg7_fresh : (seg7 : List (HloOp τ sig (Elt F))).Forall fun op => op.fresh = ∅ := by
  simp only [List.Forall]
  exact ⟨rfl, rfl, rfl, rfl, rfl, rfl, rfl, rfl, rfl, rfl, rfl, rfl, rfl, rfl, rfl, rfl, rfl, rfl, rfl, rfl, rfl, rfl⟩

/-- Every operation of segment 8 names only TensorCore buffers. -/
theorem seg8_sub : (seg8 : List (HloOp τ sig (Elt F))).Forall fun op => op.bufs ⊆ tcRefs τ sig := by
  simp only [List.Forall, nullary_bufs_sub, unary_bufs_sub, binary_bufs_sub, ternary_bufs_sub, reshape_bufs_sub, and_self]
/-- No operation of segment 8 allocates a buffer: each determines what it writes. -/
theorem seg8_fresh : (seg8 : List (HloOp τ sig (Elt F))).Forall fun op => op.fresh = ∅ := by
  simp only [List.Forall]
  exact ⟨rfl, rfl, rfl, rfl, rfl, rfl, rfl, rfl, rfl, rfl, rfl, rfl, rfl, rfl, rfl, rfl, rfl, rfl, rfl⟩

/-- Every operation of segment 9 names only TensorCore buffers. -/
theorem seg9_sub : (seg9 : List (HloOp τ sig (Elt F))).Forall fun op => op.bufs ⊆ tcRefs τ sig := by
  simp only [List.Forall, nullary_bufs_sub, unary_bufs_sub, binary_bufs_sub, ternary_bufs_sub, reshape_bufs_sub, and_self]
/-- No operation of segment 9 allocates a buffer: each determines what it writes. -/
theorem seg9_fresh : (seg9 : List (HloOp τ sig (Elt F))).Forall fun op => op.fresh = ∅ := by
  simp only [List.Forall]
  exact ⟨rfl, rfl, rfl, rfl⟩

/-- Every operation of segment 10 names only TensorCore buffers. -/
theorem seg10_sub : (seg10 : List (HloOp τ sig (Elt F))).Forall fun op => op.bufs ⊆ tcRefs τ sig := by
  simp only [List.Forall, nullary_bufs_sub, unary_bufs_sub, binary_bufs_sub, ternary_bufs_sub, reshape_bufs_sub, and_self]
/-- No operation of segment 10 allocates a buffer: each determines what it writes. -/
theorem seg10_fresh : (seg10 : List (HloOp τ sig (Elt F))).Forall fun op => op.fresh = ∅ := by
  simp only [List.Forall]
  exact ⟨rfl, rfl, rfl, rfl, rfl, rfl⟩

/-- Every operation of segment 11 names only TensorCore buffers. -/
theorem seg11_sub : (seg11 : List (HloOp τ sig (Elt F))).Forall fun op => op.bufs ⊆ tcRefs τ sig := by
  simp only [List.Forall, nullary_bufs_sub, unary_bufs_sub, binary_bufs_sub, ternary_bufs_sub, reshape_bufs_sub, and_self]
/-- No operation of segment 11 allocates a buffer: each determines what it writes. -/
theorem seg11_fresh : (seg11 : List (HloOp τ sig (Elt F))).Forall fun op => op.fresh = ∅ := by
  simp only [List.Forall]
  exact ⟨rfl, rfl, rfl, rfl, rfl, rfl, rfl, rfl, rfl, rfl, rfl, rfl, rfl, rfl, rfl, rfl, rfl, rfl, rfl, rfl, rfl, rfl⟩

/-- Every operation of segment 12 names only TensorCore buffers. -/
theorem seg12_sub : (seg12 : List (HloOp τ sig (Elt F))).Forall fun op => op.bufs ⊆ tcRefs τ sig := by
  simp only [List.Forall, nullary_bufs_sub, unary_bufs_sub, binary_bufs_sub, ternary_bufs_sub, reshape_bufs_sub, and_self]
/-- No operation of segment 12 allocates a buffer: each determines what it writes. -/
theorem seg12_fresh : (seg12 : List (HloOp τ sig (Elt F))).Forall fun op => op.fresh = ∅ := by
  simp only [List.Forall]
  exact ⟨rfl, rfl, rfl, rfl, rfl, rfl, rfl, rfl, rfl, rfl, rfl, rfl, rfl, rfl, rfl, rfl, rfl, rfl, rfl⟩

/-- Every operation of the line names only TensorCore buffers. -/
theorem ops_sub : (ops : List (HloOp τ sig (Elt F))).Forall fun op => op.bufs ⊆ tcRefs τ sig :=
  List.forall_append.mpr ⟨seg0_sub, List.forall_append.mpr ⟨seg1_sub, List.forall_append.mpr ⟨seg2_sub, List.forall_append.mpr ⟨seg3_sub, List.forall_append.mpr ⟨seg4_sub, List.forall_append.mpr ⟨seg5_sub, List.forall_append.mpr ⟨seg6_sub, List.forall_append.mpr ⟨seg7_sub, List.forall_append.mpr ⟨seg8_sub, List.forall_append.mpr ⟨seg9_sub, List.forall_append.mpr ⟨seg10_sub, List.forall_append.mpr ⟨seg11_sub, seg12_sub⟩⟩⟩⟩⟩⟩⟩⟩⟩⟩⟩⟩

/-- No operation of the line allocates a buffer. -/
theorem ops_fresh : (ops : List (HloOp τ sig (Elt F))).Forall fun op => op.fresh = ∅ :=
  List.forall_append.mpr ⟨seg0_fresh, List.forall_append.mpr ⟨seg1_fresh, List.forall_append.mpr ⟨seg2_fresh, List.forall_append.mpr ⟨seg3_fresh, List.forall_append.mpr ⟨seg4_fresh, List.forall_append.mpr ⟨seg5_fresh, List.forall_append.mpr ⟨seg6_fresh, List.forall_append.mpr ⟨seg7_fresh, List.forall_append.mpr ⟨seg8_fresh, List.forall_append.mpr ⟨seg9_fresh, List.forall_append.mpr ⟨seg10_fresh, List.forall_append.mpr ⟨seg11_fresh, seg12_fresh⟩⟩⟩⟩⟩⟩⟩⟩⟩⟩⟩⟩

/-- On the one device, for any float values, from any memory with zero counters: every weakly fair execution of
    @main terminates, and every final state has each TensorCore buffer at the fold of the 177 operations' results
    over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = StableHlo.after ops (launchContents m c) (Proc.devRef .tc b) :=
  run_seq scopedRefs_eq scopedSems_eq defs main (fun _ => ops) main_eq (fun _ => ops_sub) m ρ
    (fun _ => List.forall_iff_forall_mem.mp ops_fresh)

end Cert.ReferenceIdeal.RefRun

end
-- ==== Proof.RefTerm.lean ====
/-
  What the reference program computes, as one term of its arguments.

  The program's 177 operations are run segment by segment (the thirteen segments of the run): for an ARBITRARY
  assignment of contents to the buffers, the contents of the buffers a segment hands on are the segment's composed
  operations applied to the contents it was handed, and a buffer a segment does not write keeps its contents. Chained
  through the thirteen segments, the result buffer `%98` holds two layers — dense map, batch normalisation, maximum
  with zero — of the node features combined with the aggregated neighbour messages, as the stage functions spell them,
  and every argument buffer still holds what it held.
-/
import proofs.«165747_j60928406061384_2_alg».proof.Proof.RefRun
import proofs.«165747_j60928406061384_2_alg».proof.Proof.RefStages

noncomputable section

namespace Cert.ReferenceIdeal.RefTerm

open Cert.ReferenceIdeal Cert.ReferenceIdeal.Facts₀ Idealize.ShloMosaic Idealize.ShloMosaic.TcCoe Idealize.SL.Sem Idealize.ShloMosaic.StableHlo
open Cert.ReferenceIdeal.RefRun Cert.ReferenceIdeal.RefStages

variable {F : FTy → Type} [FloatOps F]

/-! ## What each segment writes, and what it therefore keeps -/

/-- The buffers segment 0's operations write, in order. -/
abbrev seg0_W : List (Ref sig .tc) :=
  [main_cst, main_v0, main_cst_0, main_v1, main_v2, main_v3, main_v4, main_v5, main_cst_1, main_v6, main_v7, main_v8, main_v9]
/-- Each operation of segment 0 writes only a buffer of that list. -/
theorem seg0_writes : (seg0 : List (HloOp τ sig (Elt F))).Forall fun op =>
    op.writes ⊆ (seg0_W.map (Proc.devRef (τ := τ) .tc)).toFinset := by
  simp only [List.Forall]
  exact ⟨(by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide))⟩
/-- A buffer segment 0 does not write keeps its contents through it. -/
theorem seg0_keep (W : Valuation τ sig (Elt F)) (r : Ref sig .tc) (h : r ∉ seg0_W) :
    after seg0 W (Proc.devRef .tc r) = W (Proc.devRef .tc r) :=
  after_of_writes_sub seg0 W seg0_writes h

/-- The buffers segment 1's operations write, in order. -/
abbrev seg1_W : List (Ref sig .tc) :=
  [main_c, main_v10, main_v11, main_c_2, main_v12, main_v13, main_v14, main_c_3, main_v15, main_v16, main_c_4, main_c_5, main_call0.v0.ref, main_call0.v1.ref, main_call0.v2.ref, main_call0.v3.ref, main_call0.v4.ref, main_call0.v5.ref]
/-- Each operation of segment 1 writes only a buffer of that list. -/
theorem seg1_writes : (seg1 : List (HloOp τ sig (Elt F))).Forall fun op =>
    op.writes ⊆ (seg1_W.map (Proc.devRef (τ := τ) .tc)).toFinset := by
  simp only [List.Forall]
  exact ⟨(by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide))⟩
/-- A buffer segment 1 does not write keeps its contents through it. -/
theorem seg1_keep (W : Valuation τ sig (Elt F)) (r : Ref sig .tc) (h : r ∉ seg1_W) :
    after seg1 W (Proc.devRef .tc r) = W (Proc.devRef .tc r) :=
  after_of_writes_sub seg1 W seg1_writes h

/-- The buffers segment 2's operations write, in order. -/
abbrev seg2_W : List (Ref sig .tc) :=
  [main_c_6, main_v18, main_v19, main_c_7, main_v20, main_v21, main_v22, main_v23, main_v24, main_cst_8, main_call1.v0.ref, main_call1.v1.ref, main_call1.v2.ref]
/-- Each operation of segment 2 writes only a buffer of that list. -/
theorem seg2_writes : (seg2 : List (HloOp τ sig (Elt F))).Forall fun op =>
    op.writes ⊆ (seg2_W.map (Proc.devRef (τ := τ) .tc)).toFinset := by
  simp only [List.Forall]
  exact ⟨(by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide))⟩
/-- A buffer segment 2 does not write keeps its contents through it. -/
theorem seg2_keep (W : Valuation τ sig (Elt F)) (r : Ref sig .tc) (h : r ∉ seg2_W) :
    after seg2 W (Proc.devRef .tc r) = W (Proc.devRef .tc r) :=
  after_of_writes_sub seg2 W seg2_writes h

/-- The buffers segment 3's operations write, in order. -/
abbrev seg3_W : List (Ref sig .tc) :=
  [main_v26, main_v27, main_v28, main_v29, main_v30, main_c_9, main_v31, main_v32, main_c_10, main_v33, main_v34, main_v35, main_v36, main_v37, main_v38, main_v39]
/-- Each operation of segment 3 writes only a buffer of that list. -/
theorem seg3_writes : (seg3 : List (HloOp τ sig (Elt F))).Forall fun op =>
    op.writes ⊆ (seg3_W.map (Proc.devRef (τ := τ) .tc)).toFinset := by
  simp only [List.Forall]
  exact ⟨(by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide))⟩
/-- A buffer segment 3 does not write keeps its contents through it. -/
theorem seg3_keep (W : Valuation τ sig (Elt F)) (r : Ref sig .tc) (h : r ∉ seg3_W) :
    after seg3 W (Proc.devRef .tc r) = W (Proc.devRef .tc r) :=
  after_of_writes_sub seg3 W seg3_writes h

/-- The buffers segment 4's operations write, in order. -/
abbrev seg4_W : List (Ref sig .tc) :=
  [main_cst_11, main_v40, main_c_12, main_v41, main_v42, main_c_13, main_v43, main_v44, main_v45, main_v46, main_v47]
/-- Each operation of segment 4 writes only a buffer of that list. -/
theorem seg4_writes : (seg4 : List (HloOp τ sig (Elt F))).Forall fun op =>
    op.writes ⊆ (seg4_W.map (Proc.devRef (τ := τ) .tc)).toFinset := by
  simp only [List.Forall]
  exact ⟨(by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide))⟩
/-- A buffer segment 4 does not write keeps its contents through it. -/
theorem seg4_keep (W : Valuation τ sig (Elt F)) (r : Ref sig .tc) (h : r ∉ seg4_W) :
    after seg4 W (Proc.devRef .tc r) = W (Proc.devRef .tc r) :=
  after_of_writes_sub seg4 W seg4_writes h

/-- The buffers segment 5's operations write, in order. -/
abbrev seg5_W : List (Ref sig .tc) :=
  [main_cst_14, main_v48, main_v49, main_v50, main_v51, main_v52, main_v53, main_v54]
/-- Each operation of segment 5 writes only a buffer of that list. -/
theorem seg5_writes : (seg5 : List (HloOp τ sig (Elt F))).Forall fun op =>
    op.writes ⊆ (seg5_W.map (Proc.devRef (τ := τ) .tc)).toFinset := by
  simp only [List.Forall]
  exact ⟨(by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide))⟩
/-- A buffer segment 5 does not write keeps its contents through it. -/
theorem seg5_keep (W : Valuation τ sig (Elt F)) (r : Ref sig .tc) (h : r ∉ seg5_W) :
    after seg5 W (Proc.devRef .tc r) = W (Proc.devRef .tc r) :=
  after_of_writes_sub seg5 W seg5_writes h

/-- The buffers segment 6's operations write, in order. -/
abbrev seg6_W : List (Ref sig .tc) :=
  [main_cst_15, main_v55, main_cst_16, main_v56, main_v57, main_c_17]
/-- Each operation of segment 6 writes only a buffer of that list. -/
theorem seg6_writes : (seg6 : List (HloOp τ sig (Elt F))).Forall fun op =>
    op.writes ⊆ (seg6_W.map (Proc.devRef (τ := τ) .tc)).toFinset := by
  simp only [List.Forall]
  exact ⟨(by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide))⟩
/-- A buffer segment 6 does not write keeps its contents through it. -/
theorem seg6_keep (W : Valuation τ sig (Elt F)) (r : Ref sig .tc) (h : r ∉ seg6_W) :
    after seg6 W (Proc.devRef .tc r) = W (Proc.devRef .tc r) :=
  after_of_writes_sub seg6 W seg6_writes h

/-- The buffers segment 7's operations write, in order. -/
abbrev seg7_W : List (Ref sig .tc) :=
  [main_call2.cst.ref, main_call2.v0.ref, main_call2.v1.ref, main_call2.cst_0.ref, main_call2.v2.ref, main_call2.v3.ref, main_call2.v4.ref, main_call2.v5.ref, main_call2.v6.ref, main_call2.v7.ref, main_call2.cst_1.ref, main_call2.v8.ref, main_call2.cst_2.ref, main_call2.v9.ref, main_call2.v10.ref, main_call2.v11.ref, main_call2.cst_3.ref, main_call2.v12.ref, main_call2.cst_4.ref, main_call2.call0.v0.ref, main_call2.call0.v1.ref, main_call2.call0.v2.ref]
/-- Each operation of segment 7 writes only a buffer of that list. -/
theorem seg7_writes : (seg7 : List (HloOp τ sig (Elt F))).Forall fun op =>
    op.writes ⊆ (seg7_W.map (Proc.devRef (τ := τ) .tc)).toFinset := by
  simp only [List.Forall]
  exact ⟨(by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide))⟩
/-- A buffer segment 7 does not write keeps its contents through it. -/
theorem seg7_keep (W : Valuation τ sig (Elt F)) (r : Ref sig .tc) (h : r ∉ seg7_W) :
    after seg7 W (Proc.devRef .tc r) = W (Proc.devRef .tc r) :=
  after_of_writes_sub seg7 W seg7_writes h

/-- The buffers segment 8's operations write, in order. -/
abbrev seg8_W : List (Ref sig .tc) :=
  [main_v59, main_v60, main_v61, main_v62, main_v63, main_v64, main_cst_18, main_v65, main_v66, main_v67, main_v68, main_v69, main_v70, main_v71, main_v72, main_v73, main_call3.cst.ref, main_call3.v0.ref, main_call3.v1.ref]
/-- Each operation of segment 8 writes only a buffer of that list. -/
theorem seg8_writes : (seg8 : List (HloOp τ sig (Elt F))).Forall fun op =>
    op.writes ⊆ (seg8_W.map (Proc.devRef (τ := τ) .tc)).toFinset := by
  simp only [List.Forall]
  exact ⟨(by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide))⟩
/-- A buffer segment 8 does not write keeps its contents through it. -/
theorem seg8_keep (W : Valuation τ sig (Elt F)) (r : Ref sig .tc) (h : r ∉ seg8_W) :
    after seg8 W (Proc.devRef .tc r) = W (Proc.devRef .tc r) :=
  after_of_writes_sub seg8 W seg8_writes h

/-- The buffers segment 9's operations write, in order. -/
abbrev seg9_W : List (Ref sig .tc) :=
  [main_v75, main_v76, main_v77, main_v78]
/-- Each operation of segment 9 writes only a buffer of that list. -/
theorem seg9_writes : (seg9 : List (HloOp τ sig (Elt F))).Forall fun op =>
    op.writes ⊆ (seg9_W.map (Proc.devRef (τ := τ) .tc)).toFinset := by
  simp only [List.Forall]
  exact ⟨(by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide))⟩
/-- A buffer segment 9 does not write keeps its contents through it. -/
theorem seg9_keep (W : Valuation τ sig (Elt F)) (r : Ref sig .tc) (h : r ∉ seg9_W) :
    after seg9 W (Proc.devRef .tc r) = W (Proc.devRef .tc r) :=
  after_of_writes_sub seg9 W seg9_writes h

/-- The buffers segment 10's operations write, in order. -/
abbrev seg10_W : List (Ref sig .tc) :=
  [main_cst_19, main_v79, main_cst_20, main_v80, main_v81, main_c_21]
/-- Each operation of segment 10 writes only a buffer of that list. -/
theorem seg10_writes : (seg10 : List (HloOp τ sig (Elt F))).Forall fun op =>
    op.writes ⊆ (seg10_W.map (Proc.devRef (τ := τ) .tc)).toFinset := by
  simp only [List.Forall]
  exact ⟨(by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide))⟩
/-- A buffer segment 10 does not write keeps its contents through it. -/
theorem seg10_keep (W : Valuation τ sig (Elt F)) (r : Ref sig .tc) (h : r ∉ seg10_W) :
    after seg10 W (Proc.devRef .tc r) = W (Proc.devRef .tc r) :=
  after_of_writes_sub seg10 W seg10_writes h

/-- The buffers segment 11's operations write, in order. -/
abbrev seg11_W : List (Ref sig .tc) :=
  [main_call4.cst.ref, main_call4.v0.ref, main_call4.v1.ref, main_call4.cst_0.ref, main_call4.v2.ref, main_call4.v3.ref, main_call4.v4.ref, main_call4.v5.ref, main_call4.v6.ref, main_call4.v7.ref, main_call4.cst_1.ref, main_call4.v8.ref, main_call4.cst_2.ref, main_call4.v9.ref, main_call4.v10.ref, main_call4.v11.ref, main_call4.cst_3.ref, main_call4.v12.ref, main_call4.cst_4.ref, main_call4.call0.v0.ref, main_call4.call0.v1.ref, main_call4.call0.v2.ref]
/-- Each operation of segment 11 writes only a buffer of that list. -/
theorem seg11_writes : (seg11 : List (HloOp τ sig (Elt F))).Forall fun op =>
    op.writes ⊆ (seg11_W.map (Proc.devRef (τ := τ) .tc)).toFinset := by
  simp only [List.Forall]
  exact ⟨(by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide))⟩
/-- A buffer segment 11 does not write keeps its contents through it. -/
theorem seg11_keep (W : Valuation τ sig (Elt F)) (r : Ref sig .tc) (h : r ∉ seg11_W) :
    after seg11 W (Proc.devRef .tc r) = W (Proc.devRef .tc r) :=
  after_of_writes_sub seg11 W seg11_writes h

/-- The buffers segment 12's operations write, in order. -/
abbrev seg12_W : List (Ref sig .tc) :=
  [main_v83, main_v84, main_v85, main_v86, main_v87, main_v88, main_cst_22, main_v89, main_v90, main_v91, main_v92, main_v93, main_v94, main_v95, main_v96, main_v97, main_call5.cst.ref, main_call5.v0.ref, main_call5.v1.ref]
/-- Each operation of segment 12 writes only a buffer of that list. -/
theorem seg12_writes : (seg12 : List (HloOp τ sig (Elt F))).Forall fun op =>
    op.writes ⊆ (seg12_W.map (Proc.devRef (τ := τ) .tc)).toFinset := by
  simp only [List.Forall]
  exact ⟨(by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide))⟩
/-- A buffer segment 12 does not write keeps its contents through it. -/
theorem seg12_keep (W : Valuation τ sig (Elt F)) (r : Ref sig .tc) (h : r ∉ seg12_W) :
    after seg12 W (Proc.devRef .tc r) = W (Proc.devRef .tc r) :=
  after_of_writes_sub seg12 W seg12_writes h

/-! ## What each segment computes, from arbitrary contents -/

attribute [local irreducible] Host.reduce Host.reduceAdd Host.gather Host.scatterAdd Host.exp Host.divf Host.rsqrt

/-- After the first segment, `%9` holds the five normalised weights of the coefficients in `%arg3`. -/
theorem seg0_v9 (W : Valuation τ sig (Elt F)) :
    after seg0 W (Proc.devRef .tc main_v9) = softT (W (Proc.devRef .tc main_arg3)) := by
  after_results_simp
  try simp only [TRef.toBuf, TRef.ofBuf, cast_eq]
  try rfl

/-- After the second segment, `%14` holds the mask of the edges whose type in `%arg2` lies between one and five. -/
theorem seg1_v14 (W : Valuation τ sig (Elt F)) :
    after seg1 W (Proc.devRef .tc main_v14) = maskT (W (Proc.devRef .tc main_arg2)) := by
  after_results_simp
  try simp only [TRef.toBuf, TRef.ofBuf, cast_eq]
  try rfl

/-- After the second segment, `%17` (the result of @clip) holds the types in `%arg2` minus one, clamped between zero and four. -/
theorem seg1_v17 (W : Valuation τ sig (Elt F)) :
    after seg1 W (Proc.devRef .tc main_v17) = clipT (W (Proc.devRef .tc main_arg2)) := by
  after_results_simp
  try simp only [TRef.toBuf, TRef.ofBuf, cast_eq]
  try rfl

/-- After the third segment, `%25` (the result of @_where) holds, per edge, the weight gathered from `%9` at the wrapped index `%17` where the mask `%14` holds, and the word zero elsewhere. -/
theorem seg2_v25 (W : Valuation τ sig (Elt F)) :
    after seg2 W (Proc.devRef .tc main_v25) = select (W (Proc.devRef .tc main_v14)) (Host.gather gather_S5_S1600000x1_S1600000_n_0_n_n_0_1_1 (W (Proc.devRef .tc main_v9)) (broadcastInDim S1600000x1 ![0] bcast_S1600000_S1600000x1_0 (wrapT 5#32 (W (Proc.devRef .tc main_v17))))) (broadcastInDim S1600000 ![] bcast_S_S1600000 (id (constant S_ .f32 0x00000000#32))) := by
  after_results_simp
  try simp only [TRef.toBuf, TRef.ofBuf, cast_eq]
  try rfl

/-- After the fourth segment, `%27` holds row zero of the edge table `%arg1`. -/
theorem seg3_v27 (W : Valuation τ sig (Elt F)) :
    after seg3 W (Proc.devRef .tc main_v27) = edgeRowT 0 slices_S2x1600000_S1x1600000_0_0 (W (Proc.devRef .tc main_arg1)) := by
  after_results_simp
  try simp only [TRef.toBuf, TRef.ofBuf, cast_eq]
  try rfl

/-- After the fourth segment, `%39` holds the messages: the edge weights `%25` repeated along the features, times the rows of `%arg0` gathered at row one of the edge table, wrapped. -/
theorem seg3_v39 (W : Valuation τ sig (Elt F)) :
    after seg3 W (Proc.devRef .tc main_v39) = mulf (broadcastInDim S1600000x128 ![0, 1] bcast_S1600000x1_S1600000x128_0_1 (broadcastInDim S1600000x1 ![0] bcast_S1600000_S1600000x1_0 (W (Proc.devRef .tc main_v25)))) (Host.gather gather_S100000x128_S1600000x1_S1600000x128_1_0_n_n_0_1_1128 (W (Proc.devRef .tc main_arg0)) (broadcastInDim S1600000x1 ![0] bcast_S1600000_S1600000x1_0 (wrapT 100000#32 (edgeRowT 1 slices_S2x1600000_S1x1600000_1_0 (W (Proc.devRef .tc main_arg1)))))) := by
  after_results_simp
  try simp only [TRef.toBuf, TRef.ofBuf, cast_eq]
  try rfl

/-- After the fifth segment, `%47` holds the scatter-add of the messages `%39` into the zero table at the wrapped target rows `%27`. -/
theorem seg4_v47 (W : Valuation τ sig (Elt F)) :
    after seg4 W (Proc.devRef .tc main_v47) = Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 (wrapT 100000#32 (W (Proc.devRef .tc main_v27)))) (W (Proc.devRef .tc main_v39)) := by
  after_results_simp
  try simp only [TRef.toBuf, TRef.ofBuf, cast_eq]
  try rfl

/-- After the sixth segment, `%54` holds the first dense map of the layer input (the features `%arg0` and the aggregate `%47` combined) with the matrix `%arg4` and the bias `%arg5`. -/
theorem seg5_v54 (W : Valuation τ sig (Elt F)) :
    after seg5 W (Proc.devRef .tc main_v54) = denseT (combT (W (Proc.devRef .tc main_arg0)) (W (Proc.devRef .tc main_v47))) (W (Proc.devRef .tc main_arg4)) (W (Proc.devRef .tc main_arg5)) := by
  after_results_simp
  try simp only [TRef.toBuf, TRef.ofBuf, cast_eq]
  try rfl

/-- After the seventh segment, `%57` holds the column means of `%54`. -/
theorem seg6_v57 (W : Valuation τ sig (Elt F)) :
    after seg6 W (Proc.devRef .tc main_v57) = meanT (W (Proc.devRef .tc main_v54)) := by
  after_results_simp
  try simp only [TRef.toBuf, TRef.ofBuf, cast_eq]
  try rfl

/-- After the seventh segment, `%c_17` holds the integer zero. -/
theorem seg6_c17 (W : Valuation τ sig (Elt F)) :
    after seg6 W (Proc.devRef .tc main_c_17) = constantI S_ 32 0#32 := by
  after_results_simp
  try simp only [TRef.toBuf, TRef.ofBuf, cast_eq]
  try rfl

/-- After the eighth segment, `%58` (the result of @_var, through @_where_0) holds the column variances of `%54` at the correction `%c_17`. -/
theorem seg7_v58 (W : Valuation τ sig (Elt F)) :
    after seg7 W (Proc.devRef .tc main_v58) = varOfT (W (Proc.devRef .tc main_v54)) (W (Proc.devRef .tc main_c_17)) := by
  after_results_simp
  try simp only [TRef.toBuf, TRef.ofBuf, cast_eq]
  try rfl

/-- After the ninth segment, `%74` (the result of @relu) holds the normalisation of `%54` by the means `%57` and variances `%58` with scale `%arg6` and shift `%arg7`, followed by the maximum with zero. -/
theorem seg8_v74 (W : Valuation τ sig (Elt F)) :
    after seg8 W (Proc.devRef .tc main_v74) = maximumf (addf (mulf (mulf (rowsT (W (Proc.devRef .tc main_arg6))) (subf (W (Proc.devRef .tc main_v54)) (rowsT (W (Proc.devRef .tc main_v57))))) (rowsT (Host.rsqrt (addf (W (Proc.devRef .tc main_v58)) (broadcastInDim S128 ![] bcast_S_S128 (constant S_ .f32 0x3727C5AC#32)))))) (rowsT (W (Proc.devRef .tc main_arg7)))) (broadcastInDim S100000x128 ![] bcast_S_S100000x128 (constant S_ .f32 0x00000000#32)) := by
  after_results_simp
  try simp only [TRef.toBuf, TRef.ofBuf, cast_eq]
  try rfl

/-- After the tenth segment, `%78` holds the second dense map, of `%74` with the matrix `%arg8` and the bias `%arg9`. -/
theorem seg9_v78 (W : Valuation τ sig (Elt F)) :
    after seg9 W (Proc.devRef .tc main_v78) = denseT (W (Proc.devRef .tc main_v74)) (W (Proc.devRef .tc main_arg8)) (W (Proc.devRef .tc main_arg9)) := by
  after_results_simp
  try simp only [TRef.toBuf, TRef.ofBuf, cast_eq]
  try rfl

/-- After the eleventh segment, `%81` holds the column means of `%78`. -/
theorem seg10_v81 (W : Valuation τ sig (Elt F)) :
    after seg10 W (Proc.devRef .tc main_v81) = meanT (W (Proc.devRef .tc main_v78)) := by
  after_results_simp
  try simp only [TRef.toBuf, TRef.ofBuf, cast_eq]
  try rfl

/-- After the eleventh segment, `%c_21` holds the integer zero. -/
theorem seg10_c21 (W : Valuation τ sig (Elt F)) :
    after seg10 W (Proc.devRef .tc main_c_21) = constantI S_ 32 0#32 := by
  after_results_simp
  try simp only [TRef.toBuf, TRef.ofBuf, cast_eq]
  try rfl

/-- After the twelfth segment, `%82` (the result of @_var, through @_where_0) holds the column variances of `%78` at the correction `%c_21`. -/
theorem seg11_v82 (W : Valuation τ sig (Elt F)) :
    after seg11 W (Proc.devRef .tc main_v82) = varOfT (W (Proc.devRef .tc main_v78)) (W (Proc.devRef .tc main_c_21)) := by
  after_results_simp
  try simp only [TRef.toBuf, TRef.ofBuf, cast_eq]
  try rfl

/-- After the last segment, `%98` (the result of @relu, the program's result) holds the normalisation of `%78` by the means `%81` and variances `%82` with scale `%arg10` and shift `%arg11`, followed by the maximum with zero. -/
theorem seg12_v98 (W : Valuation τ sig (Elt F)) :
    after seg12 W (Proc.devRef .tc main_v98) = maximumf (addf (mulf (mulf (rowsT (W (Proc.devRef .tc main_arg10))) (subf (W (Proc.devRef .tc main_v78)) (rowsT (W (Proc.devRef .tc main_v81))))) (rowsT (Host.rsqrt (addf (W (Proc.devRef .tc main_v82)) (broadcastInDim S128 ![] bcast_S_S128 (constant S_ .f32 0x3727C5AC#32)))))) (rowsT (W (Proc.devRef .tc main_arg11)))) (broadcastInDim S100000x128 ![] bcast_S_S100000x128 (constant S_ .f32 0x00000000#32)) := by
  after_results_simp
  try simp only [TRef.toBuf, TRef.ofBuf, cast_eq]
  try rfl

/-! ## The thirteen segments chained -/

/-- The buffers written by the first `k` segments, `k = 1 … 13`. -/
abbrev P1 : List (Ref sig .tc) := seg0_W
abbrev P2 : List (Ref sig .tc) := P1 ++ seg1_W
abbrev P3 : List (Ref sig .tc) := P2 ++ seg2_W
abbrev P4 : List (Ref sig .tc) := P3 ++ seg3_W
abbrev P5 : List (Ref sig .tc) := P4 ++ seg4_W
abbrev P6 : List (Ref sig .tc) := P5 ++ seg5_W
abbrev P7 : List (Ref sig .tc) := P6 ++ seg6_W
abbrev P8 : List (Ref sig .tc) := P7 ++ seg7_W
abbrev P9 : List (Ref sig .tc) := P8 ++ seg8_W
abbrev P10 : List (Ref sig .tc) := P9 ++ seg9_W
abbrev P11 : List (Ref sig .tc) := P10 ++ seg10_W
abbrev P12 : List (Ref sig .tc) := P11 ++ seg11_W
abbrev P13 : List (Ref sig .tc) := P12 ++ seg12_W

/-- The contents after the first `k` segments from contents `W`, `k = 1 … 13`. -/
def V1 (W : Valuation τ sig (Elt F)) : Valuation τ sig (Elt F) := after seg0 W
def V2 (W : Valuation τ sig (Elt F)) : Valuation τ sig (Elt F) := after seg1 (V1 W)
def V3 (W : Valuation τ sig (Elt F)) : Valuation τ sig (Elt F) := after seg2 (V2 W)
def V4 (W : Valuation τ sig (Elt F)) : Valuation τ sig (Elt F) := after seg3 (V3 W)
def V5 (W : Valuation τ sig (Elt F)) : Valuation τ sig (Elt F) := after seg4 (V4 W)
def V6 (W : Valuation τ sig (Elt F)) : Valuation τ sig (Elt F) := after seg5 (V5 W)
def V7 (W : Valuation τ sig (Elt F)) : Valuation τ sig (Elt F) := after seg6 (V6 W)
def V8 (W : Valuation τ sig (Elt F)) : Valuation τ sig (Elt F) := after seg7 (V7 W)
def V9 (W : Valuation τ sig (Elt F)) : Valuation τ sig (Elt F) := after seg8 (V8 W)
def V10 (W : Valuation τ sig (Elt F)) : Valuation τ sig (Elt F) := after seg9 (V9 W)
def V11 (W : Valuation τ sig (Elt F)) : Valuation τ sig (Elt F) := after seg10 (V10 W)
def V12 (W : Valuation τ sig (Elt F)) : Valuation τ sig (Elt F) := after seg11 (V11 W)
def V13 (W : Valuation τ sig (Elt F)) : Valuation τ sig (Elt F) := after seg12 (V12 W)

/-- The contents after two lines of operations run one after the other are the contents after the second line,
    started from the contents after the first. -/
theorem after_append (a b : List (HloOp τ sig (Elt F))) (W : Valuation τ sig (Elt F)) :
    after (a ++ b) W = after b (after a W) := by
  induction a generalizing W with
  | nil => rfl
  | cons op a ih => rw [List.cons_append, after_cons, after_cons, ih]

/-- The whole line is its thirteen segments one after the other. -/
theorem after_ops (W : Valuation τ sig (Elt F)) : after ops W = V13 W := by
  simp only [ops, after_append]
  rfl

/-- A buffer none of the first segment writes keeps its contents. -/
theorem V1_keep (W : Valuation τ sig (Elt F)) (r : Ref sig .tc) (h : r ∉ P1) : V1 W (Proc.devRef .tc r) = W (Proc.devRef .tc r) :=
  seg0_keep W r h
/-- A buffer none of the first 2 segments writes keeps its contents through them. -/
theorem V2_keep (W : Valuation τ sig (Elt F)) (r : Ref sig .tc) (h : r ∉ P2) : V2 W (Proc.devRef .tc r) = W (Proc.devRef .tc r) :=
  (seg1_keep (V1 W) r fun h' => h (List.mem_append_right _ h')).trans
    (V1_keep W r fun h' => h (List.mem_append_left _ h'))
/-- A buffer none of the first 3 segments writes keeps its contents through them. -/
theorem V3_keep (W : Valuation τ sig (Elt F)) (r : Ref sig .tc) (h : r ∉ P3) : V3 W (Proc.devRef .tc r) = W (Proc.devRef .tc r) :=
  (seg2_keep (V2 W) r fun h' => h (List.mem_append_right _ h')).trans
    (V2_keep W r fun h' => h (List.mem_append_left _ h'))
/-- A buffer none of the first 4 segments writes keeps its contents through them. -/
theorem V4_keep (W : Valuation τ sig (Elt F)) (r : Ref sig .tc) (h : r ∉ P4) : V4 W (Proc.devRef .tc r) = W (Proc.devRef .tc r) :=
  (seg3_keep (V3 W) r fun h' => h (List.mem_append_right _ h')).trans
    (V3_keep W r fun h' => h (List.mem_append_left _ h'))
/-- A buffer none of the first 5 segments writes keeps its contents through them. -/
theorem V5_keep (W : Valuation τ sig (Elt F)) (r : Ref sig .tc) (h : r ∉ P5) : V5 W (Proc.devRef .tc r) = W (Proc.devRef .tc r) :=
  (seg4_keep (V4 W) r fun h' => h (List.mem_append_right _ h')).trans
    (V4_keep W r fun h' => h (List.mem_append_left _ h'))
/-- A buffer none of the first 6 segments writes keeps its contents through them. -/
theorem V6_keep (W : Valuation τ sig (Elt F)) (r : Ref sig .tc) (h : r ∉ P6) : V6 W (Proc.devRef .tc r) = W (Proc.devRef .tc r) :=
  (seg5_keep (V5 W) r fun h' => h (List.mem_append_right _ h')).trans
    (V5_keep W r fun h' => h (List.mem_append_left _ h'))
/-- A buffer none of the first 7 segments writes keeps its contents through them. -/
theorem V7_keep (W : Valuation τ sig (Elt F)) (r : Ref sig .tc) (h : r ∉ P7) : V7 W (Proc.devRef .tc r) = W (Proc.devRef .tc r) :=
  (seg6_keep (V6 W) r fun h' => h (List.mem_append_right _ h')).trans
    (V6_keep W r fun h' => h (List.mem_append_left _ h'))
/-- A buffer none of the first 8 segments writes keeps its contents through them. -/
theorem V8_keep (W : Valuation τ sig (Elt F)) (r : Ref sig .tc) (h : r ∉ P8) : V8 W (Proc.devRef .tc r) = W (Proc.devRef .tc r) :=
  (seg7_keep (V7 W) r fun h' => h (List.mem_append_right _ h')).trans
    (V7_keep W r fun h' => h (List.mem_append_left _ h'))
/-- A buffer none of the first 9 segments writes keeps its contents through them. -/
theorem V9_keep (W : Valuation τ sig (Elt F)) (r : Ref sig .tc) (h : r ∉ P9) : V9 W (Proc.devRef .tc r) = W (Proc.devRef .tc r) :=
  (seg8_keep (V8 W) r fun h' => h (List.mem_append_right _ h')).trans
    (V8_keep W r fun h' => h (List.mem_append_left _ h'))
/-- A buffer none of the first 10 segments writes keeps its contents through them. -/
theorem V10_keep (W : Valuation τ sig (Elt F)) (r : Ref sig .tc) (h : r ∉ P10) : V10 W (Proc.devRef .tc r) = W (Proc.devRef .tc r) :=
  (seg9_keep (V9 W) r fun h' => h (List.mem_append_right _ h')).trans
    (V9_keep W r fun h' => h (List.mem_append_left _ h'))
/-- A buffer none of the first 11 segments writes keeps its contents through them. -/
theorem V11_keep (W : Valuation τ sig (Elt F)) (r : Ref sig .tc) (h : r ∉ P11) : V11 W (Proc.devRef .tc r) = W (Proc.devRef .tc r) :=
  (seg10_keep (V10 W) r fun h' => h (List.mem_append_right _ h')).trans
    (V10_keep W r fun h' => h (List.mem_append_left _ h'))
/-- A buffer none of the first 12 segments writes keeps its contents through them. -/
theorem V12_keep (W : Valuation τ sig (Elt F)) (r : Ref sig .tc) (h : r ∉ P12) : V12 W (Proc.devRef .tc r) = W (Proc.devRef .tc r) :=
  (seg11_keep (V11 W) r fun h' => h (List.mem_append_right _ h')).trans
    (V11_keep W r fun h' => h (List.mem_append_left _ h'))
/-- A buffer none of the first 13 segments writes keeps its contents through them. -/
theorem V13_keep (W : Valuation τ sig (Elt F)) (r : Ref sig .tc) (h : r ∉ P13) : V13 W (Proc.devRef .tc r) = W (Proc.devRef .tc r) :=
  (seg12_keep (V12 W) r fun h' => h (List.mem_append_right _ h')).trans
    (V12_keep W r fun h' => h (List.mem_append_left _ h'))

/-- The aggregate, the two dense results and the first layer's output, as terms of the arguments' contents. -/
abbrev aggOf (W : Valuation τ sig (Elt F)) := aggT (W (Proc.devRef .tc main_arg0)) (W (Proc.devRef .tc main_arg1)) (W (Proc.devRef .tc main_arg2)) (W (Proc.devRef .tc main_arg3))
abbrev z1Of (W : Valuation τ sig (Elt F)) := denseT (combT (W (Proc.devRef .tc main_arg0)) (aggOf W)) (W (Proc.devRef .tc main_arg4)) (W (Proc.devRef .tc main_arg5))
abbrev h1Of (W : Valuation τ sig (Elt F)) := bnT (z1Of W) (W (Proc.devRef .tc main_arg6)) (W (Proc.devRef .tc main_arg7))
abbrev z2Of (W : Valuation τ sig (Elt F)) := denseT (h1Of W) (W (Proc.devRef .tc main_arg8)) (W (Proc.devRef .tc main_arg9))

/-- After segment 0, `%9` holds the normalised weights of `%arg3`. -/
theorem V1_v9 (W : Valuation τ sig (Elt F)) : V1 W (Proc.devRef .tc main_v9) = softT (W (Proc.devRef .tc main_arg3)) := seg0_v9 W

/-- After segments 0–1: the mask, the clamped types, and the weights still in `%9`. -/
theorem V2_v14 (W : Valuation τ sig (Elt F)) : V2 W (Proc.devRef .tc main_v14) = maskT (W (Proc.devRef .tc main_arg2)) :=
  (seg1_v14 (V1 W)).trans (by rw [V1_keep W main_arg2 (by decide)])
theorem V2_v17 (W : Valuation τ sig (Elt F)) : V2 W (Proc.devRef .tc main_v17) = clipT (W (Proc.devRef .tc main_arg2)) :=
  (seg1_v17 (V1 W)).trans (by rw [V1_keep W main_arg2 (by decide)])
theorem V2_v9 (W : Valuation τ sig (Elt F)) : V2 W (Proc.devRef .tc main_v9) = softT (W (Proc.devRef .tc main_arg3)) :=
  (seg1_keep (V1 W) main_v9 (by decide)).trans (V1_v9 W)

/-- After segments 0–2, `%25` holds every edge's weight. -/
theorem V3_v25 (W : Valuation τ sig (Elt F)) : V3 W (Proc.devRef .tc main_v25) = edgeWT (W (Proc.devRef .tc main_arg2)) (W (Proc.devRef .tc main_arg3)) :=
  (seg2_v25 (V2 W)).trans (by rw [V2_v14, V2_v9, V2_v17]; rfl)

/-- After segments 0–3: the target rows and the messages. -/
theorem V4_v27 (W : Valuation τ sig (Elt F)) : V4 W (Proc.devRef .tc main_v27) = edgeRowT 0 slices_S2x1600000_S1x1600000_0_0 (W (Proc.devRef .tc main_arg1)) :=
  (seg3_v27 (V3 W)).trans (by rw [V3_keep W main_arg1 (by decide)])
theorem V4_v39 (W : Valuation τ sig (Elt F)) : V4 W (Proc.devRef .tc main_v39) = msgT (W (Proc.devRef .tc main_arg0)) (W (Proc.devRef .tc main_arg1)) (W (Proc.devRef .tc main_arg2)) (W (Proc.devRef .tc main_arg3)) :=
  (seg3_v39 (V3 W)).trans (by rw [V3_v25, V3_keep W main_arg0 (by decide), V3_keep W main_arg1 (by decide)]; rfl)

/-- After segments 0–4, `%47` holds the aggregated messages. -/
theorem V5_v47 (W : Valuation τ sig (Elt F)) : V5 W (Proc.devRef .tc main_v47) = aggOf W :=
  (seg4_v47 (V4 W)).trans (by rw [V4_v27, V4_v39]; rfl)

/-- After segments 0–5, `%54` holds the first dense result. -/
theorem V6_v54 (W : Valuation τ sig (Elt F)) : V6 W (Proc.devRef .tc main_v54) = z1Of W :=
  (seg5_v54 (V5 W)).trans (by rw [V5_v47, V5_keep W main_arg0 (by decide), V5_keep W main_arg4 (by decide), V5_keep W main_arg5 (by decide)])

/-- After segments 0–6: the first layer's means, the correction zero, and the dense result still in `%54`. -/
theorem V7_v57 (W : Valuation τ sig (Elt F)) : V7 W (Proc.devRef .tc main_v57) = meanT (z1Of W) :=
  (seg6_v57 (V6 W)).trans (by rw [V6_v54])
theorem V7_c17 (W : Valuation τ sig (Elt F)) : V7 W (Proc.devRef .tc main_c_17) = constantI S_ 32 0#32 := seg6_c17 (V6 W)
theorem V7_v54 (W : Valuation τ sig (Elt F)) : V7 W (Proc.devRef .tc main_v54) = z1Of W :=
  (seg6_keep (V6 W) main_v54 (by decide)).trans (V6_v54 W)

/-- After segments 0–7: the first layer's variances, with the means and the dense result kept. -/
theorem V8_v58 (W : Valuation τ sig (Elt F)) : V8 W (Proc.devRef .tc main_v58) = varT (z1Of W) :=
  (seg7_v58 (V7 W)).trans (by rw [V7_v54, V7_c17]; rfl)
theorem V8_v57 (W : Valuation τ sig (Elt F)) : V8 W (Proc.devRef .tc main_v57) = meanT (z1Of W) :=
  (seg7_keep (V7 W) main_v57 (by decide)).trans (V7_v57 W)
theorem V8_v54 (W : Valuation τ sig (Elt F)) : V8 W (Proc.devRef .tc main_v54) = z1Of W :=
  (seg7_keep (V7 W) main_v54 (by decide)).trans (V7_v54 W)

/-- After segments 0–8, `%74` holds the first layer's output. -/
theorem V9_v74 (W : Valuation τ sig (Elt F)) : V9 W (Proc.devRef .tc main_v74) = h1Of W :=
  (seg8_v74 (V8 W)).trans (by rw [V8_v54, V8_v57, V8_v58, V8_keep W main_arg6 (by decide), V8_keep W main_arg7 (by decide)]; rfl)

/-- After segments 0–9, `%78` holds the second dense result. -/
theorem V10_v78 (W : Valuation τ sig (Elt F)) : V10 W (Proc.devRef .tc main_v78) = z2Of W :=
  (seg9_v78 (V9 W)).trans (by rw [V9_v74, V9_keep W main_arg8 (by decide), V9_keep W main_arg9 (by decide)])

/-- After segments 0–10: the second layer's means, the correction zero, and the dense result still in `%78`. -/
theorem V11_v81 (W : Valuation τ sig (Elt F)) : V11 W (Proc.devRef .tc main_v81) = meanT (z2Of W) :=
  (seg10_v81 (V10 W)).trans (by rw [V10_v78])
theorem V11_c21 (W : Valuation τ sig (Elt F)) : V11 W (Proc.devRef .tc main_c_21) = constantI S_ 32 0#32 := seg10_c21 (V10 W)
theorem V11_v78 (W : Valuation τ sig (Elt F)) : V11 W (Proc.devRef .tc main_v78) = z2Of W :=
  (seg10_keep (V10 W) main_v78 (by decide)).trans (V10_v78 W)

/-- After segments 0–11: the second layer's variances, with the means and the dense result kept. -/
theorem V12_v82 (W : Valuation τ sig (Elt F)) : V12 W (Proc.devRef .tc main_v82) = varT (z2Of W) :=
  (seg11_v82 (V11 W)).trans (by rw [V11_v78, V11_c21]; rfl)
theorem V12_v81 (W : Valuation τ sig (Elt F)) : V12 W (Proc.devRef .tc main_v81) = meanT (z2Of W) :=
  (seg11_keep (V11 W) main_v81 (by decide)).trans (V11_v81 W)
theorem V12_v78 (W : Valuation τ sig (Elt F)) : V12 W (Proc.devRef .tc main_v78) = z2Of W :=
  (seg11_keep (V11 W) main_v78 (by decide)).trans (V11_v78 W)

/-- After all thirteen segments, `%98` holds the second layer's output. -/
theorem V13_v98 (W : Valuation τ sig (Elt F)) : V13 W (Proc.devRef .tc main_v98) = bnT (z2Of W) (W (Proc.devRef .tc main_arg10)) (W (Proc.devRef .tc main_arg11)) :=
  (seg12_v98 (V12 W)).trans (by rw [V12_v78, V12_v81, V12_v82, V12_keep W main_arg10 (by decide), V12_keep W main_arg11 (by decide)]; rfl)

/-! ## The result and the arguments -/

/-- From arbitrary contents `W`, after the program's 177 operations the result buffer `%98` holds: the aggregated
    neighbour messages of the features `%arg0` over the edge table `%arg1`, the edge types `%arg2` and the
    coefficients `%arg3`; combined with the features; through the dense map with `%arg4`, `%arg5` and the batch
    normalisation with `%arg6`, `%arg7` followed by the maximum with zero; and once more through the dense map with
    `%arg8`, `%arg9` and the normalisation with `%arg10`, `%arg11`. The second layer is the same two functions
    as the first. -/
theorem result_term (W : Valuation τ sig (Elt F)) :
    StableHlo.after ops W (Proc.devRef .tc main_v98)
      = bnT (denseT (bnT (denseT (combT (W (Proc.devRef .tc main_arg0)) (aggT (W (Proc.devRef .tc main_arg0)) (W (Proc.devRef .tc main_arg1)) (W (Proc.devRef .tc main_arg2)) (W (Proc.devRef .tc main_arg3)))) (W (Proc.devRef .tc main_arg4)) (W (Proc.devRef .tc main_arg5))) (W (Proc.devRef .tc main_arg6)) (W (Proc.devRef .tc main_arg7))) (W (Proc.devRef .tc main_arg8)) (W (Proc.devRef .tc main_arg9))) (W (Proc.devRef .tc main_arg10)) (W (Proc.devRef .tc main_arg11)) :=
  (congrFun (after_ops W) _).trans (V13_v98 W)

/-- No operation of the program writes an argument buffer: from arbitrary contents `W`, a buffer that none of the
    177 operations writes holds after them what it held. -/
theorem ops_keep (W : Valuation τ sig (Elt F)) (r : Ref sig .tc) (h : r ∉ P13) :
    StableHlo.after ops W (Proc.devRef .tc r) = W (Proc.devRef .tc r) :=
  (congrFun (after_ops W) _).trans (V13_keep W r h)

/-- The argument `%arg0` holds after the program what it held before. -/
theorem arg0_kept (W : Valuation τ sig (Elt F)) : StableHlo.after ops W (Proc.devRef .tc main_arg0) = W (Proc.devRef .tc main_arg0) :=
  ops_keep W main_arg0 (by decide)
/-- The argument `%arg1` holds after the program what it held before. -/
theorem arg1_kept (W : Valuation τ sig (Elt F)) : StableHlo.after ops W (Proc.devRef .tc main_arg1) = W (Proc.devRef .tc main_arg1) :=
  ops_keep W main_arg1 (by decide)
/-- The argument `%arg2` holds after the program what it held before. -/
theorem arg2_kept (W : Valuation τ sig (Elt F)) : StableHlo.after ops W (Proc.devRef .tc main_arg2) = W (Proc.devRef .tc main_arg2) :=
  ops_keep W main_arg2 (by decide)
/-- The argument `%arg3` holds after the program what it held before. -/
theorem arg3_kept (W : Valuation τ sig (Elt F)) : StableHlo.after ops W (Proc.devRef .tc main_arg3) = W (Proc.devRef .tc main_arg3) :=
  ops_keep W main_arg3 (by decide)
/-- The argument `%arg4` holds after the program what it held before. -/
theorem arg4_kept (W : Valuation τ sig (Elt F)) : StableHlo.after ops W (Proc.devRef .tc main_arg4) = W (Proc.devRef .tc main_arg4) :=
  ops_keep W main_arg4 (by decide)
/-- The argument `%arg5` holds after the program what it held before. -/
theorem arg5_kept (W : Valuation τ sig (Elt F)) : StableHlo.after ops W (Proc.devRef .tc main_arg5) = W (Proc.devRef .tc main_arg5) :=
  ops_keep W main_arg5 (by decide)
/-- The argument `%arg6` holds after the program what it held before. -/
theorem arg6_kept (W : Valuation τ sig (Elt F)) : StableHlo.after ops W (Proc.devRef .tc main_arg6) = W (Proc.devRef .tc main_arg6) :=
  ops_keep W main_arg6 (by decide)
/-- The argument `%arg7` holds after the program what it held before. -/
theorem arg7_kept (W : Valuation τ sig (Elt F)) : StableHlo.after ops W (Proc.devRef .tc main_arg7) = W (Proc.devRef .tc main_arg7) :=
  ops_keep W main_arg7 (by decide)
/-- The argument `%arg8` holds after the program what it held before. -/
theorem arg8_kept (W : Valuation τ sig (Elt F)) : StableHlo.after ops W (Proc.devRef .tc main_arg8) = W (Proc.devRef .tc main_arg8) :=
  ops_keep W main_arg8 (by decide)
/-- The argument `%arg9` holds after the program what it held before. -/
theorem arg9_kept (W : Valuation τ sig (Elt F)) : StableHlo.after ops W (Proc.devRef .tc main_arg9) = W (Proc.devRef .tc main_arg9) :=
  ops_keep W main_arg9 (by decide)
/-- The argument `%arg10` holds after the program what it held before. -/
theorem arg10_kept (W : Valuation τ sig (Elt F)) : StableHlo.after ops W (Proc.devRef .tc main_arg10) = W (Proc.devRef .tc main_arg10) :=
  ops_keep W main_arg10 (by decide)
/-- The argument `%arg11` holds after the program what it held before. -/
theorem arg11_kept (W : Valuation τ sig (Elt F)) : StableHlo.after ops W (Proc.devRef .tc main_arg11) = W (Proc.devRef .tc main_arg11) :=
  ops_keep W main_arg11 (by decide)

/-- The twelve arguments hold after the program what they held before. -/
theorem arg_kept (W : Valuation τ sig (Elt F)) (r : Ref sig .tc)
    (h : r ∈ [main_arg0, main_arg1, main_arg2, main_arg3, main_arg4, main_arg5, main_arg6, main_arg7, main_arg8, main_arg9,
      main_arg10, main_arg11]) :
    StableHlo.after ops W (Proc.devRef .tc r) = W (Proc.devRef .tc r) :=
  ops_keep W r (by revert r; decide)

end Cert.ReferenceIdeal.RefTerm

end
-- ==== Proof.RefRead.lean ====
/-
  The reference's dense stages read entry by entry at the extended reals.

  At the ideal values every float operation is its textbook one, so each composed stretch of the reference's host
  operations (`RefStages`) is, as a whole array, the corresponding function of the shared specification:
  the layer input is `one · X + A`, a dense map is the matrix product plus the bias on every row, and the batch
  normalisation followed by the maximum with zero is `normR`. The reading uses only: a `broadcast_in_dim` read at an
  index, a host sum over the rows read as the initial value plus a sum over the row coordinate, the word
  `0x47C35000` denoting `100000`, and `100000 − 0 = 100000 > 0`, so that the variance's guard always keeps the quotient.
-/
import proofs.«165747_j60928406061384_2_alg».proof.Proof.RefStages
import proofs.«165747_j60928406061384_2_alg».proof.Proof.Spec
import proofs.«165747_j60928406061384_2_alg».proof.Proof.LibMatProd
import proofs.«165747_j60928406061384_2_alg».proof.Proof.LibPlainDot
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.ReferenceIdeal.RefRead

open Idealize.ShloMosaic Idealize.ShloMosaic.ValueIdx Cert.Linear Cert.Spec
open Cert.ReferenceIdeal Cert.ReferenceIdeal.Facts₀ Cert.ReferenceIdeal.RefStages

/-! ## Layout operations read at an index -/

/-- A rank-zero array repeated over any shape holds its one entry everywhere. -/
theorem splat_apply {α : Type} {t : Shape} (h : (⟨0, ![]⟩ : Shape).BroadcastsInDim t ![])
    (x : (⟨0, ![]⟩ : Shape).Idx → α) (j : t.Idx) : broadcastInDim t ![] h x j = x ix0 :=
  broadcastInDim_apply ![] h x j ix0 fun a => a.elim0

/-- A vector of `K` entries made a one-row matrix holds entry `q` at `(0, q)`. -/
theorem row_apply {α : Type} {K : Nat} (b : (⟨1, ![K]⟩ : Shape).Idx → α)
    (h1 : (⟨1, ![K]⟩ : Shape).BroadcastsInDim (Mat 1 K) ![1]) (q : Fin K) :
    broadcastInDim (Mat 1 K) ![1] h1 b (ix2 (0 : Fin 1) q) = b (ix1 q) :=
  broadcastInDim_apply ![1] h1 b (ix2 (0 : Fin 1) q) (ix1 q) fun a => by
    match a with
    | ⟨0, _⟩ =>
      show q.val = if K = 1 then 0 else q.val
      split
      · have := q.isLt; omega
      · rfl

/-- A one-row matrix repeated on `R` rows holds at `(p, q)` the row's entry `(0, q)`. -/
theorem allrows_apply {α : Type} {R K : Nat} (v : (Mat 1 K).Idx → α)
    (h2 : (Mat 1 K).BroadcastsInDim (Mat R K) ![0, 1]) (p : Fin R) (q : Fin K) :
    broadcastInDim (Mat R K) ![0, 1] h2 v (ix2 p q) = v (ix2 (0 : Fin 1) q) :=
  broadcastInDim_apply ![0, 1] h2 v (ix2 p q) (ix2 (0 : Fin 1) q) fun a => by
    match a with
    | ⟨0, _⟩ => rfl
    | ⟨1, _⟩ =>
      show q.val = if K = 1 then 0 else q.val
      split
      · have := q.isLt; omega
      · rfl

/-- A vector of 128 entries repeated on every row holds entry `q` at `(r, q)`. -/
theorem rowsT_apply (v : FVec Ideal S128 .f32) (r : Fin 100000) (q : Fin 128) :
    rowsT (F := Ideal) v (ix2 r q) = v (ix1 q) := by
  unfold rowsT
  rw [allrows_apply, row_apply]

/-- The host sum of an `a × b` array over its rows is, at column `c`, the initial value plus the sum over the rows
    `r` of the entries `(r, c)`. -/
theorem hostReduceAdd_cols {a b : ℕ} (x : (Mat a b).Idx → EReal) (init : EReal)
    (h' : (Mat a b).ReducesTo [0] ⟨1, ![b]⟩) (c : Fin b) :
    Ideal.hostReduceAdd h' x init (ix1 c) = init + ∑ r : Fin a, x (ix2 r c) := by
  have h : (Mat a b).Reduces [0] ⟨1, ![b]⟩ := ⟨h'.1, Nat.one_pos, h'.2⟩
  refine (Ideal.hostReduceAdd_single h' h x init (ix1 c)).trans ?_
  congr 1
  refine Finset.sum_congr rfl fun r _ => congrArg x (funext fun ax => Fin.ext ?_)
  rw [h.lift_val]
  unfold Shape.Reduces.liftVal
  match ax with
  | ⟨0, _⟩ => rfl
  | ⟨1, _⟩ => rfl

/-! ## The literal facts -/

/-- The word `0x47C35000` denotes the real number `100000`. -/
theorem countW_eq : countW = ((100000 : ℝ) : EReal) := by
  unfold countW
  simp [Ideal.ofBits, Ideal.ieee, -EReal.coe_mul]; norm_num

/-- The variance's normaliser at the correction zero is the word `100000` itself: `100000 − 0`. -/
theorem normT_zero : normT (F := Ideal) (constantI S_ 32 0#32) ix0 = countW := by
  show countW - (((0#32 : BitVec 32).toInt : ℝ) : EReal) = countW
  have h0 : (0#32 : BitVec 32).toInt = 0 := by decide
  rw [h0, Int.cast_zero, EReal.coe_zero, sub_zero]

/-- `100000` is greater than the word zero: the guard of the variance's quotient holds. -/
theorem guard_one : Ideal.cmp .ogt countW (Ideal.ofBits .f32 0x00000000#32) = 1#1 := by
  have h : Ideal.ofBits .f32 0x00000000#32 < countW := by
    rw [Ideal.ofBits_zero_f32, countW_eq]
    exact_mod_cast (by norm_num : (0 : ℝ) < 100000)
  show BitVec.ofBool (decide (Ideal.ofBits .f32 0x00000000#32 < countW)) = 1#1
  rw [decide_eq_true h]
  rfl

/-! ## The stages as whole arrays -/

/-- The layer input is `one · x + a`, entry by entry. -/
theorem combT_eq (x a : FVec Ideal S100000x128 .f32) : combT (F := Ideal) x a = Cert.Spec.combine x a := by
  funext i
  show broadcastInDim S100000x128 ![] bcast_S_S100000x128 (constant (F := Ideal) S_ .f32 0x3F800000#32) i * x i + a i
    = oneW * x i + a i
  rw [splat_apply]
  rfl

/-- The program's dimension numbers of the matrix product contract the left operand's columns with the right
    operand's rows. -/
theorem contracts_dot : Contracts (R := 100000) (K := 128) (N := 128) dot_S100000x128_S128x128_S100000x128_1_0_0_1_n_n :=
  contracts_plain 100000 128 128

/-- A dense map is the matrix product plus the bias on every row. -/
theorem denseT_eq (h : FVec Ideal S100000x128 .f32) (w : FVec Ideal S128x128 .f32) (b : FVec Ideal S128 .f32) :
    denseT (F := Ideal) h w b = Cert.Spec.dense h w b := by
  funext i
  obtain ⟨r, q, rfl⟩ : ∃ (r : Fin 100000) (q : Fin 128), i = ix2 r q := ⟨i 0, i 1, eq_ix2 i⟩
  show FloatOps.dotGeneral dot_S100000x128_S128x128_S100000x128_1_0_0_1_n_n none .single h w (ix2 r q)
      + rowsT (F := Ideal) b (ix2 r q) = matProd h w (ix2 r q) + b (ix1 q)
  rw [dotGeneral_eq contracts_dot, rowsT_apply]

/-- The column means of the normalisation are the specification's. -/
theorem meanT_apply (z : FVec Ideal S100000x128 .f32) (q : Fin 128) : meanT (F := Ideal) z (ix1 q) = meanR z q := by
  show Ideal.div (Ideal.hostReduceAdd reducesTo_S100000x128_S128_d0 z (Ideal.ofBits .f32 0x00000000#32) (ix1 q))
      (broadcastInDim S128 ![] bcast_S_S128 (constant (F := Ideal) S_ .f32 0x47C35000#32) (ix1 q)) = meanR z q
  rw [hostReduceAdd_cols, splat_apply]
  rfl

/-- The deviations inside the variance are the entries minus the specification's column means. -/
theorem devT_apply (z : FVec Ideal S100000x128 .f32) (r : Fin 100000) (q : Fin 128) :
    devT (F := Ideal) z (ix2 r q) = z (ix2 r q) - meanR z q := by
  unfold devT
  show z (ix2 r q) - broadcastInDim S100000x128 ![0, 1] bcast_S1x128_S100000x128_0_1
      (Host.divf
        (broadcastInDim S1x128 ![1] bcast_S128_S1x128_1
          (Host.reduceAdd z (constant (F := Ideal) S_ .f32 0x00000000#32) reducesTo_S100000x128_S128_d0 h_S_))
        (broadcastInDim S1x128 ![] bcast_S_S1x128 (constant (F := Ideal) S_ .f32 0x47C35000#32))) (ix2 r q) = _
  rw [allrows_apply]
  show z (ix2 r q) - Ideal.div
      (broadcastInDim S1x128 ![1] bcast_S128_S1x128_1
        (Ideal.hostReduceAdd reducesTo_S100000x128_S128_d0 z (Ideal.ofBits .f32 0x00000000#32)) (ix2 (0 : Fin 1) q))
      (broadcastInDim S1x128 ![] bcast_S_S1x128 (constant (F := Ideal) S_ .f32 0x47C35000#32) (ix2 (0 : Fin 1) q)) = _
  rw [row_apply, hostReduceAdd_cols, splat_apply]
  rfl

/-- The variance of the normalisation is the specification's: the guard holds, so the quotient is kept. -/
theorem varT_apply (z : FVec Ideal S100000x128 .f32) (q : Fin 128) : varT (F := Ideal) z (ix1 q) = varR z q := by
  unfold varT varOfT
  show Scalar.select
      (broadcastInDim S128 ![] bcast_S_S128
        (cmpf .ogt (normT (F := Ideal) (constantI S_ 32 0#32)) (constant S_ .f32 0x00000000#32)) (ix1 q))
      (Ideal.div
        (Ideal.hostReduceAdd reducesTo_S100000x128_S128_d0 (mulf (devT (F := Ideal) z) (devT z))
          (Ideal.ofBits .f32 0x00000000#32) (ix1 q))
        (broadcastInDim S128 ![] bcast_S_S128 (normT (F := Ideal) (constantI S_ 32 0#32)) (ix1 q)))
      (broadcastInDim S128 ![] bcast_S_S128 (id (constant (F := Ideal) S_ .f32 0x7FC00000#32)) (ix1 q)) = varR z q
  rw [splat_apply, splat_apply, splat_apply, hostReduceAdd_cols, normT_zero]
  show Scalar.select (Ideal.cmp .ogt (normT (F := Ideal) (constantI S_ 32 0#32) ix0) (Ideal.ofBits .f32 0x00000000#32)) _ _ = _
  rw [normT_zero, guard_one]
  show Ideal.div (Ideal.ofBits .f32 0x00000000#32 + ∑ r : Fin 100000, devT (F := Ideal) z (ix2 r q) * devT (F := Ideal) z (ix2 r q)) countW = varR z q
  simp only [devT_apply]
  rfl

/-- The batch normalisation followed by the maximum with zero is the specification's `normR`. -/
theorem bnT_eq (z : FVec Ideal S100000x128 .f32) (g bt : FVec Ideal S128 .f32) :
    bnT (F := Ideal) z g bt = Cert.Spec.normR z g bt := by
  funext i
  obtain ⟨r, q, rfl⟩ : ∃ (r : Fin 100000) (q : Fin 128), i = ix2 r q := ⟨i 0, i 1, eq_ix2 i⟩
  show max
      (rowsT (F := Ideal) g (ix2 r q) * (z (ix2 r q) - rowsT (F := Ideal) (meanT z) (ix2 r q))
          * rowsT (F := Ideal)
              (Host.rsqrt (addf (varT z) (broadcastInDim S128 ![] bcast_S_S128 (constant S_ .f32 0x3727C5AC#32)))) (ix2 r q)
        + rowsT (F := Ideal) bt (ix2 r q))
      (broadcastInDim S100000x128 ![] bcast_S_S100000x128 (constant (F := Ideal) S_ .f32 0x00000000#32) (ix2 r q))
    = normR z g bt (ix2 r q)
  rw [rowsT_apply, rowsT_apply, rowsT_apply, rowsT_apply, splat_apply]
  show max (g (ix1 q) * (z (ix2 r q) - meanT (F := Ideal) z (ix1 q))
        * Ideal.rsqrt (varT (F := Ideal) z (ix1 q)
            + broadcastInDim S128 ![] bcast_S_S128 (constant (F := Ideal) S_ .f32 0x3727C5AC#32) (ix1 q))
        + bt (ix1 q)) (Ideal.ofBits .f32 0x00000000#32) = normR z g bt (ix2 r q)
  rw [splat_apply, meanT_apply, varT_apply]
  rfl

end Cert.ReferenceIdeal.RefRead

end
-- ==== Proof.AggReal.lean ====
/-
  The aggregated messages are real numbers.

  First, closure of the real numbers under the operations of the sparse prefix, one lemma per operation. An array of
  extended reals is "all real" when every entry is the image of a real number, and "all positive" when every entry
  is the image of a positive real. Read at the ideal values: the maximum of all entries of a nonempty array of reals,
  started below plus infinity, is real; the elementwise maximum with minus infinity changes nothing; a broadcast, a gather and a
  select only re-read entries; differences and products of reals are real; the exponential of a real is a positive
  real; the sum of all entries of a nonempty array of positive reals, started from zero, is a positive real; a real divided by a
  positive real is real; and an entry of an accumulating scatter is the operand's entry plus a finite sum of update
  entries, hence real when both arrays are. In these lemmas all shapes and dimension records are arbitrary.

  Then the chain for the aggregation itself: with real node features and real edge-type scores, the shifted
  exponentials of the five scores are positive reals, so their sum is a positive real and the five normalised
  weights are real; every edge weight is one of those five or zero; every message is an edge weight times a node
  feature; and every aggregated entry is zero plus a finite sum of messages. Nothing is assumed of the integer
  arrays: whatever indices they hold, a gather reads some entry of its operand and a scatter adds finitely many
  updates.
-/
import proofs.«165747_j60928406061384_2_alg».proof.Proof.RefStages
import proofs.«165747_j60928406061384_2_alg».proof.Proof.Spec
import Idealize.ShloMosaic.PureOps.Ideal.Laws
import Idealize.ShloMosaic.PureOps.Reduce
import Idealize.ShloMosaic.PureOps.Contract

noncomputable section

open scoped BigOperators

namespace Cert.ReferenceIdeal.AggReal

open Idealize.ShloMosaic Cert.Spec

/-- Every entry is a positive real number. -/
def AllPos {S : Shape} (v : S.Idx → EReal) : Prop := ∀ i, ∃ r : ℝ, 0 < r ∧ v i = (r : EReal)

/-- Positive real entries are in particular real entries. -/
theorem AllPos.allReal {S : Shape} {v : S.Idx → EReal} (h : AllPos v) : AllReal v :=
  fun i => let ⟨r, _, hr⟩ := h i; ⟨r, hr⟩

/-! ## Words -/

/-- The float word of minus infinity denotes the bottom of the extended reals. -/
theorem ofBits_negInf : Ideal.ofBits .f32 0xFF800000#32 = ⊥ := by simp [Ideal.ofBits, Ideal.ieee]

/-- The splat of the minus-infinity word is bottom at every index. -/
theorem constant_negInf_apply {s : Shape} (i : s.Idx) :
    (constant s .f32 0xFF800000#32 : FVec Ideal s .f32) i = ⊥ := ofBits_negInf

/-- The splat of the zero word is zero at every index. -/
theorem constant_zero_apply {s : Shape} (i : s.Idx) :
    (constant s .f32 0x00000000#32 : FVec Ideal s .f32) i = 0 := Ideal.ofBits_zero_f32

/-- The splat of the zero word has real entries. -/
theorem allReal_constant_zero {s : Shape} : AllReal (constant s .f32 0x00000000#32 : FVec Ideal s .f32) :=
  fun i => ⟨0, by rw [constant_zero_apply, EReal.coe_zero]⟩

/-! ## Finite sums and maxima of reals -/

/-- A sum over a finite set of terms each of which is a real number is a real number. -/
theorem sum_real {ι : Type} (s : Finset ι) (f : ι → EReal) (h : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    obtain ⟨r, hr⟩ := h a (Finset.mem_insert_self a s)
    obtain ⟨q, hq⟩ := ih fun i hi => h i (Finset.mem_insert_of_mem hi)
    exact ⟨r + q, by rw [Finset.sum_insert ha, hr, hq, EReal.coe_add]⟩

/-- A sum over a finite set of positive reals is a nonnegative real, positive when the set is not empty. -/
theorem sum_pos_aux {ι : Type} (s : Finset ι) (f : ι → EReal) (h : ∀ i ∈ s, ∃ r : ℝ, 0 < r ∧ f i = (r : EReal)) :
    ∃ r : ℝ, 0 ≤ r ∧ (s.Nonempty → 0 < r) ∧ ∑ i ∈ s, f i = (r : EReal) := by
  classical
  induction s using Finset.induction_on with
  | empty => exact ⟨0, le_refl _, fun hne => absurd hne (by simp), by simp⟩
  | insert a s ha ih =>
    obtain ⟨r, hr0, hr⟩ := h a (Finset.mem_insert_self a s)
    obtain ⟨q, hq0, _, hq⟩ := ih fun i hi => h i (Finset.mem_insert_of_mem hi)
    exact ⟨r + q, by linarith, fun _ => by linarith, by rw [Finset.sum_insert ha, hr, hq, EReal.coe_add]⟩

/-- The fold of the maximum, from a start that is not plus infinity, over a nonempty finite set of reals is a real. -/
theorem fold_max_real {ι : Type} (s : Finset ι) (hs : s.Nonempty) (b : EReal) (hb : b ≠ ⊤) (f : ι → EReal)
    (h : ∀ i ∈ s, ∃ r : ℝ, f i = (r : EReal)) : ∃ r : ℝ, s.fold max b f = (r : EReal) := by
  have h1 : s.fold max b f < ⊤ := by
    rw [Finset.fold_max_lt]
    exact ⟨lt_top_iff_ne_top.mpr hb, fun i hi => by obtain ⟨r, hr⟩ := h i hi; rw [hr]; exact EReal.coe_lt_top r⟩
  have h2 : ⊥ < s.fold max b f := by
    rw [Finset.lt_fold_max]
    obtain ⟨i, hi⟩ := hs
    obtain ⟨r, hr⟩ := h i hi
    exact Or.inr ⟨i, hi, by rw [hr]; exact EReal.bot_lt_coe r⟩
  exact ⟨(s.fold max b f).toReal, (EReal.coe_toReal h1.ne h2.ne').symm⟩

/-! ## One closure lemma per operation -/

section Ops
variable {s t u : Shape}

/-- When the result has rank zero every index of the operand reduces to the one result index. -/
theorem drop_eq_of_rank_zero {axes : List (Fin s.rank)} (h : s.ReducesTo axes t) (ht : t.rank = 0) (i : s.Idx)
    (j : t.Idx) : h.drop i = j :=
  funext fun b => False.elim (by have := b.isLt; omega)

/-- The maximum over all entries of a nonempty array of reals, started from a value that is not plus infinity, is
    a real. -/
theorem allReal_reduceMax {axes : List (Fin s.rank)} (x : FVec Ideal s .f32) (init : FVec Ideal u .f32)
    (h : s.ReducesTo axes t) (hu : 0 < u.numel) (ht : t.rank = 0) (hs : 0 < s.numel)
    (hx : AllReal x) (hinit : ∀ i, init i ≠ ⊤) :
    AllReal (Host.reduce (FloatOps.maximumf (F := Ideal) (φ := .f32)) x init h hu) := by
  intro j
  rw [Host.reduce_eq_fold (FloatOps.maximumf (F := Ideal) (φ := .f32)) x init h hu j]
  refine fold_max_real _ ⟨Shape.Idx.first hs, ?_⟩ _ (hinit _) _ fun k _ => hx k
  exact Finset.mem_filter.mpr ⟨Finset.mem_univ _, drop_eq_of_rank_zero h ht _ j⟩

/-- The elementwise maximum with an array that is minus infinity everywhere changes nothing. -/
theorem allReal_maximumf_bot (c v : FVec Ideal s .f32) (hc : ∀ i, c i = ⊥) (hv : AllReal v) :
    AllReal (maximumf c v) := by
  intro i
  obtain ⟨r, hr⟩ := hv i
  exact ⟨r, by show max (c i) (v i) = _; rw [hc i, hr]; exact max_eq_right bot_le⟩

/-- Broadcasting re-reads entries of the operand. -/
theorem allReal_broadcastInDim (dims : Fin s.rank → Fin t.rank) (h : s.BroadcastsInDim t dims) (x : s.Idx → EReal)
    (hx : AllReal x) : AllReal (broadcastInDim t dims h x) := fun _ => hx _

theorem allPos_broadcastInDim (dims : Fin s.rank → Fin t.rank) (h : s.BroadcastsInDim t dims) (x : s.Idx → EReal)
    (hx : AllPos x) : AllPos (broadcastInDim t dims h x) := fun _ => hx _

/-- A difference of reals is real. -/
theorem allReal_subf (x y : FVec Ideal s .f32) (hx : AllReal x) (hy : AllReal y) : AllReal (subf x y) := by
  intro i
  obtain ⟨a, ha⟩ := hx i
  obtain ⟨b, hb⟩ := hy i
  exact ⟨a - b, by show x i - y i = _; rw [ha, hb, EReal.coe_sub]⟩

/-- A product of reals is real. -/
theorem allReal_mulf (x y : FVec Ideal s .f32) (hx : AllReal x) (hy : AllReal y) : AllReal (mulf x y) := by
  intro i
  obtain ⟨a, ha⟩ := hx i
  obtain ⟨b, hb⟩ := hy i
  exact ⟨a * b, by show x i * y i = _; rw [ha, hb, EReal.coe_mul]⟩

/-- The exponential of a real is a positive real. -/
theorem allPos_exp (x : FVec Ideal s .f32) (hx : AllReal x) : AllPos (Host.exp x) := by
  intro i
  obtain ⟨a, ha⟩ := hx i
  exact ⟨Real.exp a, Real.exp_pos a, by show Ideal.exp (x i) = _; rw [ha, Ideal.exp_coe]⟩

/-- The sum of all entries of a nonempty array of positive reals, started from zero, is a positive real. -/
theorem allPos_reduceAdd {axes : List (Fin s.rank)} (x : FVec Ideal s .f32) (init : FVec Ideal u .f32)
    (h : s.ReducesTo axes t) (hu : 0 < u.numel) (ht : t.rank = 0) (hs : 0 < s.numel)
    (hx : AllPos x) (hinit : ∀ i, init i = 0) : AllPos (Host.reduceAdd x init h hu) := by
  intro j
  show ∃ r : ℝ, 0 < r ∧ Ideal.hostReduceAdd h x (init (Shape.Idx.first hu)) j = (r : EReal)
  unfold Ideal.hostReduceAdd
  rw [hinit, zero_add]
  obtain ⟨r, _, hr, he⟩ := sum_pos_aux (Finset.univ.filter fun i => h.drop i = j) x fun k _ => hx k
  exact ⟨r, hr ⟨Shape.Idx.first hs, Finset.mem_filter.mpr ⟨Finset.mem_univ _, drop_eq_of_rank_zero h ht _ j⟩⟩, he⟩

/-- A real divided by a positive real is real. -/
theorem allReal_divf (x y : FVec Ideal s .f32) (hx : AllReal x) (hy : AllPos y) : AllReal (Host.divf x y) := by
  intro i
  obtain ⟨a, ha⟩ := hx i
  obtain ⟨b, hb0, hb⟩ := hy i
  exact ⟨a * (1 / b), by
    show Ideal.div (x i) (y i) = _
    rw [ha, hb, Ideal.div_coe hb0.ne', EReal.coe_mul]⟩

/-- An entry of a gather is an entry of its operand. -/
theorem allReal_gather {si : Shape} {w : Nat} (d : GatherDims s si t) (x : s.Idx → EReal) (idx : IVec si w)
    (hx : AllReal x) : AllReal (Host.gather d x idx) := fun _ => hx _

/-- A select between two arrays of reals is an array of reals. -/
theorem allReal_select (c : IVec s 1) (x y : s.Idx → EReal) (hx : AllReal x) (hy : AllReal y) :
    AllReal (select c x y) := by
  intro i
  show ∃ r : ℝ, Scalar.select (c i) (x i) (y i) = (r : EReal)
  unfold Scalar.select
  split
  · exact hx i
  · exact hy i

/-- The accumulating scatter's entry is the operand's entry plus a finite sum of update entries: real when both
    arrays are. -/
theorem allReal_scatterAdd {si : Shape} {w : Nat} (d : ScatterDims s si u) (x : FVec Ideal s .f32) (idx : IVec si w)
    (upd : FVec Ideal u .f32) (hx : AllReal x) (hupd : AllReal upd) : AllReal (Host.scatterAdd d x idx upd) := by
  intro i
  show ∃ r : ℝ, Ideal.hostScatterAdd d x idx upd i = (r : EReal)
  unfold Ideal.hostScatterAdd
  obtain ⟨a, ha⟩ := hx i
  obtain ⟨b, hb⟩ := sum_real (Finset.univ.filter fun j => d.resultIdx? j idx = some i) upd fun j _ => hupd j
  exact ⟨a + b, by rw [ha, hb, EReal.coe_add]⟩

end Ops

/-! ## The aggregation, stage by stage -/

section Chain

open Cert.ReferenceIdeal Cert.ReferenceIdeal.Facts₀ Cert.ReferenceIdeal.RefStages

/-- With real scores, the five exponentials of the scores minus their maximum are positive reals: the maximum of
    five reals is a real, so each difference is real and its exponential is positive. -/
theorem expT_pos (hc : FVec Ideal S5 .f32) (hh : AllReal hc) : AllPos (expT (F := Ideal) hc) := by
  unfold expT
  exact allPos_exp _ (allReal_subf _ _ hh (allReal_broadcastInDim _ _ _ (allReal_broadcastInDim _ _ _
    (allReal_maximumf_bot _ _ (fun i => constant_negInf_apply i)
      (allReal_reduceMax hc _ reducesTo_S5_S_d0 h_S_ rfl (by decide) hh
        (fun i => by rw [constant_negInf_apply]; exact bot_ne_top))))))

/-- With real scores, the five normalised weights are real: each is a positive real divided by the sum of the
    five positive reals, which is a positive real. -/
theorem softT_real (hc : FVec Ideal S5 .f32) (hh : AllReal hc) : AllReal (softT (F := Ideal) hc) := by
  unfold softT
  exact allReal_divf _ _ (expT_pos hc hh).allReal (allPos_broadcastInDim _ _ _ (allPos_broadcastInDim _ _ _
    (allPos_reduceAdd (expT hc) _ reducesTo_S5_S_d0 h_S_ rfl (by decide) (expT_pos hc hh)
      (fun i => constant_zero_apply i))))

/-- With real scores, every edge weight is real, whatever the edge types are: it is one of the five normalised
    weights or the word zero. -/
theorem edgeWT_real (ew : IVec S1600000 32) (hc : FVec Ideal S5 .f32) (hh : AllReal hc) :
    AllReal (edgeWT (F := Ideal) ew hc) := by
  unfold edgeWT
  exact allReal_select _ _ _ (allReal_gather _ _ _ (softT_real hc hh))
    (allReal_broadcastInDim _ _ _ allReal_constant_zero)

/-- With real node features and real scores, every message is real, whatever the integer arrays hold: it is an
    edge weight times some entry of the node features. -/
theorem msgT_real (x : FVec Ideal S100000x128 .f32) (ei : IVec S2x1600000 32) (ew : IVec S1600000 32)
    (hc : FVec Ideal S5 .f32) (hx : AllReal x) (hh : AllReal hc) : AllReal (msgT (F := Ideal) x ei ew hc) := by
  unfold msgT
  exact allReal_mulf _ _
    (allReal_broadcastInDim _ _ _ (allReal_broadcastInDim _ _ _ (edgeWT_real ew hc hh)))
    (allReal_gather _ _ _ hx)

/-- THE AGGREGATED MESSAGES ARE REAL. With real node features and real edge-type scores, every entry of the
    aggregation is a real number, whatever the edge index array and the edge types hold: it is the word zero plus a
    finite sum of messages, each of which is real. -/
theorem aggT_real (x : FVec Ideal S100000x128 .f32) (ei : (⟨S2x1600000, .i32⟩ : BufTy).Contents (Elt Ideal))
    (ew : (⟨S1600000, .i32⟩ : BufTy).Contents (Elt Ideal)) (hc : FVec Ideal S5 .f32)
    (hx : AllReal x) (hh : AllReal hc) : AllReal (aggT (F := Ideal) x ei ew hc) := by
  unfold aggT
  exact allReal_scatterAdd _ _ _ _ (allReal_broadcastInDim _ _ _ allReal_constant_zero) (msgT_real x ei ew hc hx hh)

end Chain

end Cert.ReferenceIdeal.AggReal

end
-- ==== Proof.NormMath2.lean ====
/-
  The two normalisations of the shared specification agree on arrays of real numbers.

  For a column `z_1 … z_N` of reals with mean `μ = (∑ z) / N`, the mean of the squares minus the square of the
  mean equals the mean of the squared deviations, `(∑ z²) / N − μ² = (∑ (z − μ)²) / N`, which is not negative;
  so clamping it at zero changes nothing and both programs hold the same variance `v ≥ 0`.  With `ε > 0` the
  number `v + ε` is positive, its reciprocal square root `s` is a positive real, and
  `z · (γ · s) + (β − μ · (γ · s)) = γ · (z − μ) · s + β`.

  Every definition of the specification, applied to arrays of reals, is one real expression seen as an extended
  real: a finite sum of reals is a real, division by the word `100000` is division by the real `100000`, and the
  reciprocal square root of a positive real is a real.  So arrays of reals stay arrays of reals through a layer.
-/
import proofs.«165747_j60928406061384_2_alg».proof.Proof.NormMath

noncomputable section

open scoped BigOperators

namespace Cert.Spec

open Idealize.ShloMosaic Idealize.ShloMosaic.ValueIdx Cert.Linear

/-! ## Extended reals that are reals -/

/-- A finite sum of real numbers, each seen as an extended real, is their real sum seen as an extended real. -/
theorem coe_sum {ι : Type*} (s : Finset ι) (f : ι → ℝ) :
    ∑ i ∈ s, ((f i : ℝ) : EReal) = ((∑ i ∈ s, f i : ℝ) : EReal) := by
  classical
  refine Finset.induction_on s ?_ ?_
  · simp
  · intro a s ha ih
    rw [Finset.sum_insert ha, Finset.sum_insert ha, ih, EReal.coe_add]

/-- The larger of two reals, seen as an extended real, is the larger of the two seen as extended reals. -/
theorem coe_max (x y : ℝ) : ((max x y : ℝ) : EReal) = max (x : EReal) (y : EReal) :=
  EReal.coe_strictMono.monotone.map_max

/-- The reciprocal square root of a positive real is the real `1 / √r`. -/
theorem rsqrt_pos {r : ℝ} (h : 0 < r) : Ideal.rsqrt (r : EReal) = (((Real.sqrt r)⁻¹ : ℝ) : EReal) := by
  rw [Ideal.rsqrt_coe, if_neg (not_lt.mpr h.le), if_neg h.ne']

/-- Adding the word zero to a real and dividing by the word `100000` divides the real by `100000`. -/
theorem div_count (x : ℝ) : Ideal.div (zeroW + (x : EReal)) countW = ((x / 100000 : ℝ) : EReal) := by
  rw [zeroW_eq, countW_eq, zero_add, Ideal.div_coe (by norm_num), ← EReal.coe_mul, mul_one_div]

/-- An array of reals, seen entry by entry as extended reals, is an array of reals. -/
theorem allReal_coe {S : Shape} (v : S.Idx → ℝ) : AllReal (fun i => (v i : EReal)) := fun i => ⟨v i, rfl⟩

/-- An array all of whose entries are real is an array of reals seen entry by entry as extended reals. -/
theorem AllReal.exists_eq {S : Shape} {v : S.Idx → EReal} (h : AllReal v) :
    ∃ w : S.Idx → ℝ, v = fun i => (w i : EReal) := by
  choose w hw using h
  exact ⟨w, funext hw⟩

/-! ## The variance, two ways -/

/-- Over any finite index set of `N ≠ 0` elements: the mean of the squares minus the square of the mean is
    the mean of the squared deviations from the mean. -/
theorem var_identity {ι : Type*} [Fintype ι] (z : ι → ℝ) (N : ℝ) (hN : N = (Fintype.card ι : ℝ)) (hN0 : N ≠ 0) :
    (∑ i, z i * z i) / N - (∑ i, z i) / N * ((∑ i, z i) / N)
      = (∑ i, (z i - (∑ j, z j) / N) * (z i - (∑ j, z j) / N)) / N := by
  generalize hS : ∑ j, z j = S
  have h1 : ∑ i, (z i - S / N) * (z i - S / N)
      = ∑ i, z i * z i - 2 * (S / N) * S + N * (S / N * (S / N)) := by
    have e : ∀ i, (z i - S / N) * (z i - S / N) = z i * z i - 2 * (S / N) * z i + S / N * (S / N) :=
      fun i => by ring
    simp only [e]
    rw [Finset.sum_add_distrib, Finset.sum_sub_distrib, ← Finset.mul_sum, hS, Finset.sum_const,
      Finset.card_univ, nsmul_eq_mul, ← hN]
  rw [h1]
  field_simp
  ring

/-! ## The specification on arrays of reals -/

/-- The mean of column `q` of an array of reals. -/
def meanF (z : (Mat NN CC).Idx → ℝ) (q : Fin CC) : ℝ := (∑ r : Fin NN, z (ix2 r q)) / 100000

/-- The mean of the squared deviations of column `q` from its mean. -/
def varF (z : (Mat NN CC).Idx → ℝ) (q : Fin CC) : ℝ :=
  (∑ r : Fin NN, (z (ix2 r q) - meanF z q) * (z (ix2 r q) - meanF z q)) / 100000

/-- The normalised array: `max (γ · (z − mean) / √(var + e) + β) 0`, column by column. -/
def normF (e : ℝ) (z : (Mat NN CC).Idx → ℝ) (g b : (Vec1 CC).Idx → ℝ) : (Mat NN CC).Idx → ℝ :=
  fun i => max (g (ix1 (i 1)) * (z i - meanF z (i 1)) * (Real.sqrt (varF z (i 1) + e))⁻¹ + b (ix1 (i 1))) 0

/-- The dense map on arrays of reals: `h · w + c`. -/
def denseF (h : (Mat NN CC).Idx → ℝ) (w : (Mat CC CC).Idx → ℝ) (c : (Vec1 CC).Idx → ℝ) : (Mat NN CC).Idx → ℝ :=
  fun i => ∑ k : Fin CC, h (ix2 (n0 := NN) (n1 := CC) (i 0) k) * w (ix2 (n0 := CC) (n1 := CC) k (i 1)) + c (ix1 (i 1))

/-- The variance of a column of reals is not negative. -/
theorem varF_nonneg (z : (Mat NN CC).Idx → ℝ) (q : Fin CC) : 0 ≤ varF z q :=
  div_nonneg (Finset.sum_nonneg fun _ _ => mul_self_nonneg _) (by norm_num)

/-- The kernel's column mean of an array of reals is the real mean. -/
theorem meanK_coe (z : (Mat NN CC).Idx → ℝ) (q : Fin CC) :
    meanK (fun i => (z i : EReal)) q = (meanF z q : EReal) := by
  simp only [meanK, colSum, meanF, coe_sum, div_count]

/-- The reference's column mean of an array of reals is the real mean. -/
theorem meanR_coe (z : (Mat NN CC).Idx → ℝ) (q : Fin CC) :
    meanR (fun i => (z i : EReal)) q = (meanF z q : EReal) := by
  simp only [meanR, colSum, meanF, coe_sum, div_count]

/-- The reference's column variance of an array of reals is the real mean of the squared deviations. -/
theorem varR_coe (z : (Mat NN CC).Idx → ℝ) (q : Fin CC) :
    varR (fun i => (z i : EReal)) q = (varF z q : EReal) := by
  simp only [varR, meanR_coe, varF, ← EReal.coe_sub, ← EReal.coe_mul, coe_sum, div_count]

/-- The kernel's column variance of an array of reals (mean of squares minus squared mean, clamped at zero) is
    the same real: the difference equals the mean of the squared deviations, which is not negative. -/
theorem varK_coe (z : (Mat NN CC).Idx → ℝ) (q : Fin CC) :
    varK (fun i => (z i : EReal)) q = (varF z q : EReal) := by
  have hsq : sqMeanK (fun i => (z i : EReal)) q
      = (((∑ r : Fin NN, z (ix2 r q) * z (ix2 r q)) / 100000 : ℝ) : EReal) := by
    simp only [sqMeanK, colSumSq, ← EReal.coe_mul, coe_sum, div_count]
  rw [varK, hsq, meanK_coe, ← EReal.coe_mul, ← EReal.coe_sub, zeroW_eq, ← EReal.coe_zero, ← coe_max]
  congr 1
  have hid := var_identity (fun r : Fin NN => z (ix2 r q)) 100000 (by simp) (by norm_num)
  simp only [] at hid
  have h0 := varF_nonneg z q
  simp only [varF, meanF] at h0 ⊢
  rw [hid]
  exact max_eq_left h0

/-- The reciprocal square root of a column variance plus a positive real is a real. -/
theorem rsqrt_var_coe (z : (Mat NN CC).Idx → ℝ) (q : Fin CC) {e : ℝ} (he : 0 < e) :
    Ideal.rsqrt ((varF z q : EReal) + (e : EReal)) = (((Real.sqrt (varF z q + e))⁻¹ : ℝ) : EReal) := by
  rw [← EReal.coe_add, rsqrt_pos (add_pos_of_nonneg_of_pos (varF_nonneg z q) he)]

/-- The same, the sum already one real. -/
theorem rsqrt_var_coe' (z : (Mat NN CC).Idx → ℝ) (q : Fin CC) {e : ℝ} (he : 0 < e) :
    Ideal.rsqrt (((varF z q + e : ℝ)) : EReal) = (((Real.sqrt (varF z q + e))⁻¹ : ℝ) : EReal) :=
  rsqrt_pos (add_pos_of_nonneg_of_pos (varF_nonneg z q) he)

/-- The reference's normalised entry, for a row entry `x` of column `q` of an array of reals, is real. -/
theorem normR_entry {e : ℝ} (he : 0 < e) (hε : epsW = (e : EReal)) (z : (Mat NN CC).Idx → ℝ)
    (g b : (Vec1 CC).Idx → ℝ) (x : ℝ) (q : Fin CC) :
    max ((g (ix1 q) : EReal) * ((x : EReal) - meanR (fun i => (z i : EReal)) q)
          * Ideal.rsqrt (varR (fun i => (z i : EReal)) q + epsW) + (b (ix1 q) : EReal)) zeroW
      = ((max (g (ix1 q) * (x - meanF z q) * (Real.sqrt (varF z q + e))⁻¹ + b (ix1 q)) 0 : ℝ) : EReal) := by
  rw [meanR_coe, varR_coe, hε, rsqrt_var_coe _ _ he, zeroW_eq, ← EReal.coe_sub, ← EReal.coe_mul,
    ← EReal.coe_mul, ← EReal.coe_add, ← EReal.coe_zero, ← coe_max]

/-- The kernel's normalised entry, for a row entry `x` of column `q` of an array of reals, is the same real:
    `x · (γ · s) + (β − μ · (γ · s)) = γ · (x − μ) · s + β`. -/
theorem normK_entry {e : ℝ} (he : 0 < e) (hε : epsW = (e : EReal)) (z : (Mat NN CC).Idx → ℝ)
    (g b : (Vec1 CC).Idx → ℝ) (x : ℝ) (q : Fin CC) :
    max ((x : EReal) * scaleK (fun i => (z i : EReal)) (fun j => (g j : EReal)) q
          + shiftK (fun i => (z i : EReal)) (fun j => (g j : EReal)) (fun j => (b j : EReal)) q) zeroW
      = ((max (g (ix1 q) * (x - meanF z q) * (Real.sqrt (varF z q + e))⁻¹ + b (ix1 q)) 0 : ℝ) : EReal) := by
  have hs : scaleK (fun i => (z i : EReal)) (fun j => (g j : EReal)) q
      = ((g (ix1 q) * (Real.sqrt (varF z q + e))⁻¹ : ℝ) : EReal) := by
    simp only [scaleK]
    rw [varK_coe, hε, rsqrt_var_coe _ _ he, ← EReal.coe_mul]
  have ht : shiftK (fun i => (z i : EReal)) (fun j => (g j : EReal)) (fun j => (b j : EReal)) q
      = ((b (ix1 q) - meanF z q * (g (ix1 q) * (Real.sqrt (varF z q + e))⁻¹) : ℝ) : EReal) := by
    simp only [shiftK]
    rw [hs, meanK_coe, ← EReal.coe_mul, ← EReal.coe_sub]
  rw [hs, ht, zeroW_eq, ← EReal.coe_mul, ← EReal.coe_add, ← EReal.coe_zero, ← coe_max]
  congr 2
  ring

/-- The reference's normalisation of arrays of reals is the real normalisation. -/
theorem normR_coe {e : ℝ} (he : 0 < e) (hε : epsW = (e : EReal)) (z : (Mat NN CC).Idx → ℝ)
    (g b : (Vec1 CC).Idx → ℝ) :
    normR (fun i => (z i : EReal)) (fun j => (g j : EReal)) (fun j => (b j : EReal))
      = fun i => ((normF e z g b i : ℝ) : EReal) :=
  funext fun i => normR_entry he hε z g b (z i) (i 1)

/-- The kernel's normalisation of arrays of reals is the same real normalisation. -/
theorem normK_coe {e : ℝ} (he : 0 < e) (hε : epsW = (e : EReal)) (z : (Mat NN CC).Idx → ℝ)
    (g b : (Vec1 CC).Idx → ℝ) :
    normK (fun i => (z i : EReal)) (fun j => (g j : EReal)) (fun j => (b j : EReal))
      = fun i => ((normF e z g b i : ℝ) : EReal) :=
  funext fun i => normK_entry he hε z g b (z i) (i 1)

/-- The dense map of arrays of reals is the real dense map. -/
theorem dense_coe (h : (Mat NN CC).Idx → ℝ) (w : (Mat CC CC).Idx → ℝ) (c : (Vec1 CC).Idx → ℝ) :
    dense (fun i => (h i : EReal)) (fun i => (w i : EReal)) (fun j => (c j : EReal))
      = fun i => ((denseF h w c i : ℝ) : EReal) := by
  funext i
  simp only [dense, matProd, denseF, ← EReal.coe_mul, coe_sum, ← EReal.coe_add]

/-! ## Arrays of reals stay arrays of reals -/

/-- The layer's input built from arrays of reals is an array of reals. -/
theorem allReal_combine {X A : (Mat NN CC).Idx → EReal} (hX : AllReal X) (hA : AllReal A) :
    AllReal (combine X A) := by
  intro i
  obtain ⟨x, hx⟩ := hX i
  obtain ⟨a, ha⟩ := hA i
  exact ⟨x + a, by simp only [combine, hx, ha, oneW_eq, one_mul, EReal.coe_add]⟩

/-- The dense map of arrays of reals is an array of reals. -/
theorem allReal_dense {H : (Mat NN CC).Idx → EReal} {W : (Mat CC CC).Idx → EReal} {b : (Vec1 CC).Idx → EReal}
    (hH : AllReal H) (hW : AllReal W) (hb : AllReal b) : AllReal (dense H W b) := by
  obtain ⟨h, rfl⟩ := hH.exists_eq
  obtain ⟨w, rfl⟩ := hW.exists_eq
  obtain ⟨c, rfl⟩ := hb.exists_eq
  rw [dense_coe]
  exact allReal_coe _

/-- The kernel's normalisation of arrays of reals is an array of reals. -/
theorem allReal_normK {Z : (Mat NN CC).Idx → EReal} {γ β : (Vec1 CC).Idx → EReal}
    (hZ : AllReal Z) (hγ : AllReal γ) (hβ : AllReal β) : AllReal (normK Z γ β) := by
  obtain ⟨e, he, hε⟩ := epsW_eq
  obtain ⟨z, rfl⟩ := hZ.exists_eq
  obtain ⟨g, rfl⟩ := hγ.exists_eq
  obtain ⟨b, rfl⟩ := hβ.exists_eq
  rw [normK_coe he hε]
  exact allReal_coe _

/-- The reference's normalisation of arrays of reals is an array of reals. -/
theorem allReal_normR {Z : (Mat NN CC).Idx → EReal} {γ β : (Vec1 CC).Idx → EReal}
    (hZ : AllReal Z) (hγ : AllReal γ) (hβ : AllReal β) : AllReal (normR Z γ β) := by
  obtain ⟨e, he, hε⟩ := epsW_eq
  obtain ⟨z, rfl⟩ := hZ.exists_eq
  obtain ⟨g, rfl⟩ := hγ.exists_eq
  obtain ⟨b, rfl⟩ := hβ.exists_eq
  rw [normR_coe he hε]
  exact allReal_coe _

/-! ## The two programs' normalisations agree -/

/-- On arrays of reals the kernel's normalisation (variance as mean of squares minus squared mean, clamped;
    scale and shift folded) equals the reference's (centre first, then mean of squared deviations). -/
theorem normK_eq_normR (Z : (Mat NN CC).Idx → EReal) (γ β : (Vec1 CC).Idx → EReal)
    (hZ : AllReal Z) (hγ : AllReal γ) (hβ : AllReal β) : normK Z γ β = normR Z γ β := by
  obtain ⟨e, he, hε⟩ := epsW_eq
  obtain ⟨z, rfl⟩ := hZ.exists_eq
  obtain ⟨g, rfl⟩ := hγ.exists_eq
  obtain ⟨b, rfl⟩ := hβ.exists_eq
  rw [normK_coe he hε, normR_coe he hε]

/-- Two layers: on real inputs and parameters the kernel's output equals the reference's. -/
theorem outK_eq_outR (X A : (Mat NN CC).Idx → EReal) (W1 : (Mat CC CC).Idx → EReal)
    (b1 γ1 β1 : (Vec1 CC).Idx → EReal) (W2 : (Mat CC CC).Idx → EReal) (b2 γ2 β2 : (Vec1 CC).Idx → EReal)
    (hX : AllReal X) (hA : AllReal A) (hW1 : AllReal W1) (hb1 : AllReal b1) (hγ1 : AllReal γ1)
    (hβ1 : AllReal β1) (hW2 : AllReal W2) (hb2 : AllReal b2) (hγ2 : AllReal γ2) (hβ2 : AllReal β2) :
    outK X A W1 b1 γ1 β1 W2 b2 γ2 β2 = outR X A W1 b1 γ1 β1 W2 b2 γ2 β2 := by
  unfold outK outR
  have h1 := allReal_dense (allReal_combine hX hA) hW1 hb1
  rw [normK_eq_normR _ _ _ h1 hγ1 hβ1]
  have h3 := allReal_dense (allReal_normR h1 hγ1 hβ1) hW2 hb2
  rw [normK_eq_normR _ _ _ h3 hγ2 hβ2]

end Cert.Spec

end
-- ==== Proof.Bridge.lean ====
/-
  The reference's result is the kernel's, given real arguments.

  The reference's run ends at its four stage functions composed twice over; each stage is the specification's function
  (the feature combine, the dense layer, the centred normalisation), so the result is `outR` of the arguments and the
  aggregated messages. The aggregated messages are real numbers as soon as the features and the hop coefficients are;
  and on real arrays the kernel's folded normalisation `outK` and the reference's centred one agree.
-/
import proofs.«165747_j60928406061384_2_alg».proof.Proof.RefRead
import proofs.«165747_j60928406061384_2_alg».proof.Proof.AggReal
import proofs.«165747_j60928406061384_2_alg».proof.Proof.NormMath2

noncomputable section

namespace Cert.Bridge

open Idealize.ShloMosaic Cert.Spec Cert.ReferenceIdeal Cert.ReferenceIdeal.RefStages

theorem ref_value (x : FVec Ideal S100000x128 .f32) (ei : (⟨S2x1600000, .i32⟩ : BufTy).Contents (Elt Ideal))
    (ew : (⟨S1600000, .i32⟩ : BufTy).Contents (Elt Ideal)) (hc : FVec Ideal S5 .f32)
    (w1 : FVec Ideal S128x128 .f32) (b1 g1 bt1 : FVec Ideal S128 .f32)
    (w2 : FVec Ideal S128x128 .f32) (b2 g2 bt2 : FVec Ideal S128 .f32)
    (hx : AllReal x) (hhc : AllReal hc) (hw1 : AllReal w1) (hb1 : AllReal b1) (hg1 : AllReal g1) (hbt1 : AllReal bt1)
    (hw2 : AllReal w2) (hb2 : AllReal b2) (hg2 : AllReal g2) (hbt2 : AllReal bt2) :
    bnT (F := Ideal) (denseT (bnT (denseT (combT x (aggT x ei ew hc)) w1 b1) g1 bt1) w2 b2) g2 bt2
      = outK x (aggT (F := Ideal) x ei ew hc) w1 b1 g1 bt1 w2 b2 g2 bt2 := by
  rw [RefRead.bnT_eq, RefRead.denseT_eq, RefRead.bnT_eq, RefRead.denseT_eq, RefRead.combT_eq]
  exact (outK_eq_outR x (aggT (F := Ideal) x ei ew hc) w1 b1 g1 bt1 w2 b2 g2 bt2 hx
    (AggReal.aggT_real x ei ew hc hx hhc) hw1 hb1 hg1 hbt1 hw2 hb2 hg2 hbt2).symm

end Cert.Bridge

end
-- ==== Proof.PreReal.lean ====
/-
  From the precondition to "every float argument holds real numbers".

  The precondition is the conjunction, over the ten float arguments, of "every entry x has |x| < +∞", where |x| is
  max x (−x) and +∞ is the value of the word 0x7F800000. An extended real whose absolute value is below +∞ is neither
  +∞ nor −∞ (the value that also stands for a NaN), so it is a real number.
-/
import proofs.«165747_j60928406061384_2_alg».proof.Proof.Gen.Pre_finite_inputs
import proofs.«165747_j60928406061384_2_alg».proof.Proof.Spec
import Idealize.ShloMosaic.Lib.ReduceAll

noncomputable section

namespace Cert.Pre_finite_inputs.PreReal

open Idealize.ShloMosaic Idealize.ShloMosaic.ValueIdx

/-- The float word 0x7F800000 denotes +∞. -/
theorem inf_word : Ideal.ofBits .f32 0x7F800000#32 = ⊤ := by simp [Ideal.ofBits, Ideal.ieee]

/-- An extended real whose absolute value max x (−x) is strictly below +∞ is a real number:
    at +∞ the maximum is +∞, and at −∞ the negation is +∞. -/
theorem real_of_abs_lt_top (x : EReal) (h : max x (-x) < ⊤) : ∃ r : ℝ, x = (r : EReal) := by
  induction x using EReal.rec with
  | bot => simp at h
  | coe r => exact ⟨r, rfl⟩
  | top => simp at h

/-- If the comparison "|x| < the value of the word 0x7F800000" answers 1, then x is a real number. -/
theorem real_of_cmp (x : EReal)
    (h : Ideal.cmp .olt (max x (-x)) (Ideal.ofBits .f32 0x7F800000#32) = 1#1) : ∃ r : ℝ, x = (r : EReal) := by
  rw [inf_word] at h
  by_cases hlt : max x (-x) < ⊤
  · exact real_of_abs_lt_top x hlt
  · simp [Ideal.cmp, hlt] at h

/-- The rank-0 shape has one index. -/
instance : Subsingleton S_.Idx := ⟨fun a b => funext fun d => d.elim0⟩

/-- For an array x of any shape: if the "and" over all entries of "|x| < +∞" (the comparison of |x| with the
    broadcast word 0x7F800000) is 1, then every entry of x is a real number. -/
theorem allReal_of_all {s : Shape} {axes : List (Fin s.rank)} (x : FVec Ideal s .f32)
    (hb : S_.BroadcastsInDim s (![] : Fin 0 → Fin s.rank)) (h : s.ReducesTo axes S_) (hu : 0 < S_.numel)
    (init : IVec S_ 1) (j : S_.Idx)
    (e : Host.reduce IntOp.andi (cmpf .olt (Host.absf x) (broadcastInDim s ![] hb (constant S_ .f32 0x7F800000#32)))
          init h hu j = 1#1) :
    Cert.Spec.AllReal x := by
  intro i
  have hi := Host.reduce_andi_all _ init h hu j e i
  exact real_of_cmp (x i) hi

/-- An entrywise "and" of two arrays of bits that is 1 at an index has both operands 1 there. -/
theorem and_split {s : Shape} (a b : IVec s 1) (j : s.Idx) (h : andi a b j = 1#1) : a j = 1#1 ∧ b j = 1#1 :=
  IntOp.andi_eq_one.1 h

/-- The precondition, read back: if the printed predicate (the "and", over the ten float arguments, of "every entry
    has absolute value below +∞") is 1, then every entry of each of the ten float arguments is a real number. -/
theorem allReal_of_pre [Cert.Pre_finite_inputs.Facts]
    (a0 : FVec Ideal S100000x128 .f32) (a1 : IVec S2x1600000 32) (a2 : IVec S1600000 32)
    (a3 : FVec Ideal S5 .f32) (a4 : FVec Ideal S128x128 .f32) (a5 : FVec Ideal S128 .f32) (a6 : FVec Ideal S128 .f32)
    (a7 : FVec Ideal S128 .f32) (a8 : FVec Ideal S128x128 .f32) (a9 : FVec Ideal S128 .f32) (a10 : FVec Ideal S128 .f32)
    (a11 : FVec Ideal S128 .f32)
    (h : Cert.Pre_finite_inputs.fn (F := Ideal) a0 a1 a2 a3 a4 a5 a6 a7 a8 a9 a10 a11 = (fun _ => 1#1)) :
    Cert.Spec.AllReal a0 ∧ Cert.Spec.AllReal a3 ∧ Cert.Spec.AllReal a4 ∧ Cert.Spec.AllReal a5 ∧ Cert.Spec.AllReal a6
      ∧ Cert.Spec.AllReal a7 ∧ Cert.Spec.AllReal a8 ∧ Cert.Spec.AllReal a9 ∧ Cert.Spec.AllReal a10
      ∧ Cert.Spec.AllReal a11 := by
  have h0 := congrFun h ix0
  dsimp only [fn, fn_part1, fn_part2] at h0
  -- the nine "and"s, outermost first: the last argument's conjunct comes off first
  obtain ⟨h0, e11⟩ := and_split _ _ _ h0
  obtain ⟨h0, e10⟩ := and_split _ _ _ h0
  obtain ⟨h0, e9⟩ := and_split _ _ _ h0
  obtain ⟨h0, e8⟩ := and_split _ _ _ h0
  obtain ⟨h0, e7⟩ := and_split _ _ _ h0
  obtain ⟨h0, e6⟩ := and_split _ _ _ h0
  obtain ⟨h0, e5⟩ := and_split _ _ _ h0
  obtain ⟨h0, e4⟩ := and_split _ _ _ h0
  obtain ⟨e0, e3⟩ := and_split _ _ _ h0
  exact ⟨allReal_of_all a0 _ _ _ _ _ e0, allReal_of_all a3 _ _ _ _ _ e3, allReal_of_all a4 _ _ _ _ _ e4,
    allReal_of_all a5 _ _ _ _ _ e5, allReal_of_all a6 _ _ _ _ _ e6, allReal_of_all a7 _ _ _ _ _ e7,
    allReal_of_all a8 _ _ _ _ _ e8, allReal_of_all a9 _ _ _ _ _ e9, allReal_of_all a10 _ _ _ _ _ e10,
    allReal_of_all a11 _ _ _ _ _ e11⟩

end Cert.Pre_finite_inputs.PreReal

end
-- ==== Proof.lean ====
/-
  The certificate: a two-layer graph network (sparse message aggregation, then twice: a dense layer, batch
  normalisation over all 100000 nodes, and a clamp at zero) computed by three tiled launches against its plain
  array-program reference, equal at the extended reals whenever every float argument is finite.

  Both programs form the aggregated messages by the same host operations. The kernel's launches tile the node axis in 20
  blocks of 5000 rows; a row of a matrix product depends on that row of the left operand only, and a sum over the
  20 block sums is the sum over all rows, so the launches compute the whole dense layers and their column sums and
  sums of squares. The kernel normalises with `max (E[z²] − E[z]², 0)` folded into one scale and one shift per column,
  the reference with the centred variance; on real numbers these are the same function, and under the precondition
  every array on the way is real: the arguments by assumption, the aggregated messages as finite sums of products of
  them, each dense layer and each normalisation by closure of the reals under the operations used (the variance plus
  the positive epsilon word is positive, so its inverse square root is real).

  The three frames are the generated frame certificates (the reference's from its run); the idealization ledger is
  empty.
-/
import proofs.«165747_j60928406061384_2_alg».proof.Defs
import proofs.«165747_j60928406061384_2_alg».proof.Proof.Gen.Kernel
import proofs.«165747_j60928406061384_2_alg».proof.Proof.Gen.Kernel.Frame
import proofs.«165747_j60928406061384_2_alg».proof.Proof.Gen.KernelIdeal
import proofs.«165747_j60928406061384_2_alg».proof.Proof.Gen.KernelIdeal.Frame
import proofs.«165747_j60928406061384_2_alg».proof.Proof.Gen.ReferenceIdeal
import proofs.«165747_j60928406061384_2_alg».proof.Proof.Gen.Pre_finite_inputs
import proofs.«165747_j60928406061384_2_alg».proof.Proof.KRun
import proofs.«165747_j60928406061384_2_alg».proof.Proof.KValue
import proofs.«165747_j60928406061384_2_alg».proof.Proof.RefRun
import proofs.«165747_j60928406061384_2_alg».proof.Proof.RefTerm
import proofs.«165747_j60928406061384_2_alg».proof.Proof.Bridge
import proofs.«165747_j60928406061384_2_alg».proof.Proof.PreReal
import Idealize.ShloMosaic.Adequacy
import Idealize.ShloMosaic.Init

noncomputable section

namespace Cert.Proof

open Idealize.ShloMosaic Idealize.ShloMosaic.TcCoe Idealize.SL.Sem Idealize.ShloMosaic.StableHlo

theorem frame_kernel : Cert.frame_Kernel := fun m ρ _ => Cert.Kernel.Gen.frame m ρ

theorem frame_kernelIdeal : Cert.frame_KernelIdeal := fun m ρ _ => Cert.KernelIdeal.Gen.frame m ρ

/-- The reference writes no argument: its run, with each argument read back. -/
theorem frame_reference : Cert.frame_ReferenceIdeal := fun m ρ _ =>
  (θ_run Cert.ReferenceIdeal.defs _ _).mono (fun r h c =>
    ⟨(h c _).trans (Cert.ReferenceIdeal.RefTerm.arg0_kept _),
     (h c _).trans (Cert.ReferenceIdeal.RefTerm.arg1_kept _),
     (h c _).trans (Cert.ReferenceIdeal.RefTerm.arg2_kept _),
     (h c _).trans (Cert.ReferenceIdeal.RefTerm.arg3_kept _),
     (h c _).trans (Cert.ReferenceIdeal.RefTerm.arg4_kept _),
     (h c _).trans (Cert.ReferenceIdeal.RefTerm.arg5_kept _),
     (h c _).trans (Cert.ReferenceIdeal.RefTerm.arg6_kept _),
     (h c _).trans (Cert.ReferenceIdeal.RefTerm.arg7_kept _),
     (h c _).trans (Cert.ReferenceIdeal.RefTerm.arg8_kept _),
     (h c _).trans (Cert.ReferenceIdeal.RefTerm.arg9_kept _),
     (h c _).trans (Cert.ReferenceIdeal.RefTerm.arg10_kept _),
     (h c _).trans (Cert.ReferenceIdeal.RefTerm.arg11_kept _)⟩)
    (Cert.ReferenceIdeal.RefRun.run (F := Ideal) m ρ)

/-- Both programs end with the same result: the kernel's result array is `outK` of the arguments and the aggregated
    messages (its run read through the three launches), the reference's is `outR` of the same (its stages), and the two
    agree on the real arrays the precondition gives. -/
theorem algebraic : Cert.algebraic_KernelIdeal_ReferenceIdeal := by
  intro m ρ m' ρ' hpre hagree
  refine ⟨fun c => Cert.Spec.outK (m ((c.tc : Thread Cert.KernelIdeal.nD Cert.KernelIdeal.τ).loc Cert.KernelIdeal.main_arg0)) (Cert.KernelIdeal.KValue.aggA m c) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.KernelIdeal.KValue.result_eq m ρ c), (h c).2⟩)
      (Cert.KernelIdeal.KRun.run_named m ρ)
  · refine (θ_run Cert.ReferenceIdeal.defs _ _).mono (fun r h c =>
      ⟨?_,
       (h c _).trans (Cert.ReferenceIdeal.RefTerm.arg0_kept _),
       (h c _).trans (Cert.ReferenceIdeal.RefTerm.arg1_kept _),
       (h c _).trans (Cert.ReferenceIdeal.RefTerm.arg2_kept _),
       (h c _).trans (Cert.ReferenceIdeal.RefTerm.arg3_kept _),
       (h c _).trans (Cert.ReferenceIdeal.RefTerm.arg4_kept _),
       (h c _).trans (Cert.ReferenceIdeal.RefTerm.arg5_kept _),
       (h c _).trans (Cert.ReferenceIdeal.RefTerm.arg6_kept _),
       (h c _).trans (Cert.ReferenceIdeal.RefTerm.arg7_kept _),
       (h c _).trans (Cert.ReferenceIdeal.RefTerm.arg8_kept _),
       (h c _).trans (Cert.ReferenceIdeal.RefTerm.arg9_kept _),
       (h c _).trans (Cert.ReferenceIdeal.RefTerm.arg10_kept _),
       (h c _).trans (Cert.ReferenceIdeal.RefTerm.arg11_kept _)⟩)
      (Cert.ReferenceIdeal.RefRun.run (F := Ideal) m' ρ')
    obtain ⟨a0, a1, a2, a3, a4, a5, a6, a7, a8, a9, a10, a11⟩ := hagree c
    obtain ⟨r0, r3, r4, r5, r6, r7, r8, r9, r10, r11⟩ :=
      Cert.Pre_finite_inputs.PreReal.allReal_of_pre _ _ _ _ _ _ _ _ _ _ _ _ (hpre c)
    refine (h c _).trans ((Cert.ReferenceIdeal.RefTerm.result_term (launchContents m' c)).trans ?_)
    have e0 : launchContents m' c (Proc.devRef .tc Cert.ReferenceIdeal.main_arg0) = (m ((c.tc : Thread Cert.KernelIdeal.nD Cert.KernelIdeal.τ).loc Cert.KernelIdeal.main_arg0)) := a0
    have e1 : launchContents m' c (Proc.devRef .tc Cert.ReferenceIdeal.main_arg1) = (m ((c.tc : Thread Cert.KernelIdeal.nD Cert.KernelIdeal.τ).loc Cert.KernelIdeal.main_arg1)) := a1
    have e2 : launchContents m' c (Proc.devRef .tc Cert.ReferenceIdeal.main_arg2) = (m ((c.tc : Thread Cert.KernelIdeal.nD Cert.KernelIdeal.τ).loc Cert.KernelIdeal.main_arg2)) := a2
    have e3 : launchContents m' c (Proc.devRef .tc Cert.ReferenceIdeal.main_arg3) = (m ((c.tc : Thread Cert.KernelIdeal.nD Cert.KernelIdeal.τ).loc Cert.KernelIdeal.main_arg3)) := a3
    have e4 : launchContents m' c (Proc.devRef .tc Cert.ReferenceIdeal.main_arg4) = (m ((c.tc : Thread Cert.KernelIdeal.nD Cert.KernelIdeal.τ).loc Cert.KernelIdeal.main_arg4)) := a4
    have e5 : launchContents m' c (Proc.devRef .tc Cert.ReferenceIdeal.main_arg5) = (m ((c.tc : Thread Cert.KernelIdeal.nD Cert.KernelIdeal.τ).loc Cert.KernelIdeal.main_arg5)) := a5
    have e6 : launchContents m' c (Proc.devRef .tc Cert.ReferenceIdeal.main_arg6) = (m ((c.tc : Thread Cert.KernelIdeal.nD Cert.KernelIdeal.τ).loc Cert.KernelIdeal.main_arg6)) := a6
    have e7 : launchContents m' c (Proc.devRef .tc Cert.ReferenceIdeal.main_arg7) = (m ((c.tc : Thread Cert.KernelIdeal.nD Cert.KernelIdeal.τ).loc Cert.KernelIdeal.main_arg7)) := a7
    have e8 : launchContents m' c (Proc.devRef .tc Cert.ReferenceIdeal.main_arg8) = (m ((c.tc : Thread Cert.KernelIdeal.nD Cert.KernelIdeal.τ).loc Cert.KernelIdeal.main_arg8)) := a8
    have e9 : launchContents m' c (Proc.devRef .tc Cert.ReferenceIdeal.main_arg9) = (m ((c.tc : Thread Cert.KernelIdeal.nD Cert.KernelIdeal.τ).loc Cert.KernelIdeal.main_arg9)) := a9
    have e10 : launchContents m' c (Proc.devRef .tc Cert.ReferenceIdeal.main_arg10) = (m ((c.tc : Thread Cert.KernelIdeal.nD Cert.KernelIdeal.τ).loc Cert.KernelIdeal.main_arg10)) := a10
    have e11 : launchContents m' c (Proc.devRef .tc Cert.ReferenceIdeal.main_arg11) = (m ((c.tc : Thread Cert.KernelIdeal.nD Cert.KernelIdeal.τ).loc Cert.KernelIdeal.main_arg11)) := a11
    rw [e0, e1, e2, e3, e4, e5, e6, e7, e8, e9, e10, e11]
    exact Cert.Bridge.ref_value _ _ _ _ _ _ _ _ _ _ _ _ r0 r3 r4 r5 r6 r7 r8 r9 r10 r11

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
